-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v11_0)) (v2 : (c : Dev Cert.KernelIdeal.nD) → Buf (Elt Ideal) ((c.tc : Thread Cert.KernelIdeal.nD Cert.KernelIdeal.τ).loc Cert.KernelIdeal.main_v11_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v11_0) = v1 c
          ∧ r.2.mem ((c.tc : Thread Cert.KernelIdeal.nD Cert.KernelIdeal.τ).loc Cert.KernelIdeal.main_v11_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_v41) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel

variable [Facts]

def fn_part1 {F : FTy → Type} [FloatOps F] (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  main_v18

def fn {F : FTy → Type} [FloatOps F] (main_arg0 : FVec F S4096x4096 .f32) (main_arg1 : FVec F S4096x4096 .f32) (main_arg2 : FVec F S4096x4096 .f32) (main_arg3 : FVec F S4096x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_v13 main_v16
-- ==== Kernel.lean ====
abbrev S4096x4096 : Shape := ⟨2, ![4096, 4096]⟩
abbrev S128x4096 : Shape := ⟨2, ![128, 4096]⟩
abbrev S128 : Shape := ⟨1, ![128]⟩
abbrev S128x1 : Shape := ⟨2, ![128, 1]⟩
abbrev S512x1024 : Shape := ⟨2, ![512, 1024]⟩
abbrev S512x512 : Shape := ⟨2, ![512, 512]⟩
abbrev S1024x512 : Shape := ⟨2, ![1024, 512]⟩
abbrev S_ : Shape := ⟨0, ![]⟩
abbrev S1x1 : Shape := ⟨2, ![1, 1]⟩

abbrev nBuf : Space → Nat
  | .hbm => 24
  | .vmem => 35
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096x4096, .bf16⟩
  | .hbm, ⟨5, _⟩ => ⟨S4096x4096, .f32⟩
  | .hbm, ⟨6, _⟩ => ⟨S4096x4096, .bf16⟩
  | .hbm, ⟨7, _⟩ => ⟨S4096x4096, .f32⟩
  | .hbm, ⟨8, _⟩ => ⟨S4096x4096, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .i1⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S1x1, .f32⟩
  | .hbm, ⟨22, _⟩ => ⟨S4096x4096, .f32⟩
  | .hbm, ⟨23, _⟩ => ⟨S4096x4096, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S128x4096, .f32⟩
  | .local _ .vmem, ⟨5, _⟩ => ⟨S128x4096, .f32⟩
  | .local _ .vmem, ⟨6, _⟩ => ⟨S128x4096, .bf16⟩
  | .local _ .vmem, ⟨7, _⟩ => ⟨S128x4096, .bf16⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S512x512, .f32⟩
  | .local _ .vmem, ⟨13, _⟩ => ⟨S512x512, .f32⟩
  | .local _ .vmem, ⟨14, _⟩ => ⟨S512x512, .bf16⟩
  | .local _ .vmem, ⟨15, _⟩ => ⟨S512x512, .bf16⟩
  | .local _ .vmem, ⟨16, _⟩ => ⟨S512x512, .f32⟩
  | .local _ .vmem, ⟨17, _⟩ => ⟨S1024x512, .bf16⟩
  | .local _ .vmem, ⟨18, _⟩ => ⟨S1024x512, .bf16⟩
  | .local _ .vmem, ⟨19, _⟩ => ⟨S1024x512, .f32⟩
  | .local _ .vmem, ⟨20, _⟩ => ⟨S1024x512, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | .local _ .vmem, ⟨24, _⟩ => ⟨S512x512, .f32⟩
  | .local _ .vmem, ⟨25, _⟩ => ⟨S512x512, .f32⟩
  | .local _ .vmem, ⟨26, _⟩ => ⟨S128x4096, .f32⟩
  | .local _ .vmem, ⟨27, _⟩ => ⟨S128x4096, .f32⟩
  | .local _ .vmem, ⟨28, _⟩ => ⟨S128x4096, .f32⟩
  | .local _ .vmem, ⟨29, _⟩ => ⟨S128x4096, .f32⟩
  | .local _ .vmem, ⟨30, _⟩ => ⟨S1x1, .f32⟩
  | .local _ .vmem, ⟨31, _⟩ => ⟨S128x4096, .f32⟩
  | .local _ .vmem, ⟨32, _⟩ => ⟨S128x4096, .f32⟩
  | .local _ .vmem, ⟨33, _⟩ => ⟨S128x4096, .f32⟩
  | .local _ .vmem, ⟨34, _⟩ => ⟨S128x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_cst_3 : Ref sig .tc := ⟨.hbm, 18, rfl⟩
abbrev main_call0_v0 : Ref sig .tc := ⟨.hbm, 19, rfl⟩
abbrev main_v9 : Ref sig .tc := ⟨.hbm, 20, rfl⟩
abbrev main_v10 : Ref sig .tc := ⟨.hbm, 21, rfl⟩
abbrev main_v11_0 : Ref sig .tc := ⟨.hbm, 22, rfl⟩
abbrev main_v11_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_scratch0 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg3_1 : Ref sig .tc := ⟨.vmem, 24, rfl⟩
abbrev cc2_scratch0 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg3_1 : Ref sig .tc := ⟨.vmem, 32, rfl⟩
abbrev cc3_stg4_0 : Ref sig .tc := ⟨.vmem, 33, rfl⟩
abbrev cc3_stg4_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem3_1 : DmaSem sig := 30
abbrev cc3_sem4_0 : DmaSem sig := 31
abbrev cc3_sem4_1 : DmaSem sig := 32

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨3, ![8, 8, 4], ![false, false, false]⟩

def k1_cond2 (i : grid1.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S512x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨3, ![8, 8, 4], ![false, false, false]⟩

def k2_cond2 (i : grid2.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S512x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S512x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S128x4096 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S128x4096 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S128x4096 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S128x4096 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  inb_S128x4096_S128x4096_0_0 : ∀ a, (![0, 0] : Fin 2 → Nat) a + S128x4096.size a ≤ S128x4096.size a
  h_S128x4096 : 0 < S128x4096.numel
  reduces_S128x4096_S128 : S128x4096.Reduces [1] S128
  shapeCasts_S128_S128x1 : S128.ShapeCasts S128x1
  broadcasts_S128x1_S128x4096 : S128x1.Broadcasts S128x4096
  bitsLt_bf16_f32 : FTy.bits .bf16 < FTy.bits .f32
  packedbf16_S128x4096_S128x4096_0_0 : (Rect.unit (s := S128x4096) ![0, 0] S128x4096.size inb_S128x4096_S128x4096_0_0).PackedRows (EltTy.packing .bf16)
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  packedbf16_S512x512_S512x512_0_0 : (Rect.unit (s := S512x512) ![0, 0] S512x512.size inb_S512x512_S512x512_0_0).PackedRows (EltTy.packing .bf16)
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  reducesTo_S4096x4096_S_d0_1 : S4096x4096.ReducesTo [0, 1] S_
  h_S_ : 0 < S_.numel
  shapeCasts_S_S1x1 : S_.ShapeCasts S1x1
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  shapeCasts_S128x4096_S128x4096 : S128x4096.ShapeCasts S128x4096
  dot_S512x1024_S512x1024_S512x512_1_1_0_0_n_n_wf : DotDims.WF S512x1024 S512x1024 S512x512 [1] [1] [0] [0] [] []
  dot_S1024x512_S1024x512_S512x512_0_0_1_1_n_n_wf : DotDims.WF S1024x512 S1024x512 S512x512 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S4096x4096.size a
  hwx0_0 : ∀ i : grid0.Coords, EltTy.bits .f32 = 32 ∨ (Rect.block (s := S4096x4096) S128x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S4096x4096.size a
  hwx0_1 : ∀ i : grid0.Coords, EltTy.bits .f32 = 32 ∨ (Rect.block (s := S4096x4096) S128x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x4096.size a ≤ S4096x4096.size a
  hwx0_2 : ∀ i : grid0.Coords, EltTy.bits .f32 = 32 ∨ (Rect.block (s := S4096x4096) S128x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x4096.size a ≤ S4096x4096.size a
  hwx0_3 : ∀ i : grid0.Coords, EltTy.bits .bf16 = 32 ∨ (Rect.block (s := S4096x4096) S128x4096.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S4096x4096.size a
  hwx1_0 : ∀ i : grid1.Coords, EltTy.bits .f32 = 32 ∨ (Rect.block (s := S4096x4096) S512x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S4096x4096.size a
  hwx1_1 : ∀ i : grid1.Coords, EltTy.bits .bf16 = 32 ∨ (Rect.block (s := S4096x4096) S512x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S4096x4096.size a
  hwx1_2 : ∀ i : grid1.Coords, EltTy.bits .f32 = 32 ∨ (Rect.block (s := S4096x4096) S512x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S4096x4096.size a
  hwx1_3 : ∀ i : grid1.Coords, EltTy.bits .bf16 = 32 ∨ (Rect.block (s := S4096x4096) S512x512.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x512.size a ≤ S4096x4096.size a
  hwx2_0 : ∀ i : grid2.Coords, EltTy.bits .bf16 = 32 ∨ (Rect.block (s := S4096x4096) S1024x512.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x512.size a ≤ S4096x4096.size a
  hwx2_1 : ∀ i : grid2.Coords, EltTy.bits .f32 = 32 ∨ (Rect.block (s := S4096x4096) S1024x512.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x512.size a ≤ S4096x4096.size a
  hwx2_2 : ∀ i : grid2.Coords, EltTy.bits .f32 = 32 ∨ (Rect.block (s := S4096x4096) S512x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x512.size a ≤ S4096x4096.size a
  hwx2_3 : ∀ i : grid2.Coords, EltTy.bits .f32 = 32 ∨ (Rect.block (s := S4096x4096) S512x512.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S128x4096.size a ≤ S4096x4096.size a
  hwx3_0 : ∀ i : grid3.Coords, EltTy.bits .f32 = 32 ∨ (Rect.block (s := S4096x4096) S128x4096.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S128x4096.size a ≤ S4096x4096.size a
  hwx3_1 : ∀ i : grid3.Coords, EltTy.bits .f32 = 32 ∨ (Rect.block (s := S4096x4096) S128x4096.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1.size a ≤ S1x1.size a
  hwx3_2 : ∀ i : grid3.Coords, EltTy.bits .f32 = 32 ∨ (Rect.block (s := S1x1) S1x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S128x4096.size a ≤ S4096x4096.size a
  hwx3_3 : ∀ i : grid3.Coords, EltTy.bits .f32 = 32 ∨ (Rect.block (s := S4096x4096) S128x4096.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S128x4096.size a ≤ S4096x4096.size a
  hwx3_4 : ∀ i : grid3.Coords, EltTy.bits .f32 = 32 ∨ (Rect.block (s := S4096x4096) S128x4096.size (cc3_transform_4 i) (hinb3_4 i)).WholeWords (EltTy.packing .f32)

variable [Facts₀]

def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf
def dot_S1024x512_S1024x512_S512x512_0_0_1_1_n_n : DotDims S1024x512 S1024x512 S512x512 where
  lhsContracting := [0]
  rhsContracting := [0]
  lhsNonContracting := [1]
  rhsNonContracting := [1]
  lhsBatch := []
  rhsBatch := []
  wf := dot_S1024x512_S1024x512_S512x512_0_0_1_1_n_n_wf

abbrev win0_0 : Pipeline.Window sig grid0 :=
  Pipeline.Window.ofSpec (Memref.whole main_arg1) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S128x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1_0) S512x512.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1_1) S512x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun i => !(k1_cond2 i == 1#1) | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v1_1) S1024x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg0) S1024x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg2) S512x512.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v2) S512x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v2) S128x4096.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg3) S128x4096.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v10) S1x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v11_0) S128x4096.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v11_1) S128x4096.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S4096x4096 : Shape := ⟨2, ![4096, 4096]⟩
abbrev S_ : Shape := ⟨0, ![]⟩
abbrev S4096 : Shape := ⟨1, ![4096]⟩
abbrev S4096x1 : Shape := ⟨2, ![4096, 1]⟩

abbrev nBuf : Space → Nat
  | .hbm => 73
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S_, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S4096x4096, .f32⟩
  | .hbm, ⟨28, _⟩ => ⟨S_, .f32⟩
  | .hbm, ⟨29, _⟩ => ⟨S4096x4096, .f32⟩
  | .hbm, ⟨30, _⟩ => ⟨S4096x4096, .f32⟩
  | .hbm, ⟨31, _⟩ => ⟨S4096x4096, .f32⟩
  | .hbm, ⟨32, _⟩ => ⟨S_, .f32⟩
  | .hbm, ⟨33, _⟩ => ⟨S4096x4096, .f32⟩
  | .hbm, ⟨34, _⟩ => ⟨S4096x4096, .f32⟩
  | .hbm, ⟨35, _⟩ => ⟨S4096x4096, .f32⟩
  | .hbm, ⟨36, _⟩ => ⟨S4096x4096, .f32⟩
  | .hbm, ⟨37, _⟩ => ⟨S4096x4096, .f32⟩
  | .hbm, ⟨38, _⟩ => ⟨S_, .f32⟩
  | .hbm, ⟨39, _⟩ => ⟨S4096x4096, .f32⟩
  | .hbm, ⟨40, _⟩ => ⟨S4096x4096, .f32⟩
  | .hbm, ⟨41, _⟩ => ⟨S4096x4096, .f32⟩
  | .hbm, ⟨42, _⟩ => ⟨S4096x4096, .f32⟩
  | .hbm, ⟨43, _⟩ => ⟨S_, .f32⟩
  | .hbm, ⟨44, _⟩ => ⟨S4096x4096, .f32⟩
  | .hbm, ⟨45, _⟩ => ⟨S4096x4096, .f32⟩
  | .hbm, ⟨46, _⟩ => ⟨S_, .f32⟩
  | .hbm, ⟨47, _⟩ => ⟨S4096x4096, .f32⟩
  | .hbm, ⟨48, _⟩ => ⟨S4096x4096, .f32⟩
  | .hbm, ⟨49, _⟩ => ⟨S_, .f32⟩
  | .hbm, ⟨50, _⟩ => ⟨S4096x4096, .f32⟩
  | .hbm, ⟨51, _⟩ => ⟨S4096x4096, .f32⟩
  | .hbm, ⟨52, _⟩ => ⟨S4096x4096, .f32⟩
  | .hbm, ⟨53, _⟩ => ⟨S4096x4096, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .i1⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S4096x4096, .f32⟩
  | .hbm, ⟨64, _⟩ => ⟨S4096x4096, .f32⟩
  | .hbm, ⟨65, _⟩ => ⟨S4096x4096, .f32⟩
  | .hbm, ⟨66, _⟩ => ⟨S_, .f32⟩
  | .hbm, ⟨67, _⟩ => ⟨S4096x4096, .f32⟩
  | .hbm, ⟨68, _⟩ => ⟨S4096x4096, .f32⟩
  | .hbm, ⟨69, _⟩ => ⟨S_, .f32⟩
  | .hbm, ⟨70, _⟩ => ⟨S4096x4096, .f32⟩
  | .hbm, ⟨71, _⟩ => ⟨S4096x4096, .f32⟩
  | .hbm, ⟨72, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_call0_v0 : Ref sig .tc := ⟨.hbm, 12, rfl⟩
abbrev main_call0_v1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_cst_3 : Ref sig .tc := ⟨.hbm, 19, rfl⟩
abbrev main_call2_v0 : Ref sig .tc := ⟨.hbm, 20, rfl⟩
abbrev main_call2_v1 : Ref sig .tc := ⟨.hbm, 21, rfl⟩
abbrev main_call2_v2 : Ref sig .tc := ⟨.hbm, 22, rfl⟩
abbrev main_call2_v3 : Ref sig .tc := ⟨.hbm, 23, rfl⟩
abbrev main_call2_v4 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_4 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_5 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_call3_cst : Ref sig .tc := ⟨.hbm, 38, rfl⟩
abbrev main_call3_v0 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_6 : Ref sig .tc := ⟨.hbm, 43, rfl⟩
abbrev main_v23 : Ref sig .tc := ⟨.hbm, 44, rfl⟩
abbrev main_v24 : Ref sig .tc := ⟨.hbm, 45, rfl⟩
abbrev main_cst_7 : Ref sig .tc := ⟨.hbm, 46, rfl⟩
abbrev main_v25 : Ref sig .tc := ⟨.hbm, 47, rfl⟩
abbrev main_v26 : Ref sig .tc := ⟨.hbm, 48, rfl⟩
abbrev main_cst_8 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_call4_v0 : Ref sig .tc := ⟨.hbm, 53, rfl⟩
abbrev main_call4_cst : Ref sig .tc := ⟨.hbm, 54, rfl⟩
abbrev main_call4_v1 : Ref sig .tc := ⟨.hbm, 55, rfl⟩
abbrev main_v30 : Ref sig .tc := ⟨.hbm, 56, rfl⟩
abbrev main_cst_9 : Ref sig .tc := ⟨.hbm, 57, rfl⟩
abbrev main_v31 : Ref sig .tc := ⟨.hbm, 58, rfl⟩
abbrev main_cst_10 : Ref sig .tc := ⟨.hbm, 59, rfl⟩
abbrev main_v32 : Ref sig .tc := ⟨.hbm, 60, rfl⟩
abbrev main_cst_11 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_cst_12 : Ref sig .tc := ⟨.hbm, 66, rfl⟩
abbrev main_v37 : Ref sig .tc := ⟨.hbm, 67, rfl⟩
abbrev main_v38 : Ref sig .tc := ⟨.hbm, 68, rfl⟩
abbrev main_cst_13 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩

abbrev nD : Nat := 1
abbrev τ : Topo := Topo.v7x

variable {F : FTy → Type} [FloatOps F]

class Facts₀ : Prop where
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x4096_0_1 : S4096x1.BroadcastsInDim S4096x4096 (![0, 1] : Fin 2 → Fin S4096x4096.rank)
  bcast_S_S4096x4096 : S_.BroadcastsInDim S4096x4096 (![] : Fin 0 → Fin S4096x4096.rank)
  transposes_S4096x4096_S4096x4096_1_0 : S4096x4096.Transposes [1, 0] S4096x4096
  reducesTo_S4096x4096_S_d0_1 : S4096x4096.ReducesTo [0, 1] S_
  dot_S4096x4096_S4096x4096_S4096x4096_1_0_0_1_n_n_wf : DotDims.WF S4096x4096 S4096x4096 S4096x4096 [1] [0] [0] [1] [] []

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.KReg0.lean ====
/-
  The first kernel region: per block of 128 rows of the weight, the ternary quantisation of each row against its
  mean absolute value, plus the two trace terms, written to the effective-weight array. Stated at a parameter `V`,
  the contents of the core's buffers when the region is entered: what each window's staging buffer holds after the
  body at a grid point, the body's triple, the proof data of the pipeline and its body obligation.
-/
import proofs.«139551_j86955907875211_1_alg».proof.Proof.Gen.Kernel.Launch
import proofs.«139551_j86955907875211_1_alg».proof.Proof.Gen.Kernel.Skeleton
import proofs.«139551_j86955907875211_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at point `t`: rows `128 t … 128 t + 127` of its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Each input window's current staging buffer holds its block at every point, fetched there or not, for any proof data
    over `V`'s arrays whose body leaves the input blocks in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole 128 × 4096 staging buffer as a rectangle. -/
abbrev r0_0 : Rect S128x4096 := Rect.unit (s := S128x4096) ![0, 0] S128x4096.size inb_S128x4096_S128x4096_0_0

/-- What the body leaves in the output window's buffer: its one whole-buffer store of the quantised, combined block. -/
def out0_3 (x0 x1 x2 : Vec F S128x4096 .f32) : Vec F S128x4096 .bf16 :=
  View.canon [⟨r0_0, k0_pay1 (View.ld x0 r0_0) (View.ld x1 r0_0) (View.ld x2 r0_0)⟩]

theorem cover0_3 (p0 : Vec F S128x4096 .bf16) (y : S128x4096.Idx) :
    ∃ pc ∈ ([⟨r0_0, p0⟩] : List (View.Piece (Elt F) S128x4096 .bf16)), y ∈ pc.1.set :=
  View.cover_of_tiled [⟨r0_0, p0⟩] S128x4096.size (by rfl) y

set_option maxHeartbeats 1000000 in
/-- The body on whole staging memrefs: the three inputs keep their contents, the output ends at `out0_3` of them. -/
theorem sound_kernel0 (c : Dev nD) (E : Set ℕ) (i : grid0.Coords)
    (arg1 : Memref sig .tc .vmem S128x4096 .f32) (harg1 : arg1.IsWhole) (arg2 : Memref sig .tc .vmem S128x4096 .f32) (harg2 : arg2.IsWhole)
    (arg3 : Memref sig .tc .vmem S128x4096 .f32) (harg3 : arg3.IsWhole) (arg4 : Memref sig .tc .vmem S128x4096 .bf16) (harg4 : arg4.IsWhole)
    (x0 x1 x2 : Vec F S128x4096 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__quant_combine_kernel i arg1 harg1 arg2 harg2 arg3 harg3 arg4 harg4) K := by
  simp only [cc0__quant_combine_kernel_eq_skeleton]; unfold cc0__quant_combine_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of this pipeline on core `c`: the arrays as the region finds them; after the body at point `t` each
    input's buffer at its block and the output's at `out0_3` of the three input blocks; the invariant the scoped rest
    and the generator register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the input memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline's rule, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Gen

end
-- ==== Proof.KReg1a.lean ====
/-
  The second kernel region: y = x · w_effᵀ accumulated over four blocks of the contracted axis in a scratch
  accumulator that is zeroed at the first block and, at the last, copied to the output block and — clamped below at
  zero — to the activation block. Stated at a parameter `V`, the contents of the core's buffers when the region is
  entered.
-/
import proofs.«139551_j86955907875211_1_alg».proof.Proof.Gen.Kernel.Launch
import proofs.«139551_j86955907875211_1_alg».proof.Proof.Gen.Kernel.Skeleton
import proofs.«139551_j86955907875211_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at point `t` of its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The body's two branch conditions, from the grid coordinates: the contracted axis's coordinate is 0; it is 3. -/
abbrev cond1_0 (i : grid1.Coords) : Prop := (Scalar.cmpi .ne (Scalar.extui (Scalar.cmpi .eq (BitVec.ofNat 32 (i 2).val) 0#32)) 0#32) = 1#1
abbrev cond1_1 (i : grid1.Coords) : Prop := k1_cond2 i = 1#1
theorem hcond1_0 : ∀ t : Fin cfg1.N, cond1_0 (grid1.coords t) ↔ t.val % 4 = 0 :=
  (by decide +kernel : ∀ t : Fin grid1.N, cond1_0 (grid1.coords t) ↔ t.val % 4 = 0)
theorem hcond1_1 : ∀ t : Fin cfg1.N, cond1_1 (grid1.coords t) ↔ t.val % 4 = 3 :=
  (by decide +kernel : ∀ t : Fin grid1.N, cond1_1 (grid1.coords t) ↔ t.val % 4 = 3)

/-- The zero offsets of a whole-buffer rectangle. -/
theorem hz2 : (![0, 0] : Fin 2 → Nat) = fun _ => 0 := funext fun a => by fin_cases a <;> rfl

/-- The accumulator's start, one accumulation step, and the clamp, as the body computes them. -/
abbrev zero1 : Vec F S512x512 .f32 := k1_pay1 (F := F)
abbrev step1 (x0 : Vec F S512x1024 .f32) (x1 : Vec F S512x1024 .bf16) (a : Vec F S512x512 .f32) : Vec F S512x512 .f32 := k1_pay2 x0 x1 a
abbrev relu1 (a : Vec F S512x512 .f32) : Vec F S512x512 .bf16 := k1_pay3 a

set_option maxHeartbeats 1000000 in
/-- The body at a first block of the contracted axis (coordinate 0): the accumulator, whatever it held, ends at one
    step from zero; the two output buffers are not touched. -/
theorem sound_kernel1_A (c : Dev nD) (E : Set ℕ) (i : grid1.Coords) (hc0 : cond1_0 i) (hc1 : ¬cond1_1 i)
    (arg3 : Memref sig .tc .vmem S512x1024 .f32) (harg3 : arg3.IsWhole) (arg4 : Memref sig .tc .vmem S512x1024 .bf16) (harg4 : arg4.IsWhole)
    (arg5 : Memref sig .tc .vmem S512x512 .f32) (harg5 : arg5.IsWhole) (arg6 : Memref sig .tc .vmem S512x512 .bf16) (harg6 : arg6.IsWhole)
    (arg7 : Memref sig .tc .vmem S512x512 .f32) (harg7 : arg7.IsWhole)
    (x0 : Vec F S512x1024 .f32) (x1 : Vec F S512x1024 .bf16) (y5 : Vec F S512x512 .f32) (y6 : Vec F S512x512 .bf16) (K : PUnit → sProp 𝕄) :
    iprop(owns (c : Thread nD τ) arg3 fullShare x0 ∗ owns (c : Thread nD τ) arg4 fullShare x1
        ∗ owns (c : Thread nD τ) arg5 fullShare y5 ∗ owns (c : Thread nD τ) arg6 fullShare y6
        ∗ (∃ d, owns (c : Thread nD τ) arg7 fullShare d)
        ∗ (iprop(owns (c : Thread nD τ) arg3 fullShare x0 ∗ owns (c : Thread nD τ) arg4 fullShare x1
            ∗ owns (c : Thread nD τ) arg5 fullShare y5 ∗ owns (c : Thread nD τ) arg6 fullShare y6
            ∗ owns (c : Thread nD τ) arg7 fullShare (step1 x0 x1 zero1)) -∗ K ⟨⟩))
      ⊢ wp frame (wpE (defs₀ (F := F)) Variants.none c none) E (cc1__matmul_relu_kernel i arg3 harg3 arg4 harg4 arg5 harg5 arg6 harg6 arg7 harg7) K := by
  simp only [cc1__matmul_relu_kernel_eq_skeleton]; unfold cc1__matmul_relu_kernel_skel
  unfold owns
  iintro ⟨⟨%f0, %hf0, H0⟩, ⟨%f1, %hf1, H1⟩, ⟨%f5, %hf5, H5⟩, ⟨%f6, %hf6, H6⟩, ⟨%d7, %f7, -, H7⟩, Hk⟩
  subst hf0; subst hf1; subst hf5; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H5]
  · iexists f5; isplitr; · ipureintro; rfl
    iexact H5
  isplitl [H6]
  · iexists f6; isplitr; · ipureintro; rfl
    iexact H6
  iexists _; isplitr
  swap; · iexact H7
  ipureintro
  sl_unfold_run_names
  rw [View.read_writes_eq_canon _ _ _ (fun y => ⟨_, List.mem_cons_self, View.mem_set_unit_zero hz2 inb_S512x512_S512x512_0_0 y⟩)]
  rw [View.canon_cons_unit_zero hz2]
  try rw [View.readCov_unit_zero _ hz2]
  try simp only [View.readAt_eq_ld, View.ld_unit_zero (S := S512x1024) hz2, View.ld_unit_zero (S := S1024x512) hz2, View.ld_unit_zero (S := S512x512) hz2]

set_option maxHeartbeats 1000000 in
/-- The body at a middle block (coordinate 1 or 2): the accumulator takes one more step; the two output buffers are
    not touched. -/
theorem sound_kernel1_B (c : Dev nD) (E : Set ℕ) (i : grid1.Coords) (hc0 : ¬cond1_0 i) (hc1 : ¬cond1_1 i)
    (arg3 : Memref sig .tc .vmem S512x1024 .f32) (harg3 : arg3.IsWhole) (arg4 : Memref sig .tc .vmem S512x1024 .bf16) (harg4 : arg4.IsWhole)
    (arg5 : Memref sig .tc .vmem S512x512 .f32) (harg5 : arg5.IsWhole) (arg6 : Memref sig .tc .vmem S512x512 .bf16) (harg6 : arg6.IsWhole)
    (arg7 : Memref sig .tc .vmem S512x512 .f32) (harg7 : arg7.IsWhole)
    (x0 : Vec F S512x1024 .f32) (x1 : Vec F S512x1024 .bf16) (y5 : Vec F S512x512 .f32) (y6 : Vec F S512x512 .bf16) (a : Vec F S512x512 .f32) (K : PUnit → sProp 𝕄) :
    iprop(owns (c : Thread nD τ) arg3 fullShare x0 ∗ owns (c : Thread nD τ) arg4 fullShare x1
        ∗ owns (c : Thread nD τ) arg5 fullShare y5 ∗ owns (c : Thread nD τ) arg6 fullShare y6
        ∗ owns (c : Thread nD τ) arg7 fullShare a
        ∗ (iprop(owns (c : Thread nD τ) arg3 fullShare x0 ∗ owns (c : Thread nD τ) arg4 fullShare x1
            ∗ owns (c : Thread nD τ) arg5 fullShare y5 ∗ owns (c : Thread nD τ) arg6 fullShare y6
            ∗ owns (c : Thread nD τ) arg7 fullShare (step1 x0 x1 a)) -∗ K ⟨⟩))
      ⊢ wp frame (wpE (defs₀ (F := F)) Variants.none c none) E (cc1__matmul_relu_kernel i arg3 harg3 arg4 harg4 arg5 harg5 arg6 harg6 arg7 harg7) K := by
  simp only [cc1__matmul_relu_kernel_eq_skeleton]; unfold cc1__matmul_relu_kernel_skel
  unfold owns
  iintro ⟨⟨%f0, %hf0, H0⟩, ⟨%f1, %hf1, H1⟩, ⟨%f5, %hf5, H5⟩, ⟨%f6, %hf6, H6⟩, ⟨%f7, %hf7, H7⟩, Hk⟩
  subst hf0; subst hf1; subst hf5; subst hf6; subst hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H5]
  · iexists f5; isplitr; · ipureintro; rfl
    iexact H5
  isplitl [H6]
  · iexists f6; isplitr; · ipureintro; rfl
    iexact H6
  iexists _; isplitr
  swap; · iexact H7
  ipureintro
  sl_unfold_run_names
  rw [View.read_writes_eq_canon _ _ _ (fun y => ⟨_, List.mem_cons_self, View.mem_set_unit_zero hz2 inb_S512x512_S512x512_0_0 y⟩)]
  rw [View.canon_cons_unit_zero hz2]
  try rw [View.readCov_unit_zero _ hz2]
  try simp only [View.readAt_eq_ld, View.ld_unit_zero (S := S512x1024) hz2, View.ld_unit_zero (S := S1024x512) hz2, View.ld_unit_zero (S := S512x512) hz2]

set_option maxHeartbeats 1000000 in
/-- The body at the last block (coordinate 3): the accumulator takes its last step and is copied to the output
    buffer and, clamped below at zero, to the activation buffer. -/
theorem sound_kernel1_C (c : Dev nD) (E : Set ℕ) (i : grid1.Coords) (hc0 : ¬cond1_0 i) (hc1 : cond1_1 i)
    (arg3 : Memref sig .tc .vmem S512x1024 .f32) (harg3 : arg3.IsWhole) (arg4 : Memref sig .tc .vmem S512x1024 .bf16) (harg4 : arg4.IsWhole)
    (arg5 : Memref sig .tc .vmem S512x512 .f32) (harg5 : arg5.IsWhole) (arg6 : Memref sig .tc .vmem S512x512 .bf16) (harg6 : arg6.IsWhole)
    (arg7 : Memref sig .tc .vmem S512x512 .f32) (harg7 : arg7.IsWhole)
    (x0 : Vec F S512x1024 .f32) (x1 : Vec F S512x1024 .bf16) (a : Vec F S512x512 .f32) (K : PUnit → sProp 𝕄) :
    iprop(owns (c : Thread nD τ) arg3 fullShare x0 ∗ owns (c : Thread nD τ) arg4 fullShare x1
        ∗ (∃ d, owns (c : Thread nD τ) arg5 fullShare d) ∗ (∃ d, owns (c : Thread nD τ) arg6 fullShare d)
        ∗ owns (c : Thread nD τ) arg7 fullShare a
        ∗ (iprop(owns (c : Thread nD τ) arg3 fullShare x0 ∗ owns (c : Thread nD τ) arg4 fullShare x1
            ∗ owns (c : Thread nD τ) arg5 fullShare (step1 x0 x1 a) ∗ owns (c : Thread nD τ) arg6 fullShare (relu1 (step1 x0 x1 a))
            ∗ owns (c : Thread nD τ) arg7 fullShare (step1 x0 x1 a)) -∗ K ⟨⟩))
      ⊢ wp frame (wpE (defs₀ (F := F)) Variants.none c none) E (cc1__matmul_relu_kernel i arg3 harg3 arg4 harg4 arg5 harg5 arg6 harg6 arg7 harg7) K := by
  simp only [cc1__matmul_relu_kernel_eq_skeleton]; unfold cc1__matmul_relu_kernel_skel
  unfold owns
  iintro ⟨⟨%f0, %hf0, H0⟩, ⟨%f1, %hf1, H1⟩, ⟨%d5, %f5, -, H5⟩, ⟨%d6, %f6, -, H6⟩, ⟨%f7, %hf7, H7⟩, Hk⟩
  subst hf0; subst hf1; subst hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H5]
  · iexists _; isplitr
    swap; · iexact H5
    ipureintro
    sl_unfold_run_names
    rw [View.read_writes_eq_canon _ _ _ (fun y => ⟨_, List.mem_cons_self, View.mem_set_unit_zero hz2 inb_S512x512_S512x512_0_0 y⟩)]
    rw [View.canon_cons_unit_zero hz2]
    try rw [View.readCov_unit_zero _ hz2]
    try simp only [View.readAt_eq_ld, View.ld_unit_zero (S := S512x1024) hz2, View.ld_unit_zero (S := S1024x512) hz2, View.ld_unit_zero (S := S512x512) hz2]

  isplitl [H6]
  · iexists _; isplitr
    swap; · iexact H6
    ipureintro
    sl_unfold_run_names
    rw [View.read_writes_eq_canon _ _ _ (fun y => ⟨_, List.mem_cons_self, View.mem_set_unit_zero hz2 inb_S512x512_S512x512_0_0 y⟩)]
    rw [View.canon_cons_unit_zero hz2]
    try rw [View.readCov_unit_zero _ hz2]
    try simp only [View.readAt_eq_ld, View.ld_unit_zero (S := S512x1024) hz2, View.ld_unit_zero (S := S1024x512) hz2, View.ld_unit_zero (S := S512x512) hz2]

  iexists _; isplitr
  swap; · iexact H7
  ipureintro
  sl_unfold_run_names
  rw [View.read_writes_eq_canon _ _ _ (fun y => ⟨_, List.mem_cons_self, View.mem_set_unit_zero hz2 inb_S512x512_S512x512_0_0 y⟩)]
  rw [View.canon_cons_unit_zero hz2]
  try rw [View.readCov_unit_zero _ hz2]
  try simp only [View.readAt_eq_ld, View.ld_unit_zero (S := S512x1024) hz2, View.ld_unit_zero (S := S1024x512) hz2, View.ld_unit_zero (S := S512x512) hz2]

end Region1

end Cert.Kernel.Gen

end
-- ==== Proof.KReg1.lean ====
/-
  The second kernel region, continued: the accumulator after each grid point, the pipeline's proof data, and the
  body obligation by the block of the contracted axis a point is at.
-/
import proofs.«139551_j86955907875211_1_alg».proof.Proof.Gen.Kernel.Launch
import proofs.«139551_j86955907875211_1_alg».proof.Proof.Gen.Kernel.Skeleton
import proofs.«139551_j86955907875211_1_alg».proof.Proof.Gen.Kernel.Points
import proofs.«139551_j86955907875211_1_alg».proof.Proof.KReg1a
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- The accumulator after point `n`: one step from zero at a first block of the contracted axis, one more step from
    the point before otherwise. -/
def acc1 (c : Dev nD) : (n : ℕ) → n < cfg1.N → Vec F S512x512 .f32
  | 0, h => step1 (iblk1 V c 0 ⟨0, h⟩) (iblk1 V c 1 ⟨0, h⟩) zero1
  | n + 1, h => step1 (iblk1 V c 0 ⟨n + 1, h⟩) (iblk1 V c 1 ⟨n + 1, h⟩)
      (if (n + 1) % 4 = 0 then zero1 else acc1 c n (Nat.lt_of_succ_lt h))

theorem acc1_first (c : Dev nD) (t : Fin cfg1.N) (h : t.val % 4 = 0) :
    acc1 V c t.val t.isLt = step1 (iblk1 V c 0 t) (iblk1 V c 1 t) zero1 := by
  obtain ⟨n, hn⟩ := t
  cases n with
  | zero => rfl
  | succ n => rw [acc1, if_pos h]

theorem acc1_next (c : Dev nD) (t : Fin cfg1.N) (h : t.val % 4 ≠ 0) (n : ℕ) (hn : n < cfg1.N) (e : t.val = n + 1) :
    acc1 V c t.val t.isLt = step1 (iblk1 V c 0 t) (iblk1 V c 1 t) (acc1 V c n hn) := by
  obtain ⟨k, hk⟩ := t
  subst e
  rw [acc1, if_neg h]

/-- The scratch accumulator as a whole-buffer memref. -/
abbrev scM1 : Memref sig .tc .vmem S512x512 .f32 := Memref.whole cc1_scratch0

/-- The invariant between points: the accumulator holds what the point just completed left (anything before the first
    point); the other scoped buffers and the generator register ride along. -/
def Φ1 (c : Dev nD) (j : Fin (cfg1.N + 1)) : sProp 𝕄 :=
  iprop((∃ d, ⌜∀ (n : ℕ) (hn : n < cfg1.N), j.val = n + 1 → d = acc1 V c n hn⌝ ∗ owns (c : Thread nD τ) scM1 fullShare d)
    ∗ Pipeline.scopedRestBut (Ix := Unit) (Name := ℕ) (U := UR sig nD τ) (Lvl := ℕ) (Val := Elt F) spec1 c [cc1_scratch0]
    ∗ ∃ r, prngReg c r)

/-- The proof data of this pipeline on core `c`: the two outputs' buffers, where the body stores them (the last block
    of the contracted axis), hold the accumulator and its clamp. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
    | ⟨3, _⟩ => relu1 (acc1 V c t.val t.isLt)
  Φ j := Φ1 V c j
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1 V c t.val t.isLt := by dsimp only [dat1]
theorem after1_3 (c : Dev nD) (t : Fin cfg1.N) : (dat1 V c).after 3 t = relu1 (acc1 V c t.val t.isLt) := by dsimp only [dat1]
theorem Φ_eq1 (c : Dev nD) (j : Fin (cfg1.N + 1)) : (dat1 V c).Φ j = Φ1 V c j := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- Where the two output windows are idle: everywhere but at the last block of the contracted axis, where the
    pipeline writes them back. -/
theorem idle1_2 : ∀ t : Fin cfg1.N, t.val % 4 ≠ 3 → idle1 2 (grid1.coords t) = true :=
  (by decide +kernel : ∀ t : Fin grid1.N, t.val % 4 ≠ 3 → idle1 2 (grid1.coords t) = true)
theorem idle1_3 : ∀ t : Fin cfg1.N, t.val % 4 ≠ 3 → idle1 3 (grid1.coords t) = true :=
  (by decide +kernel : ∀ t : Fin grid1.N, t.val % 4 ≠ 3 → idle1 3 (grid1.coords t) = true)
theorem live1_2 : ∀ t : Fin cfg1.N, t.val % 4 = 3 → idle1 2 (grid1.coords t) = false :=
  (by decide +kernel : ∀ t : Fin grid1.N, t.val % 4 = 3 → idle1 2 (grid1.coords t) = false)
theorem live1_3 : ∀ t : Fin cfg1.N, t.val % 4 = 3 → idle1 3 (grid1.coords t) = false :=
  (by decide +kernel : ∀ t : Fin grid1.N, t.val % 4 = 3 → idle1 3 (grid1.coords t) = false)
theorem noflush1_2 (t : Fin cfg1.N) (h : t.val % 4 ≠ 3) : (win1 2).flush t = false :=
  Bool.eq_false_iff.mpr fun hf => h ((flush1_2 t).mp hf)
theorem noflush1_3 (t : Fin cfg1.N) (h : t.val % 4 ≠ 3) : (win1 3).flush t = false :=
  Bool.eq_false_iff.mpr fun hf => h ((flush1_3 t).mp hf)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns: an output window idle at the point (and not written back there) is handed back as found. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ (match cfg1.idle 2 (cfg1.grid.coords t) with
        | true =>
          match (cfg1.win 2).flush t with
          | false => iprop(∃ d, owns (c : Thread nD τ) (st1_2 t) fullShare ((dat1 V c).before 2 t d))
          | true => owns (c : Thread nD τ) (st1_2 t) fullShare ((dat1 V c).after 2 t)
        | false => owns (c : Thread nD τ) (st1_2 t) fullShare ((dat1 V c).after 2 t))
    ∗ (match cfg1.idle 3 (cfg1.grid.coords t) with
        | true =>
          match (cfg1.win 3).flush t with
          | false => iprop(∃ d, owns (c : Thread nD τ) (st1_3 t) fullShare ((dat1 V c).before 3 t d))
          | true => owns (c : Thread nD τ) (st1_3 t) fullShare ((dat1 V c).after 3 t)
        | false => owns (c : Thread nD τ) (st1_3 t) fullShare ((dat1 V c).after 3 t)))

/-- The body at any point, by the block of the contracted axis the point is at. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl,
    after1_0, after1_1, after1_2, after1_3, Φ_eq1, Φ_eq1]
  unfold Φ1
  by_cases h3 : t.val % 4 = 3
  · -- the last block: the outputs are stored and written back
    rw [live1_2 t h3]
    try rw [live1_3 t h3]
    dsimp only
    have h0 : t.val % 4 ≠ 0 := by omega
    have hc0 : ¬cond1_0 (grid1.coords t) := fun h => h0 ((hcond1_0 t).mp h)
    have hc1 : cond1_1 (grid1.coords t) := (hcond1_1 t).mpr h3
    have hn : t.val - 1 < cfg1.N := by have := t.isLt; omega
    have he : t.val = (t.val - 1) + 1 := by omega
    iintro ⟨⟨⟨%a, %ha, Hs⟩, Hb, Hp⟩, Ho, ⟨%d0, H0⟩, ⟨%d1, H1⟩, ⟨%d2, H2⟩, ⟨%d3, H3⟩⟩
    have ha' : a = acc1 V c (t.val - 1) hn := ha (t.val - 1) hn he
    subst ha'
    iapply (sound_kernel1_C c Set.univ (grid1.coords t) hc0 hc1 _ _ _ _ _ _ _ _ _ _ (iblk1 V c 0 t) (iblk1 V c 1 t) (acc1 V c (t.val - 1) hn) _)
    isplitl [H0]; · iexact H0
    isplitl [H1]; · iexact H1
    isplitl [H2]; · iexists _; iexact H2
    isplitl [H3]; · iexists _; iexact H3
    isplitl [Hs]; · iexact Hs
    iintro ⟨H0, H1, H2, H3, Hs⟩
    rw [← acc1_next V c t h0 (t.val - 1) hn he]
    isplitl [Hs Hb Hp]
    · isplitl [Hs]
      · iexists (acc1 V c t.val t.isLt); isplitr
        · ipureintro; intro n hn' e
          have : n = t.val := by have : (t.succ : Fin (cfg1.N + 1)).val = t.val + 1 := rfl; omega
          subst this; rfl
        iexact Hs
      isplitl [Hb]; · iexact Hb
      iexact Hp
    isplitl [Ho]; · iexact Ho
    isplitl [H0]; · iexact H0
    isplitl [H1]; · iexact H1
    isplitl [H2]; · iexact H2
    iexact H3
  · -- the outputs are idle and handed back as found
    rw [idle1_2 t h3]
    try rw [idle1_3 t h3]
    rw [noflush1_2 t h3, noflush1_3 t h3]
    dsimp only
    have hc1 : ¬cond1_1 (grid1.coords t) := fun h => h3 ((hcond1_1 t).mp h)
    by_cases h0 : t.val % 4 = 0
    · -- a first block: the accumulator restarts
      have hc0 : cond1_0 (grid1.coords t) := (hcond1_0 t).mpr h0
      iintro ⟨⟨⟨%a, -, Hs⟩, Hb, Hp⟩, Ho, ⟨%d0, H0⟩, ⟨%d1, H1⟩, ⟨%d2, H2⟩, ⟨%d3, H3⟩⟩
      iapply (sound_kernel1_A c Set.univ (grid1.coords t) hc0 hc1 _ _ _ _ _ _ _ _ _ _ (iblk1 V c 0 t) (iblk1 V c 1 t) _ _ _)
      isplitl [H0]; · iexact H0
      isplitl [H1]; · iexact H1
      isplitl [H2]; · iexact H2
      isplitl [H3]; · iexact H3
      isplitl [Hs]; · iexists _; iexact Hs
      iintro ⟨H0, H1, H2, H3, Hs⟩
      rw [← acc1_first V c t h0]
      isplitl [Hs Hb Hp]
      · isplitl [Hs]
        · iexists (acc1 V c t.val t.isLt); isplitr
          · ipureintro; intro n hn' e
            have : n = t.val := by have : (t.succ : Fin (cfg1.N + 1)).val = t.val + 1 := rfl; omega
            subst this; rfl
          iexact Hs
        isplitl [Hb]; · iexact Hb
        iexact Hp
      isplitl [Ho]; · iexact Ho
      isplitl [H0]; · iexact H0
      isplitl [H1]; · iexact H1
      isplitl [H2]; · iexists _; iexact H2
      iexists _; iexact H3
    · -- a middle block: one more step
      have hc0 : ¬cond1_0 (grid1.coords t) := fun h => h0 ((hcond1_0 t).mp h)
      have hn : t.val - 1 < cfg1.N := by have := t.isLt; omega
      have he : t.val = (t.val - 1) + 1 := by omega
      iintro ⟨⟨⟨%a, %ha, Hs⟩, Hb, Hp⟩, Ho, ⟨%d0, H0⟩, ⟨%d1, H1⟩, ⟨%d2, H2⟩, ⟨%d3, H3⟩⟩
      have ha' : a = acc1 V c (t.val - 1) hn := ha (t.val - 1) hn he
      subst ha'
      iapply (sound_kernel1_B c Set.univ (grid1.coords t) hc0 hc1 _ _ _ _ _ _ _ _ _ _ (iblk1 V c 0 t) (iblk1 V c 1 t) _ _ (acc1 V c (t.val - 1) hn) _)
      isplitl [H0]; · iexact H0
      isplitl [H1]; · iexact H1
      isplitl [H2]; · iexact H2
      isplitl [H3]; · iexact H3
      isplitl [Hs]; · iexact Hs
      iintro ⟨H0, H1, H2, H3, Hs⟩
      rw [← acc1_next V c t h0 (t.val - 1) hn he]
      isplitl [Hs Hb Hp]
      · isplitl [Hs]
        · iexists (acc1 V c t.val t.isLt); isplitr
          · ipureintro; intro n hn' e
            have : n = t.val := by have : (t.succ : Fin (cfg1.N + 1)).val = t.val + 1 := rfl; omega
            subst this; rfl
          iexact Hs
        isplitl [Hb]; · iexact Hb
        iexact Hp
      isplitl [Ho]; · iexact Ho
      isplitl [H0]; · iexact H0
      isplitl [H1]; · iexact H1
      isplitl [H2]; · iexists _; iexact H2
      iexists _; iexact H3

/-- The body obligation of the pipeline's rule, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Gen

end
-- ==== Proof.KReg2a.lean ====
/-
  The third kernel region: delta = (y_activeᵀ · x) / N accumulated over four blocks of the batch axis in a scratch
  accumulator that is zeroed at the first block; at the last block 0.95 · fast + 0.05 · (accumulator · 2⁻¹²) is stored to
  the output block. Stated at a parameter `V`, the contents of the core's buffers when the region is entered.
-/
import proofs.«139551_j86955907875211_1_alg».proof.Proof.Gen.Kernel.Launch
import proofs.«139551_j86955907875211_1_alg».proof.Proof.Gen.Kernel.Skeleton
import proofs.«139551_j86955907875211_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2

variable (V : (c : Dev nD) → (b : Ref sig .tc) → Buf (Elt F) ((c : Thread nD τ).loc b))

/-- Window `w`'s block at point `t` of its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The body's two branch conditions, from the grid coordinates: the batch axis's coordinate is 0; it is 3. -/
abbrev cond2_0 (i : grid2.Coords) : Prop := (Scalar.cmpi .ne (Scalar.extui (Scalar.cmpi .eq (BitVec.ofNat 32 (i 2).val) 0#32)) 0#32) = 1#1
abbrev cond2_1 (i : grid2.Coords) : Prop := k2_cond2 i = 1#1
theorem hcond2_0 : ∀ t : Fin cfg2.N, cond2_0 (grid2.coords t) ↔ t.val % 4 = 0 :=
  (by decide +kernel : ∀ t : Fin grid2.N, cond2_0 (grid2.coords t) ↔ t.val % 4 = 0)
theorem hcond2_1 : ∀ t : Fin cfg2.N, cond2_1 (grid2.coords t) ↔ t.val % 4 = 3 :=
  (by decide +kernel : ∀ t : Fin grid2.N, cond2_1 (grid2.coords t) ↔ t.val % 4 = 3)

/-- The zero offsets of a whole-buffer rectangle. -/
theorem hz2' : (![0, 0] : Fin 2 → Nat) = fun _ => 0 := funext fun a => by fin_cases a <;> rfl

/-- The accumulator's start, one accumulation step, and the final combination with the fast trace, as the body
    computes them. -/
abbrev zero2 : Vec F S512x512 .f32 := k2_pay1 (F := F)
abbrev step2 (x0 : Vec F S1024x512 .bf16) (x1 : Vec F S1024x512 .f32) (a : Vec F S512x512 .f32) : Vec F S512x512 .f32 := k2_pay2 x0 x1 a
abbrev fin2 (a x2 : Vec F S512x512 .f32) : Vec F S512x512 .f32 := k2_pay3 a x2

set_option maxHeartbeats 1000000 in
/-- The body at a first block of the batch axis (coordinate 0): the accumulator, whatever it held, ends at one step
    from zero; the output buffer is not touched. -/
theorem sound_kernel2_A (c : Dev nD) (E : Set ℕ) (i : grid2.Coords) (hc0 : cond2_0 i) (hc1 : ¬cond2_1 i)
    (arg3 : Memref sig .tc .vmem S1024x512 .bf16) (harg3 : arg3.IsWhole) (arg4 : Memref sig .tc .vmem S1024x512 .f32) (harg4 : arg4.IsWhole)
    (arg5 : Memref sig .tc .vmem S512x512 .f32) (harg5 : arg5.IsWhole) (arg6 : Memref sig .tc .vmem S512x512 .f32) (harg6 : arg6.IsWhole)
    (arg7 : Memref sig .tc .vmem S512x512 .f32) (harg7 : arg7.IsWhole)
    (x0 : Vec F S1024x512 .bf16) (x1 : Vec F S1024x512 .f32) (x2 : Vec F S512x512 .f32) (y6 : Vec F S512x512 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare y6
        ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg6 fullShare y6
            ∗ owns (c : Thread nD τ) arg7 fullShare (step2 x0 x1 zero2)) -∗ K ⟨⟩))
      ⊢ wp frame (wpE (defs₀ (F := F)) Variants.none c none) E (cc2__delta_kernel i arg3 harg3 arg4 harg4 arg5 harg5 arg6 harg6 arg7 harg7) K := by
  simp only [cc2__delta_kernel_eq_skeleton]; unfold cc2__delta_kernel_skel
  unfold owns
  iintro ⟨⟨%f0, %hf0, H0⟩, ⟨%f1, %hf1, H1⟩, ⟨%f5, %hf5, H5⟩, ⟨%f6, %hf6, H6⟩, ⟨%d7, %f7, -, H7⟩, Hk⟩
  subst hf0; subst hf1; subst hf5; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H5]
  · iexists f5; isplitr; · ipureintro; rfl
    iexact H5
  isplitl [H6]
  · iexists f6; isplitr; · ipureintro; rfl
    iexact H6
  iexists _; isplitr
  swap; · iexact H7
  ipureintro
  sl_unfold_run_names
  rw [View.read_writes_eq_canon _ _ _ (fun y => ⟨_, List.mem_cons_self, View.mem_set_unit_zero hz2' inb_S512x512_S512x512_0_0 y⟩)]
  rw [View.canon_cons_unit_zero hz2']
  try rw [View.readCov_unit_zero _ hz2']
  try simp only [View.readAt_eq_ld, View.ld_unit_zero (S := S512x1024) hz2', View.ld_unit_zero (S := S1024x512) hz2', View.ld_unit_zero (S := S512x512) hz2']

set_option maxHeartbeats 1000000 in
/-- The body at a middle block (coordinate 1 or 2): the accumulator takes one more step; the output buffer is not
    touched. -/
theorem sound_kernel2_B (c : Dev nD) (E : Set ℕ) (i : grid2.Coords) (hc0 : ¬cond2_0 i) (hc1 : ¬cond2_1 i)
    (arg3 : Memref sig .tc .vmem S1024x512 .bf16) (harg3 : arg3.IsWhole) (arg4 : Memref sig .tc .vmem S1024x512 .f32) (harg4 : arg4.IsWhole)
    (arg5 : Memref sig .tc .vmem S512x512 .f32) (harg5 : arg5.IsWhole) (arg6 : Memref sig .tc .vmem S512x512 .f32) (harg6 : arg6.IsWhole)
    (arg7 : Memref sig .tc .vmem S512x512 .f32) (harg7 : arg7.IsWhole)
    (x0 : Vec F S1024x512 .bf16) (x1 : Vec F S1024x512 .f32) (x2 : Vec F S512x512 .f32) (y6 : Vec F S512x512 .f32) (a : Vec F S512x512 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare y6
        ∗ owns (c : Thread nD τ) arg7 fullShare a
        ∗ (iprop(owns (c : Thread nD τ) arg3 fullShare x0 ∗ owns (c : Thread nD τ) arg4 fullShare x1 ∗ owns (c : Thread nD τ) arg5 fullShare x2
            ∗ owns (c : Thread nD τ) arg6 fullShare y6
            ∗ owns (c : Thread nD τ) arg7 fullShare (step2 x0 x1 a)) -∗ K ⟨⟩))
      ⊢ wp frame (wpE (defs₀ (F := F)) Variants.none c none) E (cc2__delta_kernel i arg3 harg3 arg4 harg4 arg5 harg5 arg6 harg6 arg7 harg7) K := by
  simp only [cc2__delta_kernel_eq_skeleton]; unfold cc2__delta_kernel_skel
  unfold owns
  iintro ⟨⟨%f0, %hf0, H0⟩, ⟨%f1, %hf1, H1⟩, ⟨%f5, %hf5, H5⟩, ⟨%f6, %hf6, H6⟩, ⟨%f7, %hf7, H7⟩, Hk⟩
  subst hf0; subst hf1; subst hf5; subst hf6; subst hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H5]
  · iexists f5; isplitr; · ipureintro; rfl
    iexact H5
  isplitl [H6]
  · iexists f6; isplitr; · ipureintro; rfl
    iexact H6
  iexists _; isplitr
  swap; · iexact H7
  ipureintro
  sl_unfold_run_names
  rw [View.read_writes_eq_canon _ _ _ (fun y => ⟨_, List.mem_cons_self, View.mem_set_unit_zero hz2' inb_S512x512_S512x512_0_0 y⟩)]
  rw [View.canon_cons_unit_zero hz2']
  try rw [View.readCov_unit_zero _ hz2']
  try simp only [View.readAt_eq_ld, View.ld_unit_zero (S := S512x1024) hz2', View.ld_unit_zero (S := S1024x512) hz2', View.ld_unit_zero (S := S512x512) hz2']

set_option maxHeartbeats 1000000 in
/-- The body at the last block (coordinate 3): the accumulator takes its last step and, scaled and combined with the
    fast trace's block, is stored to the output buffer. -/
theorem sound_kernel2_C (c : Dev nD) (E : Set ℕ) (i : grid2.Coords) (hc0 : ¬cond2_0 i) (hc1 : cond2_1 i)
    (arg3 : Memref sig .tc .vmem S1024x512 .bf16) (harg3 : arg3.IsWhole) (arg4 : Memref sig .tc .vmem S1024x512 .f32) (harg4 : arg4.IsWhole)
    (arg5 : Memref sig .tc .vmem S512x512 .f32) (harg5 : arg5.IsWhole) (arg6 : Memref sig .tc .vmem S512x512 .f32) (harg6 : arg6.IsWhole)
    (arg7 : Memref sig .tc .vmem S512x512 .f32) (harg7 : arg7.IsWhole)
    (x0 : Vec F S1024x512 .bf16) (x1 : Vec F S1024x512 .f32) (x2 : Vec F S512x512 .f32) (a : Vec F S512x512 .f32) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d)
        ∗ owns (c : Thread nD τ) arg7 fullShare a
        ∗ (iprop(owns (c : Thread nD τ) arg3 fullShare x0 ∗ owns (c : Thread nD τ) arg4 fullShare x1 ∗ owns (c : Thread nD τ) arg5 fullShare x2
            ∗ owns (c : Thread nD τ) arg6 fullShare (fin2 (step2 x0 x1 a) x2)
            ∗ owns (c : Thread nD τ) arg7 fullShare (step2 x0 x1 a)) -∗ K ⟨⟩))
      ⊢ wp frame (wpE (defs₀ (F := F)) Variants.none c none) E (cc2__delta_kernel i arg3 harg3 arg4 harg4 arg5 harg5 arg6 harg6 arg7 harg7) K := by
  simp only [cc2__delta_kernel_eq_skeleton]; unfold cc2__delta_kernel_skel
  unfold owns
  iintro ⟨⟨%f0, %hf0, H0⟩, ⟨%f1, %hf1, H1⟩, ⟨%f5, %hf5, H5⟩, ⟨%d6, %f6, -, H6⟩, ⟨%f7, %hf7, H7⟩, Hk⟩
  subst hf0; subst hf1; subst hf5; subst hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H5]
  · iexists f5; isplitr; · ipureintro; rfl
    iexact H5
  isplitl [H6]
  · iexists _; isplitr
    swap; · iexact H6
    ipureintro
    sl_unfold_run_names
    rw [View.read_writes_eq_canon _ _ _ (fun y => ⟨_, List.mem_cons_self, View.mem_set_unit_zero hz2' inb_S512x512_S512x512_0_0 y⟩)]
    rw [View.canon_cons_unit_zero hz2']
    try rw [View.readCov_unit_zero _ hz2']
    try simp only [View.readAt_eq_ld, View.ld_unit_zero (S := S512x1024) hz2', View.ld_unit_zero (S := S1024x512) hz2', View.ld_unit_zero (S := S512x512) hz2']

  iexists _; isplitr
  swap; · iexact H7
  ipureintro
  sl_unfold_run_names
  rw [View.read_writes_eq_canon _ _ _ (fun y => ⟨_, List.mem_cons_self, View.mem_set_unit_zero hz2' inb_S512x512_S512x512_0_0 y⟩)]
  rw [View.canon_cons_unit_zero hz2']
  try rw [View.readCov_unit_zero _ hz2']
  try simp only [View.readAt_eq_ld, View.ld_unit_zero (S := S512x1024) hz2', View.ld_unit_zero (S := S1024x512) hz2', View.ld_unit_zero (S := S512x512) hz2']

end Region2

end Cert.Kernel.Gen

end
-- ==== Proof.KReg2.lean ====
/-
  The third kernel region, continued: the accumulator after each grid point, the pipeline's proof data, and the body
  obligation by the block of the batch axis a point is at.
-/
import proofs.«139551_j86955907875211_1_alg».proof.Proof.Gen.Kernel.Launch
import proofs.«139551_j86955907875211_1_alg».proof.Proof.Gen.Kernel.Skeleton
import proofs.«139551_j86955907875211_1_alg».proof.Proof.Gen.Kernel.Points
import proofs.«139551_j86955907875211_1_alg».proof.Proof.KReg2a
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2

variable (V : (c : Dev nD) → (b : Ref sig .tc) → Buf (Elt F) ((c : Thread nD τ).loc b))

/-- The accumulator after point `n`: one step from zero at a first block of the batch axis, one more step from the
    point before otherwise. -/
def acc2 (c : Dev nD) : (n : ℕ) → n < cfg2.N → Vec F S512x512 .f32
  | 0, h => step2 (iblk2 V c 0 ⟨0, h⟩) (iblk2 V c 1 ⟨0, h⟩) zero2
  | n + 1, h => step2 (iblk2 V c 0 ⟨n + 1, h⟩) (iblk2 V c 1 ⟨n + 1, h⟩)
      (if (n + 1) % 4 = 0 then zero2 else acc2 c n (Nat.lt_of_succ_lt h))

theorem acc2_first (c : Dev nD) (t : Fin cfg2.N) (h : t.val % 4 = 0) :
    acc2 V c t.val t.isLt = step2 (iblk2 V c 0 t) (iblk2 V c 1 t) zero2 := by
  obtain ⟨n, hn⟩ := t
  cases n with
  | zero => rfl
  | succ n => rw [acc2, if_pos h]

theorem acc2_next (c : Dev nD) (t : Fin cfg2.N) (h : t.val % 4 ≠ 0) (n : ℕ) (hn : n < cfg2.N) (e : t.val = n + 1) :
    acc2 V c t.val t.isLt = step2 (iblk2 V c 0 t) (iblk2 V c 1 t) (acc2 V c n hn) := by
  obtain ⟨k, hk⟩ := t
  subst e
  rw [acc2, if_neg h]

/-- The scratch accumulator as a whole-buffer memref. -/
abbrev scM2 : Memref sig .tc .vmem S512x512 .f32 := Memref.whole cc2_scratch0

/-- The invariant between points: the accumulator holds what the point just completed left (anything before the first
    point); the other scoped buffers and the generator register ride along. -/
def Φ2 (c : Dev nD) (j : Fin (cfg2.N + 1)) : sProp 𝕄 :=
  iprop((∃ d, ⌜∀ (n : ℕ) (hn : n < cfg2.N), j.val = n + 1 → d = acc2 V c n hn⌝ ∗ owns (c : Thread nD τ) scM2 fullShare d)
    ∗ Pipeline.scopedRestBut (Ix := Unit) (Name := ℕ) (U := UR sig nD τ) (Lvl := ℕ) (Val := Elt F) spec2 c [cc2_scratch0]
    ∗ ∃ r, prngReg c r)

/-- The proof data of this pipeline on core `c`: the output's buffer, where the body stores it (the last block of the
    batch axis), holds the combination of the accumulator with the fast trace's block. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => fin2 (acc2 V c t.val t.isLt) (iblk2 V c 2 t)
  Φ j := Φ2 V c j
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = fin2 (acc2 V c t.val t.isLt) (iblk2 V c 2 t) := by dsimp only [dat2]
theorem Φ_eq2 (c : Dev nD) (j : Fin (cfg2.N + 1)) : (dat2 V c).Φ j = Φ2 V c j := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- Where the output window is idle: everywhere but at the last block of the batch axis, where the pipeline writes it
    back. -/
theorem idle2_3 : ∀ t : Fin cfg2.N, t.val % 4 ≠ 3 → idle2 3 (grid2.coords t) = true :=
  (by decide +kernel : ∀ t : Fin grid2.N, t.val % 4 ≠ 3 → idle2 3 (grid2.coords t) = true)
theorem live2_3 : ∀ t : Fin cfg2.N, t.val % 4 = 3 → idle2 3 (grid2.coords t) = false :=
  (by decide +kernel : ∀ t : Fin grid2.N, t.val % 4 = 3 → idle2 3 (grid2.coords t) = false)
theorem noflush2_3 (t : Fin cfg2.N) (h : t.val % 4 ≠ 3) : (win2 3).flush t = false :=
  Bool.eq_false_iff.mpr fun hf => h ((flush2_3 t).mp hf)

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns: the output window, idle at the point (and not written back there), is handed back as found. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ (match cfg2.idle 3 (cfg2.grid.coords t) with
        | true =>
          match (cfg2.win 3).flush t with
          | false => iprop(∃ d, owns (c : Thread nD τ) (st2_3 t) fullShare ((dat2 V c).before 3 t d))
          | true => owns (c : Thread nD τ) (st2_3 t) fullShare ((dat2 V c).after 3 t)
        | false => owns (c : Thread nD τ) (st2_3 t) fullShare ((dat2 V c).after 3 t)))

/-- The body at any point, by the block of the batch axis the point is at. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl,
    after2_0, after2_1, after2_2, after2_3, Φ_eq2, Φ_eq2]
  unfold Φ2
  by_cases h3 : t.val % 4 = 3
  · -- the last block: the output is stored and written back
    rw [live2_3 t h3]
    dsimp only
    have h0 : t.val % 4 ≠ 0 := by omega
    have hc0 : ¬cond2_0 (grid2.coords t) := fun h => h0 ((hcond2_0 t).mp h)
    have hc1 : cond2_1 (grid2.coords t) := (hcond2_1 t).mpr h3
    have hn : t.val - 1 < cfg2.N := by have := t.isLt; omega
    have he : t.val = (t.val - 1) + 1 := by omega
    iintro ⟨⟨⟨%a, %ha, Hs⟩, Hb, Hp⟩, Ho, ⟨%d0, H0⟩, ⟨%d1, H1⟩, ⟨%d2, H2⟩, ⟨%d3, H3⟩⟩
    have ha' : a = acc2 V c (t.val - 1) hn := ha (t.val - 1) hn he
    subst ha'
    iapply (sound_kernel2_C c Set.univ (grid2.coords t) hc0 hc1 _ _ _ _ _ _ _ _ _ _ (iblk2 V c 0 t) (iblk2 V c 1 t) (iblk2 V c 2 t) (acc2 V c (t.val - 1) hn) _)
    isplitl [H0]; · iexact H0
    isplitl [H1]; · iexact H1
    isplitl [H2]; · iexact H2
    isplitl [H3]; · iexists _; iexact H3
    isplitl [Hs]; · iexact Hs
    iintro ⟨H0, H1, H2, H3, Hs⟩
    rw [← acc2_next V c t h0 (t.val - 1) hn he]
    isplitl [Hs Hb Hp]
    · isplitl [Hs]
      · iexists (acc2 V c t.val t.isLt); isplitr
        · ipureintro; intro n hn' e
          have : n = t.val := by have : (t.succ : Fin (cfg2.N + 1)).val = t.val + 1 := rfl; omega
          subst this; rfl
        iexact Hs
      isplitl [Hb]; · iexact Hb
      iexact Hp
    isplitl [Ho]; · iexact Ho
    isplitl [H0]; · iexact H0
    isplitl [H1]; · iexact H1
    isplitl [H2]; · iexact H2
    iexact H3
  · -- the output is idle and handed back as found
    rw [idle2_3 t h3, noflush2_3 t h3]
    dsimp only
    have hc1 : ¬cond2_1 (grid2.coords t) := fun h => h3 ((hcond2_1 t).mp h)
    by_cases h0 : t.val % 4 = 0
    · -- a first block: the accumulator restarts
      have hc0 : cond2_0 (grid2.coords t) := (hcond2_0 t).mpr h0
      iintro ⟨⟨⟨%a, -, Hs⟩, Hb, Hp⟩, Ho, ⟨%d0, H0⟩, ⟨%d1, H1⟩, ⟨%d2, H2⟩, ⟨%d3, H3⟩⟩
      iapply (sound_kernel2_A c Set.univ (grid2.coords t) hc0 hc1 _ _ _ _ _ _ _ _ _ _ (iblk2 V c 0 t) (iblk2 V c 1 t) (iblk2 V c 2 t) _ _)
      isplitl [H0]; · iexact H0
      isplitl [H1]; · iexact H1
      isplitl [H2]; · iexact H2
      isplitl [H3]; · iexact H3
      isplitl [Hs]; · iexists _; iexact Hs
      iintro ⟨H0, H1, H2, H3, Hs⟩
      rw [← acc2_first V c t h0]
      isplitl [Hs Hb Hp]
      · isplitl [Hs]
        · iexists (acc2 V c t.val t.isLt); isplitr
          · ipureintro; intro n hn' e
            have : n = t.val := by have : (t.succ : Fin (cfg2.N + 1)).val = t.val + 1 := rfl; omega
            subst this; rfl
          iexact Hs
        isplitl [Hb]; · iexact Hb
        iexact Hp
      isplitl [Ho]; · iexact Ho
      isplitl [H0]; · iexact H0
      isplitl [H1]; · iexact H1
      isplitl [H2]; · iexact H2
      iexists _; iexact H3
    · -- a middle block: one more step
      have hc0 : ¬cond2_0 (grid2.coords t) := fun h => h0 ((hcond2_0 t).mp h)
      have hn : t.val - 1 < cfg2.N := by have := t.isLt; omega
      have he : t.val = (t.val - 1) + 1 := by omega
      iintro ⟨⟨⟨%a, %ha, Hs⟩, Hb, Hp⟩, Ho, ⟨%d0, H0⟩, ⟨%d1, H1⟩, ⟨%d2, H2⟩, ⟨%d3, H3⟩⟩
      have ha' : a = acc2 V c (t.val - 1) hn := ha (t.val - 1) hn he
      subst ha'
      iapply (sound_kernel2_B c Set.univ (grid2.coords t) hc0 hc1 _ _ _ _ _ _ _ _ _ _ (iblk2 V c 0 t) (iblk2 V c 1 t) (iblk2 V c 2 t) _ (acc2 V c (t.val - 1) hn) _)
      isplitl [H0]; · iexact H0
      isplitl [H1]; · iexact H1
      isplitl [H2]; · iexact H2
      isplitl [H3]; · iexact H3
      isplitl [Hs]; · iexact Hs
      iintro ⟨H0, H1, H2, H3, Hs⟩
      rw [← acc2_next V c t h0 (t.val - 1) hn he]
      isplitl [Hs Hb Hp]
      · isplitl [Hs]
        · iexists (acc2 V c t.val t.isLt); isplitr
          · ipureintro; intro n hn' e
            have : n = t.val := by have : (t.succ : Fin (cfg2.N + 1)).val = t.val + 1 := rfl; omega
            subst this; rfl
          iexact Hs
        isplitl [Hb]; · iexact Hb
        iexact Hp
      isplitl [Ho]; · iexact Ho
      isplitl [H0]; · iexact H0
      isplitl [H1]; · iexact H1
      isplitl [H2]; · iexact H2
      iexists _; iexact H3

/-- The body obligation of the pipeline's rule, at every point. -/
theorem body_obligation2 (c : Dev nD) : BodyObligation (dat2 (F := F) V c) (defs₀ (F := F)) Variants.none () Set.univ := fun t => by
  rw [bigSep_W2, bigSep_W2]
  exact sound_body2 V c t

end Region2

end Cert.Kernel.Gen

end
-- ==== Proof.KReg3.lean ====
/-
  The last kernel region: per block of 128 rows, the raw fast trace scaled by the homeostatic factor (one word the
  host computed) gives the new fast trace, and 0.99 · slow + 0.01 · (new fast) the new slow trace. Stated at a parameter
  `V`, the contents of the core's buffers when the region is entered.
-/
import proofs.«139551_j86955907875211_1_alg».proof.Proof.Gen.Kernel.Launch
import proofs.«139551_j86955907875211_1_alg».proof.Proof.Gen.Kernel.Skeleton
import proofs.«139551_j86955907875211_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3

variable (V : (c : Dev nD) → (b : Ref sig .tc) → Buf (Elt F) ((c : Thread nD τ).loc b))

/-- Window `w`'s block at point `t` of its array as the region finds it: rows `128 t … 128 t + 127` for the four
    matrices, the single word for the scale. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Each input window's current staging buffer holds its block at every point, fetched there or not (the scale's
    is fetched once and its index never moves). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The whole 128 × 4096 staging buffer, and the one-word buffer, as rectangles. -/
abbrev r3_0 : Rect S128x4096 := Rect.unit (s := S128x4096) ![0, 0] S128x4096.size inb_S128x4096_S128x4096_0_0
abbrev r3_1 : Rect S1x1 := Rect.unit (s := S1x1) ![0, 0] S1x1.size inb_S1x1_S1x1_0_0

/-- What the body leaves in the two output windows' buffers: one whole-buffer store each. -/
def out3_3 (x0 : Vec F S128x4096 .f32) (x2 : Vec F S1x1 .f32) : Vec F S128x4096 .f32 :=
  View.canon [⟨r3_0, k3_pay1 (View.ld x2 r3_1) (View.ld x0 r3_0)⟩]
def out3_4 (x0 x1 : Vec F S128x4096 .f32) (x2 : Vec F S1x1 .f32) : Vec F S128x4096 .f32 :=
  View.canon [⟨r3_0, k3_pay2 (View.ld x2 r3_1) (View.ld x0 r3_0) (View.ld x1 r3_0)⟩]

theorem cover3 (p0 : Vec F S128x4096 .f32) (y : S128x4096.Idx) :
    ∃ pc ∈ ([⟨r3_0, p0⟩] : List (View.Piece (Elt F) S128x4096 .f32)), y ∈ pc.1.set :=
  View.cover_of_tiled [⟨r3_0, p0⟩] S128x4096.size (by rfl) y

set_option maxHeartbeats 1000000 in
/-- The body on whole staging memrefs: the inputs keep their contents, the outputs end at `out3_3` and `out3_4`. -/
theorem sound_kernel3 (c : Dev nD) (E : Set ℕ) (i : grid3.Coords)
    (arg1 : Memref sig .tc .vmem S128x4096 .f32) (harg1 : arg1.IsWhole) (arg2 : Memref sig .tc .vmem S128x4096 .f32) (harg2 : arg2.IsWhole)
    (arg3 : Memref sig .tc .vmem S1x1 .f32) (harg3 : arg3.IsWhole)
    (arg4 : Memref sig .tc .vmem S128x4096 .f32) (harg4 : arg4.IsWhole) (arg5 : Memref sig .tc .vmem S128x4096 .f32) (harg5 : arg5.IsWhole)
    (x0 x1 : Vec F S128x4096 .f32) (x2 : Vec F S1x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x2) ∗ owns (c : Thread nD τ) arg5 fullShare (out3_4 x0 x1 x2)) -∗ K ⟨⟩))
      ⊢ wp frame (wpE (defs₀ (F := F)) Variants.none c none) E (cc3__finalize_kernel i arg1 harg1 arg2 harg2 arg3 harg3 arg4 harg4 arg5 harg5) K := by
  simp only [cc3__finalize_kernel_eq_skeleton]; unfold cc3__finalize_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover3 _)
  iexists _; isplitr
  swap; · iexact H4
  ipureintro
  exact View.read_writes_eq_canon _ _ _ (cover3 _)

/-- The proof data of this pipeline on core `c`. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 2 t)
    | ⟨4, _⟩ => out3_4 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 2 t) := by dsimp only [dat3]
theorem after3_4 (c : Dev nD) (t : Fin cfg3.N) :
    (dat3 V c).after 4 t = out3_4 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the pipeline's rule, at every point. -/
theorem body_obligation3 (c : Dev nD) : BodyObligation (dat3 (F := F) V c) (defs₀ (F := F)) Variants.none () Set.univ := fun t => by
  rw [bigSep_W3, bigSep_W3]
  exact sound_body3 V c t

end Region3

end Cert.Kernel.Gen

end
-- ==== Proof.KRun.lean ====
/-
  The whole run of the program: four kernel regions with three short stretches of host arithmetic between the third
  and the fourth. The contents of every unscoped buffer at each boundary between two items are folded from the
  launch memory — a region leaves its arrays at what its pipeline's write-backs make of them, a host stretch what its
  operations compute —, each region is a segment over the thread state "every unscoped buffer at the boundary's
  contents, the generator register somewhere, nothing owed", and the run ends with every unscoped buffer at the last
  boundary's contents.
-/
import proofs.«139551_j86955907875211_1_alg».proof.Proof.Gen.Kernel.Launch
import proofs.«139551_j86955907875211_1_alg».proof.Proof.Gen.Kernel.Skeleton
import proofs.«139551_j86955907875211_1_alg».proof.Proof.Gen.Kernel.Points
import proofs.«139551_j86955907875211_1_alg».proof.Proof.KReg0
import proofs.«139551_j86955907875211_1_alg».proof.Proof.KReg1
import proofs.«139551_j86955907875211_1_alg».proof.Proof.KReg2
import proofs.«139551_j86955907875211_1_alg».proof.Proof.KReg3
import proofs.«139551_j86955907875211_1_alg».proof.Proof.Gen.Kernel.Regions
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- Core `c`'s buffers at launch, -/
abbrev W0 : Dev nD → Valuation τ sig (Elt F) := fun c b => m (c, b)
/-- and read at the TensorCore's references. -/
abbrev U0 : (c : Dev nD) → (b : Ref sig .tc) → Buf (Elt F) ((c : Thread nD τ).loc b) := fun c b => W0 m c b

/-- After region 0: its arrays at what the pipeline leaves (the inputs as entered, each output's write-backs folded),
    every other buffer as entered. -/
def W1 (c : Dev nD) : Valuation τ sig (Elt F) :=
  Pipeline.withArrays spec0 c (W0 m c) fun w => (dat0 (U0 m) c).arrAt w cfg0.N
theorem W1_arr (c : Dev nD) (w : Fin cfg0.W) :
    W1 m c (Proc.devRef .tc (Pipeline.arrRef spec0 w)) = (dat0 (U0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev U1 : (c : Dev nD) → (b : Ref sig .tc) → Buf (Elt F) ((c : Thread nD τ).loc b) := fun c b => W1 m c b
theorem hF0 (c : Dev nD) (w : Fin cfg0.W) : (dat0 (U0 m) c).arrAt w cfg0.N = U1 m c (Pipeline.arrRef spec0 w) :=
  (W1_arr m c w).symm
theorem hrest0 (c : Dev nD) : ∀ b, b ∉ Finset.univ.image (Pipeline.arrRef spec0) → U1 m c b = U0 m c b :=
  fun b hb => W1_of_ne m c b fun w e => hb (Finset.mem_image.mpr ⟨w, Finset.mem_univ _, e⟩)

/-- After region 1: its arrays at what the pipeline leaves (the inputs as entered, each output's write-backs folded),
    every other buffer as entered. -/
def W2 (c : Dev nD) : Valuation τ sig (Elt F) :=
  Pipeline.withArrays spec1 c (W1 m c) fun w => (dat1 (U1 m) c).arrAt w cfg1.N
theorem W2_arr (c : Dev nD) (w : Fin cfg1.W) :
    W2 m c (Proc.devRef .tc (Pipeline.arrRef spec1 w)) = (dat1 (U1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev U2 : (c : Dev nD) → (b : Ref sig .tc) → Buf (Elt F) ((c : Thread nD τ).loc b) := fun c b => W2 m c b
theorem hF1 (c : Dev nD) (w : Fin cfg1.W) : (dat1 (U1 m) c).arrAt w cfg1.N = U2 m c (Pipeline.arrRef spec1 w) :=
  (W2_arr m c w).symm
theorem hrest1 (c : Dev nD) : ∀ b, b ∉ Finset.univ.image (Pipeline.arrRef spec1) → U2 m c b = U1 m c b :=
  fun b hb => W2_of_ne m c b fun w e => hb (Finset.mem_image.mpr ⟨w, Finset.mem_univ _, e⟩)

/-- After region 2: its arrays at what the pipeline leaves (the inputs as entered, each output's write-backs folded),
    every other buffer as entered. -/
def W3 (c : Dev nD) : Valuation τ sig (Elt F) :=
  Pipeline.withArrays spec2 c (W2 m c) fun w => (dat2 (U2 m) c).arrAt w cfg2.N
theorem W3_arr (c : Dev nD) (w : Fin cfg2.W) :
    W3 m c (Proc.devRef .tc (Pipeline.arrRef spec2 w)) = (dat2 (U2 m) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m c (Proc.devRef .tc b) = W2 m c (Proc.devRef .tc b) := by
  unfold W3; exact Pipeline.withArrays_of_ne spec2 c _ _ b hb
abbrev U3 : (c : Dev nD) → (b : Ref sig .tc) → Buf (Elt F) ((c : Thread nD τ).loc b) := fun c b => W3 m c b
theorem hF2 (c : Dev nD) (w : Fin cfg2.W) : (dat2 (U2 m) c).arrAt w cfg2.N = U3 m c (Pipeline.arrRef spec2 w) :=
  (W3_arr m c w).symm
theorem hrest2 (c : Dev nD) : ∀ b, b ∉ Finset.univ.image (Pipeline.arrRef spec2) → U3 m c b = U2 m c b :=
  fun b hb => W3_of_ne m c b fun w e => hb (Finset.mem_image.mpr ⟨w, Finset.mem_univ _, e⟩)

/-- After the host stretches between the third and the fourth region: the squared norm, its root, the comparison with
    the target and the quotient; the select; the reshape to one word. -/
abbrev W4 : Dev nD → Valuation τ sig (Elt F) := fun c => StableHlo.after hostOps3 (W3 m c)
abbrev W5 : Dev nD → Valuation τ sig (Elt F) := fun c => StableHlo.after hostOps3_1 (W4 m c)
abbrev W6 : Dev nD → Valuation τ sig (Elt F) := fun c => StableHlo.after hostOps3_2 (W5 m c)
abbrev U6 : (c : Dev nD) → (b : Ref sig .tc) → Buf (Elt F) ((c : Thread nD τ).loc b) := fun c b => W6 m c b

/-- After region 3: its arrays at what the pipeline leaves (the inputs as entered, each output's write-backs folded),
    every other buffer as entered. -/
def W7 (c : Dev nD) : Valuation τ sig (Elt F) :=
  Pipeline.withArrays spec3 c (W6 m c) fun w => (dat3 (U6 m) c).arrAt w cfg3.N
theorem W7_arr (c : Dev nD) (w : Fin cfg3.W) :
    W7 m c (Proc.devRef .tc (Pipeline.arrRef spec3 w)) = (dat3 (U6 m) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m c (Proc.devRef .tc b) = W6 m c (Proc.devRef .tc b) := by
  unfold W7; exact Pipeline.withArrays_of_ne spec3 c _ _ b hb
abbrev U7 : (c : Dev nD) → (b : Ref sig .tc) → Buf (Elt F) ((c : Thread nD τ).loc b) := fun c b => W7 m c b
theorem hF3 (c : Dev nD) (w : Fin cfg3.W) : (dat3 (U6 m) c).arrAt w cfg3.N = U7 m c (Pipeline.arrRef spec3 w) :=
  (W7_arr m c w).symm
theorem hrest3 (c : Dev nD) : ∀ b, b ∉ Finset.univ.image (Pipeline.arrRef spec3) → U7 m c b = U6 m c b :=
  fun b hb => W7_of_ne m c b fun w e => hb (Finset.mem_image.mpr ⟨w, Finset.mem_univ _, e⟩)

/-! ## The proof data family and the thread state -/

/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (U0 m) c
  | ⟨1, _⟩ => fun c => dat1 (U1 m) c
  | ⟨2, _⟩ => fun c => dat2 (U2 m) c
  | ⟨3, _⟩ => fun c => dat3 (U6 m) c
abbrev 𝒱₀ : Variants := Variants.none
/-- No core owes another anything: no level is assigned. -/
abbrev L0 : GSem nD τ sig → Finset Unit := fun _ => ∅
abbrev lv0 : GSem nD τ sig → Unit → ℕ := fun _ _ => 0
/-- What rides beside the buffers through every segment: the generator register at some state, and nothing owed. -/
abbrev Rst (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L0 lv0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst
/-- The last thread state without the dues. -/
abbrev Tend (c : Dev nD) : sProp 𝕄 := iprop(StableHlo.held (c : Thread nD τ) (Pipeline.ucRefs τ sig) (W7 m c) ∗ ∃ r, prngReg c r)

/-! ## The regions as segments -/

set_option backward.isDefEq.respectTransparency.types false in
/-- Region 0 over the thread state: entered with every unscoped buffer at the boundary's contents, left with them at
    the next boundary's; its arrays split out of the unscoped buffers and put back at what the pipeline leaves; the
    generator register into the region's invariant and out; nothing owed; no semaphore of the kernel's own. -/
def reg0 : Pipeline.RegionSeg (pcfgs (F := F)) adm (pdats m) () defs₀ 𝒱₀ L0 lv0 0 where
  win := launch0.win.to₀
  block_pos := launch0.block_pos
  stage_whole := launch0.stage_whole
  K := PEmpty
  osem k := k.elim
  ho := Pipeline.OwnSemFacts.none _
  hbody c := (body_obligation0 (U0 m) c).loose
  hwaits := Pipeline.hwaits_of_owed_zero _ _ _ _ L0 lv0 0 fun _ _ => rfl
  pre c := iprop(StableHlo.held (c : Thread nD τ) (Pipeline.ucRefs τ sig) (W0 m c) ∗ Rst c)
  post c := iprop(StableHlo.held (c : Thread nD τ) (Pipeline.ucRefs τ sig) (W1 m c) ∗ Rst c)
  X c := iprop(∃ r, prngReg c r)
  Y c := iprop(∃ r, prngReg c r)
  Z c := Pipeline.unscopedRest (Ix := Unit) (Name := ℕ) (U := UR sig nD τ) (Lvl := ℕ) spec0 c (U0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U0 m c) (U1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the boundary's contents, left with them at
    the next boundary's; its arrays split out of the unscoped buffers and put back at what the pipeline leaves; the
    generator register into the region's invariant and out; nothing owed; no semaphore of the kernel's own. -/
def reg1 : Pipeline.RegionSeg (pcfgs (F := F)) adm (pdats m) () defs₀ 𝒱₀ L0 lv0 1 where
  win := launch1.win.to₀
  block_pos := launch1.block_pos
  stage_whole := launch1.stage_whole
  K := PEmpty
  osem k := k.elim
  ho := Pipeline.OwnSemFacts.none _
  hbody c := (body_obligation1 (U1 m) c).loose
  hwaits := Pipeline.hwaits_of_owed_zero _ _ _ _ L0 lv0 1 fun _ _ => rfl
  pre c := iprop(StableHlo.held (c : Thread nD τ) (Pipeline.ucRefs τ sig) (W1 m c) ∗ Rst c)
  post c := iprop(StableHlo.held (c : Thread nD τ) (Pipeline.ucRefs τ sig) (W2 m c) ∗ Rst c)
  X c := iprop(∃ r, prngReg c r)
  Y c := iprop(∃ r, prngReg c r)
  Z c := Pipeline.unscopedRest (Ix := Unit) (Name := ℕ) (U := UR sig nD τ) (Lvl := ℕ) spec1 c (U1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Φ1 (U1 m) c 0 from rfl]; unfold Φ1
    rw [show (Pipeline.scopedRest (Ix := Unit) (Name := ℕ) (U := UR sig nD τ) (Lvl := ℕ) (Val := Elt F) (Pipeline.pin (pcfgs (F := F)) adm 1).spec c : sProp 𝕄) = _ from scopedRest1_split c]
    iintro ⟨Hp, -, ⟨%f, Hs⟩, Hb⟩
    isplitl [Hs]
    · iexists f; isplitr
      · ipureintro; intro n hn e; exact absurd e (Nat.succ_ne_zero n).symm
      rw [owns_whole]; iexact Hs
    isplitl [Hb]; · iexact Hb
    iexact Hp
  hout c := by
    rw [Pipeline.ownSems0_none, show (pdats m 1 c).Φ (Fin.last _) = Φ1 (U1 m) c (Fin.last _) from rfl]; unfold Φ1
    rw [show (Pipeline.scopedRest (Ix := Unit) (Name := ℕ) (U := UR sig nD τ) (Lvl := ℕ) (Val := Elt F) (Pipeline.pin (pcfgs (F := F)) adm 1).spec c : sProp 𝕄) = _ from scopedRest1_split c]
    iintro ⟨⟨%d, -, Hs⟩, Hb, Hp⟩
    isplitl [Hp]; · iexact Hp
    isplitr; · iempintro
    isplitl [Hs]
    · iexists d; rw [owns_whole]
      first | iexact Hs | exact .rfl | exact BI.Entails.refl _
    iexact Hb
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U1 m c) (U2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at the boundary's contents, left with them at
    the next boundary's; its arrays split out of the unscoped buffers and put back at what the pipeline leaves; the
    generator register into the region's invariant and out; nothing owed; no semaphore of the kernel's own. -/
def reg2 : Pipeline.RegionSeg (pcfgs (F := F)) adm (pdats m) () defs₀ 𝒱₀ L0 lv0 2 where
  win := launch2.win.to₀
  block_pos := launch2.block_pos
  stage_whole := launch2.stage_whole
  K := PEmpty
  osem k := k.elim
  ho := Pipeline.OwnSemFacts.none _
  hbody c := (body_obligation2 (U2 m) c).loose
  hwaits := Pipeline.hwaits_of_owed_zero _ _ _ _ L0 lv0 2 fun _ _ => rfl
  pre c := iprop(StableHlo.held (c : Thread nD τ) (Pipeline.ucRefs τ sig) (W2 m c) ∗ Rst c)
  post c := iprop(StableHlo.held (c : Thread nD τ) (Pipeline.ucRefs τ sig) (W3 m c) ∗ Rst c)
  X c := iprop(∃ r, prngReg c r)
  Y c := iprop(∃ r, prngReg c r)
  Z c := Pipeline.unscopedRest (Ix := Unit) (Name := ℕ) (U := UR sig nD τ) (Lvl := ℕ) spec2 c (U2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (U2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Φ2 (U2 m) c 0 from rfl]; unfold Φ2
    rw [show (Pipeline.scopedRest (Ix := Unit) (Name := ℕ) (U := UR sig nD τ) (Lvl := ℕ) (Val := Elt F) (Pipeline.pin (pcfgs (F := F)) adm 2).spec c : sProp 𝕄) = _ from scopedRest2_split c]
    iintro ⟨Hp, -, ⟨%f, Hs⟩, Hb⟩
    isplitl [Hs]
    · iexists f; isplitr
      · ipureintro; intro n hn e; exact absurd e (Nat.succ_ne_zero n).symm
      rw [owns_whole]; iexact Hs
    isplitl [Hb]; · iexact Hb
    iexact Hp
  hout c := by
    rw [Pipeline.ownSems0_none, show (pdats m 2 c).Φ (Fin.last _) = Φ2 (U2 m) c (Fin.last _) from rfl]; unfold Φ2
    rw [show (Pipeline.scopedRest (Ix := Unit) (Name := ℕ) (U := UR sig nD τ) (Lvl := ℕ) (Val := Elt F) (Pipeline.pin (pcfgs (F := F)) adm 2).spec c : sProp 𝕄) = _ from scopedRest2_split c]
    iintro ⟨⟨%d, -, Hs⟩, Hb, Hp⟩
    isplitl [Hp]; · iexact Hp
    isplitr; · iempintro
    isplitl [Hs]
    · iexists d; rw [owns_whole]
      first | iexact Hs | exact .rfl | exact BI.Entails.refl _
    iexact Hb
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (U2 m c) (U3 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at the boundary's contents, left with them at
    the next boundary's; its arrays split out of the unscoped buffers and put back at what the pipeline leaves; the
    generator register into the region's invariant and out; nothing owed; no semaphore of the kernel's own. -/
def reg3 : Pipeline.RegionSeg (pcfgs (F := F)) adm (pdats m) () defs₀ 𝒱₀ L0 lv0 3 where
  win := launch3.win.to₀
  block_pos := launch3.block_pos
  stage_whole := launch3.stage_whole
  K := PEmpty
  osem k := k.elim
  ho := Pipeline.OwnSemFacts.none _
  hbody c := (body_obligation3 (U6 m) c).loose
  hwaits := Pipeline.hwaits_of_owed_zero _ _ _ _ L0 lv0 3 fun _ _ => rfl
  pre c := iprop(StableHlo.held (c : Thread nD τ) (Pipeline.ucRefs τ sig) (W6 m c) ∗ Rst c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (U6 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (U6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (U6 m c) (U7 m c) ((pdats m 3 c).arrAt · cfg3.N) (hF3 m c) (hrest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's seven segments in order. -/
abbrev segsAll : List (Pipeline.Seg (pcfgs (F := F)) adm (pdats m) () defs₀ 𝒱₀ L0 lv0) :=
  [ .region (reg0 m),
    .region (reg1 m),
    .region (reg2 m),
    .host (hseg hostOps3 hostOps3_sub hostOps3_fresh (W3 m)),
    .host (hseg hostOps3_1 hostOps3_1_sub hostOps3_1_fresh (W4 m)),
    .host (hseg hostOps3_2 hostOps3_2_sub hostOps3_2_fresh (W5 m)),
    .region (reg3 m) ]

/-- @main is the run of the segments. -/
theorem main_run (c : Dev nD) : main (F := F) c = Pipeline.Seg.run (segsAll m) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: from any memory with zero counters, every weakly fair execution of @main on the TensorCores terminates,
    nothing faulting, and every final state has every unscoped buffer at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L0 lv0 m ρ main (segsAll m)
    (fun c Q => by rw [main_run m c])
    (by simp only [segsAll, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rst c)) (Tₙ := Tend m)
    (hch := ⟨fun _ => .rfl, fun _ => .rfl, fun _ => .rfl, fun _ => .rfl, fun _ => .rfl, fun _ => .rfl, fun _ => .rfl, fun _ => .rfl⟩)
    (hinit := by
      refine Pipeline.initEach L0 lv0 fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

end Cert.Kernel.Gen

end
-- ==== Proof.KFrame.lean ====
/-
  The arguments after the whole run: no host operation writes an argument array and no region may change one — a
  region reads it through an input window, which the pipeline leaves as it found it, or does not touch it —, so the
  contents at the last boundary, read at an argument's buffer, walk back to the launch memory. With the run, this is
  the frame: every weakly fair execution terminates without a fault and the four arguments end as launched.
-/
import proofs.«139551_j86955907875211_1_alg».proof.Proof.Gen.Kernel.Launch
import proofs.«139551_j86955907875211_1_alg».proof.Proof.Gen.Kernel.Skeleton
import proofs.«139551_j86955907875211_1_alg».proof.Proof.Gen.Kernel.Points
import proofs.«139551_j86955907875211_1_alg».proof.Proof.KRun
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem W7_main_arg0 (c : Dev nD) : W7 m c (Proc.devRef .tc main_arg0) = m ((c : Thread nD τ).loc main_arg0) :=
  calc W7 m c (Proc.devRef .tc main_arg0)
    _ = W6 m c (Proc.devRef .tc main_arg0) := W7_of_ne m c main_arg0 (by decide)
    _ = W5 m c (Proc.devRef .tc main_arg0) := StableHlo.after_of_writes_sub hostOps3_2 (W5 m c) hostOps3_2_writes (by decide : main_arg0 ∉ hostOps3_2_W)
    _ = W4 m c (Proc.devRef .tc main_arg0) := StableHlo.after_of_writes_sub hostOps3_1 (W4 m c) hostOps3_1_writes (by decide : main_arg0 ∉ hostOps3_1_W)
    _ = W3 m c (Proc.devRef .tc main_arg0) := StableHlo.after_of_writes_sub hostOps3 (W3 m c) hostOps3_writes (by decide : main_arg0 ∉ hostOps3_W)
    _ = W2 m c (Proc.devRef .tc main_arg0) := (W3_arr m c 1).trans (((dat2 (U2 m) c).arrAt_in 1 rfl _).trans (A_eq2 (U2 m) c 1))
    _ = W1 m c (Proc.devRef .tc main_arg0) := (W2_arr m c 0).trans (((dat1 (U1 m) c).arrAt_in 0 rfl _).trans (A_eq1 (U1 m) c 0))
    _ = W0 m c (Proc.devRef .tc main_arg0) := W1_of_ne m c main_arg0 (by decide)
    _ = m ((c : Thread nD τ).loc main_arg0) := rfl

theorem W7_main_arg1 (c : Dev nD) : W7 m c (Proc.devRef .tc main_arg1) = m ((c : Thread nD τ).loc main_arg1) :=
  calc W7 m c (Proc.devRef .tc main_arg1)
    _ = W6 m c (Proc.devRef .tc main_arg1) := W7_of_ne m c main_arg1 (by decide)
    _ = W5 m c (Proc.devRef .tc main_arg1) := StableHlo.after_of_writes_sub hostOps3_2 (W5 m c) hostOps3_2_writes (by decide : main_arg1 ∉ hostOps3_2_W)
    _ = W4 m c (Proc.devRef .tc main_arg1) := StableHlo.after_of_writes_sub hostOps3_1 (W4 m c) hostOps3_1_writes (by decide : main_arg1 ∉ hostOps3_1_W)
    _ = W3 m c (Proc.devRef .tc main_arg1) := StableHlo.after_of_writes_sub hostOps3 (W3 m c) hostOps3_writes (by decide : main_arg1 ∉ hostOps3_W)
    _ = W2 m c (Proc.devRef .tc main_arg1) := W3_of_ne m c main_arg1 (by decide)
    _ = W1 m c (Proc.devRef .tc main_arg1) := W2_of_ne m c main_arg1 (by decide)
    _ = W0 m c (Proc.devRef .tc main_arg1) := (W1_arr m c 0).trans (((dat0 (U0 m) c).arrAt_in 0 rfl _).trans (A_eq0 (U0 m) c 0))
    _ = m ((c : Thread nD τ).loc main_arg1) := rfl

theorem W7_main_arg2 (c : Dev nD) : W7 m c (Proc.devRef .tc main_arg2) = m ((c : Thread nD τ).loc main_arg2) :=
  calc W7 m c (Proc.devRef .tc main_arg2)
    _ = W6 m c (Proc.devRef .tc main_arg2) := W7_of_ne m c main_arg2 (by decide)
    _ = W5 m c (Proc.devRef .tc main_arg2) := StableHlo.after_of_writes_sub hostOps3_2 (W5 m c) hostOps3_2_writes (by decide : main_arg2 ∉ hostOps3_2_W)
    _ = W4 m c (Proc.devRef .tc main_arg2) := StableHlo.after_of_writes_sub hostOps3_1 (W4 m c) hostOps3_1_writes (by decide : main_arg2 ∉ hostOps3_1_W)
    _ = W3 m c (Proc.devRef .tc main_arg2) := StableHlo.after_of_writes_sub hostOps3 (W3 m c) hostOps3_writes (by decide : main_arg2 ∉ hostOps3_W)
    _ = W2 m c (Proc.devRef .tc main_arg2) := (W3_arr m c 2).trans (((dat2 (U2 m) c).arrAt_in 2 rfl _).trans (A_eq2 (U2 m) c 2))
    _ = W1 m c (Proc.devRef .tc main_arg2) := W2_of_ne m c main_arg2 (by decide)
    _ = W0 m c (Proc.devRef .tc main_arg2) := (W1_arr m c 1).trans (((dat0 (U0 m) c).arrAt_in 1 rfl _).trans (A_eq0 (U0 m) c 1))
    _ = m ((c : Thread nD τ).loc main_arg2) := rfl

theorem W7_main_arg3 (c : Dev nD) : W7 m c (Proc.devRef .tc main_arg3) = m ((c : Thread nD τ).loc main_arg3) :=
  calc W7 m c (Proc.devRef .tc main_arg3)
    _ = W6 m c (Proc.devRef .tc main_arg3) := (W7_arr m c 1).trans (((dat3 (U6 m) c).arrAt_in 1 rfl _).trans (A_eq3 (U6 m) c 1))
    _ = W5 m c (Proc.devRef .tc main_arg3) := StableHlo.after_of_writes_sub hostOps3_2 (W5 m c) hostOps3_2_writes (by decide : main_arg3 ∉ hostOps3_2_W)
    _ = W4 m c (Proc.devRef .tc main_arg3) := StableHlo.after_of_writes_sub hostOps3_1 (W4 m c) hostOps3_1_writes (by decide : main_arg3 ∉ hostOps3_1_W)
    _ = W3 m c (Proc.devRef .tc main_arg3) := StableHlo.after_of_writes_sub hostOps3 (W3 m c) hostOps3_writes (by decide : main_arg3 ∉ hostOps3_W)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := (W1_arr m c 2).trans (((dat0 (U0 m) c).arrAt_in 2 rfl _).trans (A_eq0 (U0 m) c 2))
    _ = m ((c : Thread nD τ).loc main_arg3) := rfl

/-- THE FRAME, at any float instance. -/
theorem frame_all (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W7_main_arg0 m c),
     (h c _ (mem_uc main_arg1 (by decide))).trans (W7_main_arg1 m c),
     (h c _ (mem_uc main_arg2 (by decide))).trans (W7_main_arg2 m c),
     (h c _ (mem_uc main_arg3 (by decide))).trans (W7_main_arg3 m c)⟩) (run_all m ρ)

end Cert.Kernel.Gen

end
-- ==== Proof.KIReg0.lean ====
/-
  The first kernel region: per block of 128 rows of the weight, the ternary quantisation of each row against its
  mean absolute value, plus the two trace terms, written to the effective-weight array. Stated at a parameter `V`,
  the contents of the core's buffers when the region is entered: what each window's staging buffer holds after the
  body at a grid point, the body's triple, the proof data of the pipeline and its body obligation.
-/
import proofs.«139551_j86955907875211_1_alg».proof.Proof.Gen.KernelIdeal.Launch
import proofs.«139551_j86955907875211_1_alg».proof.Proof.Gen.KernelIdeal.Skeleton
import proofs.«139551_j86955907875211_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at point `t`: rows `128 t … 128 t + 127` of its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Each input window's current staging buffer holds its block at every point, fetched there or not, for any proof data
    over `V`'s arrays whose body leaves the input blocks in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole 128 × 4096 staging buffer as a rectangle. -/
abbrev r0_0 : Rect S128x4096 := Rect.unit (s := S128x4096) ![0, 0] S128x4096.size inb_S128x4096_S128x4096_0_0

/-- What the body leaves in the output window's buffer: its one whole-buffer store of the quantised, combined block. -/
def out0_3 (x0 x1 x2 : Vec F S128x4096 .f32) : Vec F S128x4096 .bf16 :=
  View.canon [⟨r0_0, k0_pay1 (View.ld x0 r0_0) (View.ld x1 r0_0) (View.ld x2 r0_0)⟩]

theorem cover0_3 (p0 : Vec F S128x4096 .bf16) (y : S128x4096.Idx) :
    ∃ pc ∈ ([⟨r0_0, p0⟩] : List (View.Piece (Elt F) S128x4096 .bf16)), y ∈ pc.1.set :=
  View.cover_of_tiled [⟨r0_0, p0⟩] S128x4096.size (by rfl) y

set_option maxHeartbeats 1000000 in
/-- The body on whole staging memrefs: the three inputs keep their contents, the output ends at `out0_3` of them. -/
theorem sound_kernel0 (c : Dev nD) (E : Set ℕ) (i : grid0.Coords)
    (arg1 : Memref sig .tc .vmem S128x4096 .f32) (harg1 : arg1.IsWhole) (arg2 : Memref sig .tc .vmem S128x4096 .f32) (harg2 : arg2.IsWhole)
    (arg3 : Memref sig .tc .vmem S128x4096 .f32) (harg3 : arg3.IsWhole) (arg4 : Memref sig .tc .vmem S128x4096 .bf16) (harg4 : arg4.IsWhole)
    (x0 x1 x2 : Vec F S128x4096 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__quant_combine_kernel i arg1 harg1 arg2 harg2 arg3 harg3 arg4 harg4) K := by
  simp only [cc0__quant_combine_kernel_eq_skeleton]; unfold cc0__quant_combine_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of this pipeline on core `c`: the arrays as the region finds them; after the body at point `t` each
    input's buffer at its block and the output's at `out0_3` of the three input blocks; the invariant the scoped rest
    and the generator register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the input memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline's rule, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Gen

end
-- ==== Proof.KIReg1a.lean ====
/-
  The second kernel region: y = x · w_effᵀ accumulated over four blocks of the contracted axis in a scratch
  accumulator that is zeroed at the first block and, at the last, copied to the output block and — clamped below at
  zero — to the activation block. Stated at a parameter `V`, the contents of the core's buffers when the region is
  entered.
-/
import proofs.«139551_j86955907875211_1_alg».proof.Proof.Gen.KernelIdeal.Launch
import proofs.«139551_j86955907875211_1_alg».proof.Proof.Gen.KernelIdeal.Skeleton
import proofs.«139551_j86955907875211_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at point `t` of its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The body's two branch conditions, from the grid coordinates: the contracted axis's coordinate is 0; it is 3. -/
abbrev cond1_0 (i : grid1.Coords) : Prop := (Scalar.cmpi .ne (Scalar.extui (Scalar.cmpi .eq (BitVec.ofNat 32 (i 2).val) 0#32)) 0#32) = 1#1
abbrev cond1_1 (i : grid1.Coords) : Prop := k1_cond2 i = 1#1
theorem hcond1_0 : ∀ t : Fin cfg1.N, cond1_0 (grid1.coords t) ↔ t.val % 4 = 0 :=
  (by decide +kernel : ∀ t : Fin grid1.N, cond1_0 (grid1.coords t) ↔ t.val % 4 = 0)
theorem hcond1_1 : ∀ t : Fin cfg1.N, cond1_1 (grid1.coords t) ↔ t.val % 4 = 3 :=
  (by decide +kernel : ∀ t : Fin grid1.N, cond1_1 (grid1.coords t) ↔ t.val % 4 = 3)

/-- The zero offsets of a whole-buffer rectangle. -/
theorem hz2 : (![0, 0] : Fin 2 → Nat) = fun _ => 0 := funext fun a => by fin_cases a <;> rfl

/-- The accumulator's start, one accumulation step, and the clamp, as the body computes them. -/
abbrev zero1 : Vec F S512x512 .f32 := k1_pay1 (F := F)
abbrev step1 (x0 : Vec F S512x1024 .f32) (x1 : Vec F S512x1024 .bf16) (a : Vec F S512x512 .f32) : Vec F S512x512 .f32 := k1_pay2 x0 x1 a
abbrev relu1 (a : Vec F S512x512 .f32) : Vec F S512x512 .bf16 := k1_pay3 a

set_option maxHeartbeats 1000000 in
/-- The body at a first block of the contracted axis (coordinate 0): the accumulator, whatever it held, ends at one
    step from zero; the two output buffers are not touched. -/
theorem sound_kernel1_A (c : Dev nD) (E : Set ℕ) (i : grid1.Coords) (hc0 : cond1_0 i) (hc1 : ¬cond1_1 i)
    (arg3 : Memref sig .tc .vmem S512x1024 .f32) (harg3 : arg3.IsWhole) (arg4 : Memref sig .tc .vmem S512x1024 .bf16) (harg4 : arg4.IsWhole)
    (arg5 : Memref sig .tc .vmem S512x512 .f32) (harg5 : arg5.IsWhole) (arg6 : Memref sig .tc .vmem S512x512 .bf16) (harg6 : arg6.IsWhole)
    (arg7 : Memref sig .tc .vmem S512x512 .f32) (harg7 : arg7.IsWhole)
    (x0 : Vec F S512x1024 .f32) (x1 : Vec F S512x1024 .bf16) (y5 : Vec F S512x512 .f32) (y6 : Vec F S512x512 .bf16) (K : PUnit → sProp 𝕄) :
    iprop(owns (c : Thread nD τ) arg3 fullShare x0 ∗ owns (c : Thread nD τ) arg4 fullShare x1
        ∗ owns (c : Thread nD τ) arg5 fullShare y5 ∗ owns (c : Thread nD τ) arg6 fullShare y6
        ∗ (∃ d, owns (c : Thread nD τ) arg7 fullShare d)
        ∗ (iprop(owns (c : Thread nD τ) arg3 fullShare x0 ∗ owns (c : Thread nD τ) arg4 fullShare x1
            ∗ owns (c : Thread nD τ) arg5 fullShare y5 ∗ owns (c : Thread nD τ) arg6 fullShare y6
            ∗ owns (c : Thread nD τ) arg7 fullShare (step1 x0 x1 zero1)) -∗ K ⟨⟩))
      ⊢ wp frame (wpE (defs₀ (F := F)) Variants.none c none) E (cc1__matmul_relu_kernel i arg3 harg3 arg4 harg4 arg5 harg5 arg6 harg6 arg7 harg7) K := by
  simp only [cc1__matmul_relu_kernel_eq_skeleton]; unfold cc1__matmul_relu_kernel_skel
  unfold owns
  iintro ⟨⟨%f0, %hf0, H0⟩, ⟨%f1, %hf1, H1⟩, ⟨%f5, %hf5, H5⟩, ⟨%f6, %hf6, H6⟩, ⟨%d7, %f7, -, H7⟩, Hk⟩
  subst hf0; subst hf1; subst hf5; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H5]
  · iexists f5; isplitr; · ipureintro; rfl
    iexact H5
  isplitl [H6]
  · iexists f6; isplitr; · ipureintro; rfl
    iexact H6
  iexists _; isplitr
  swap; · iexact H7
  ipureintro
  sl_unfold_run_names
  rw [View.read_writes_eq_canon _ _ _ (fun y => ⟨_, List.mem_cons_self, View.mem_set_unit_zero hz2 inb_S512x512_S512x512_0_0 y⟩)]
  rw [View.canon_cons_unit_zero hz2]
  try rw [View.readCov_unit_zero _ hz2]
  try simp only [View.readAt_eq_ld, View.ld_unit_zero (S := S512x1024) hz2, View.ld_unit_zero (S := S1024x512) hz2, View.ld_unit_zero (S := S512x512) hz2]

set_option maxHeartbeats 1000000 in
/-- The body at a middle block (coordinate 1 or 2): the accumulator takes one more step; the two output buffers are
    not touched. -/
theorem sound_kernel1_B (c : Dev nD) (E : Set ℕ) (i : grid1.Coords) (hc0 : ¬cond1_0 i) (hc1 : ¬cond1_1 i)
    (arg3 : Memref sig .tc .vmem S512x1024 .f32) (harg3 : arg3.IsWhole) (arg4 : Memref sig .tc .vmem S512x1024 .bf16) (harg4 : arg4.IsWhole)
    (arg5 : Memref sig .tc .vmem S512x512 .f32) (harg5 : arg5.IsWhole) (arg6 : Memref sig .tc .vmem S512x512 .bf16) (harg6 : arg6.IsWhole)
    (arg7 : Memref sig .tc .vmem S512x512 .f32) (harg7 : arg7.IsWhole)
    (x0 : Vec F S512x1024 .f32) (x1 : Vec F S512x1024 .bf16) (y5 : Vec F S512x512 .f32) (y6 : Vec F S512x512 .bf16) (a : Vec F S512x512 .f32) (K : PUnit → sProp 𝕄) :
    iprop(owns (c : Thread nD τ) arg3 fullShare x0 ∗ owns (c : Thread nD τ) arg4 fullShare x1
        ∗ owns (c : Thread nD τ) arg5 fullShare y5 ∗ owns (c : Thread nD τ) arg6 fullShare y6
        ∗ owns (c : Thread nD τ) arg7 fullShare a
        ∗ (iprop(owns (c : Thread nD τ) arg3 fullShare x0 ∗ owns (c : Thread nD τ) arg4 fullShare x1
            ∗ owns (c : Thread nD τ) arg5 fullShare y5 ∗ owns (c : Thread nD τ) arg6 fullShare y6
            ∗ owns (c : Thread nD τ) arg7 fullShare (step1 x0 x1 a)) -∗ K ⟨⟩))
      ⊢ wp frame (wpE (defs₀ (F := F)) Variants.none c none) E (cc1__matmul_relu_kernel i arg3 harg3 arg4 harg4 arg5 harg5 arg6 harg6 arg7 harg7) K := by
  simp only [cc1__matmul_relu_kernel_eq_skeleton]; unfold cc1__matmul_relu_kernel_skel
  unfold owns
  iintro ⟨⟨%f0, %hf0, H0⟩, ⟨%f1, %hf1, H1⟩, ⟨%f5, %hf5, H5⟩, ⟨%f6, %hf6, H6⟩, ⟨%f7, %hf7, H7⟩, Hk⟩
  subst hf0; subst hf1; subst hf5; subst hf6; subst hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H5]
  · iexists f5; isplitr; · ipureintro; rfl
    iexact H5
  isplitl [H6]
  · iexists f6; isplitr; · ipureintro; rfl
    iexact H6
  iexists _; isplitr
  swap; · iexact H7
  ipureintro
  sl_unfold_run_names
  rw [View.read_writes_eq_canon _ _ _ (fun y => ⟨_, List.mem_cons_self, View.mem_set_unit_zero hz2 inb_S512x512_S512x512_0_0 y⟩)]
  rw [View.canon_cons_unit_zero hz2]
  try rw [View.readCov_unit_zero _ hz2]
  try simp only [View.readAt_eq_ld, View.ld_unit_zero (S := S512x1024) hz2, View.ld_unit_zero (S := S1024x512) hz2, View.ld_unit_zero (S := S512x512) hz2]

set_option maxHeartbeats 1000000 in
/-- The body at the last block (coordinate 3): the accumulator takes its last step and is copied to the output
    buffer and, clamped below at zero, to the activation buffer. -/
theorem sound_kernel1_C (c : Dev nD) (E : Set ℕ) (i : grid1.Coords) (hc0 : ¬cond1_0 i) (hc1 : cond1_1 i)
    (arg3 : Memref sig .tc .vmem S512x1024 .f32) (harg3 : arg3.IsWhole) (arg4 : Memref sig .tc .vmem S512x1024 .bf16) (harg4 : arg4.IsWhole)
    (arg5 : Memref sig .tc .vmem S512x512 .f32) (harg5 : arg5.IsWhole) (arg6 : Memref sig .tc .vmem S512x512 .bf16) (harg6 : arg6.IsWhole)
    (arg7 : Memref sig .tc .vmem S512x512 .f32) (harg7 : arg7.IsWhole)
    (x0 : Vec F S512x1024 .f32) (x1 : Vec F S512x1024 .bf16) (a : Vec F S512x512 .f32) (K : PUnit → sProp 𝕄) :
    iprop(owns (c : Thread nD τ) arg3 fullShare x0 ∗ owns (c : Thread nD τ) arg4 fullShare x1
        ∗ (∃ d, owns (c : Thread nD τ) arg5 fullShare d) ∗ (∃ d, owns (c : Thread nD τ) arg6 fullShare d)
        ∗ owns (c : Thread nD τ) arg7 fullShare a
        ∗ (iprop(owns (c : Thread nD τ) arg3 fullShare x0 ∗ owns (c : Thread nD τ) arg4 fullShare x1
            ∗ owns (c : Thread nD τ) arg5 fullShare (step1 x0 x1 a) ∗ owns (c : Thread nD τ) arg6 fullShare (relu1 (step1 x0 x1 a))
            ∗ owns (c : Thread nD τ) arg7 fullShare (step1 x0 x1 a)) -∗ K ⟨⟩))
      ⊢ wp frame (wpE (defs₀ (F := F)) Variants.none c none) E (cc1__matmul_relu_kernel i arg3 harg3 arg4 harg4 arg5 harg5 arg6 harg6 arg7 harg7) K := by
  simp only [cc1__matmul_relu_kernel_eq_skeleton]; unfold cc1__matmul_relu_kernel_skel
  unfold owns
  iintro ⟨⟨%f0, %hf0, H0⟩, ⟨%f1, %hf1, H1⟩, ⟨%d5, %f5, -, H5⟩, ⟨%d6, %f6, -, H6⟩, ⟨%f7, %hf7, H7⟩, Hk⟩
  subst hf0; subst hf1; subst hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H5]
  · iexists _; isplitr
    swap; · iexact H5
    ipureintro
    sl_unfold_run_names
    rw [View.read_writes_eq_canon _ _ _ (fun y => ⟨_, List.mem_cons_self, View.mem_set_unit_zero hz2 inb_S512x512_S512x512_0_0 y⟩)]
    rw [View.canon_cons_unit_zero hz2]
    try rw [View.readCov_unit_zero _ hz2]
    try simp only [View.readAt_eq_ld, View.ld_unit_zero (S := S512x1024) hz2, View.ld_unit_zero (S := S1024x512) hz2, View.ld_unit_zero (S := S512x512) hz2]

  isplitl [H6]
  · iexists _; isplitr
    swap; · iexact H6
    ipureintro
    sl_unfold_run_names
    rw [View.read_writes_eq_canon _ _ _ (fun y => ⟨_, List.mem_cons_self, View.mem_set_unit_zero hz2 inb_S512x512_S512x512_0_0 y⟩)]
    rw [View.canon_cons_unit_zero hz2]
    try rw [View.readCov_unit_zero _ hz2]
    try simp only [View.readAt_eq_ld, View.ld_unit_zero (S := S512x1024) hz2, View.ld_unit_zero (S := S1024x512) hz2, View.ld_unit_zero (S := S512x512) hz2]

  iexists _; isplitr
  swap; · iexact H7
  ipureintro
  sl_unfold_run_names
  rw [View.read_writes_eq_canon _ _ _ (fun y => ⟨_, List.mem_cons_self, View.mem_set_unit_zero hz2 inb_S512x512_S512x512_0_0 y⟩)]
  rw [View.canon_cons_unit_zero hz2]
  try rw [View.readCov_unit_zero _ hz2]
  try simp only [View.readAt_eq_ld, View.ld_unit_zero (S := S512x1024) hz2, View.ld_unit_zero (S := S1024x512) hz2, View.ld_unit_zero (S := S512x512) hz2]

end Region1

end Cert.KernelIdeal.Gen

end
-- ==== Proof.KIReg1.lean ====
/-
  The second kernel region, continued: the accumulator after each grid point, the pipeline's proof data, and the
  body obligation by the block of the contracted axis a point is at.
-/
import proofs.«139551_j86955907875211_1_alg».proof.Proof.Gen.KernelIdeal.Launch
import proofs.«139551_j86955907875211_1_alg».proof.Proof.Gen.KernelIdeal.Skeleton
import proofs.«139551_j86955907875211_1_alg».proof.Proof.Gen.KernelIdeal.Points
import proofs.«139551_j86955907875211_1_alg».proof.Proof.KIReg1a
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- The accumulator after point `n`: one step from zero at a first block of the contracted axis, one more step from
    the point before otherwise. -/
def acc1 (c : Dev nD) : (n : ℕ) → n < cfg1.N → Vec F S512x512 .f32
  | 0, h => step1 (iblk1 V c 0 ⟨0, h⟩) (iblk1 V c 1 ⟨0, h⟩) zero1
  | n + 1, h => step1 (iblk1 V c 0 ⟨n + 1, h⟩) (iblk1 V c 1 ⟨n + 1, h⟩)
      (if (n + 1) % 4 = 0 then zero1 else acc1 c n (Nat.lt_of_succ_lt h))

theorem acc1_first (c : Dev nD) (t : Fin cfg1.N) (h : t.val % 4 = 0) :
    acc1 V c t.val t.isLt = step1 (iblk1 V c 0 t) (iblk1 V c 1 t) zero1 := by
  obtain ⟨n, hn⟩ := t
  cases n with
  | zero => rfl
  | succ n => rw [acc1, if_pos h]

theorem acc1_next (c : Dev nD) (t : Fin cfg1.N) (h : t.val % 4 ≠ 0) (n : ℕ) (hn : n < cfg1.N) (e : t.val = n + 1) :
    acc1 V c t.val t.isLt = step1 (iblk1 V c 0 t) (iblk1 V c 1 t) (acc1 V c n hn) := by
  obtain ⟨k, hk⟩ := t
  subst e
  rw [acc1, if_neg h]

/-- The scratch accumulator as a whole-buffer memref. -/
abbrev scM1 : Memref sig .tc .vmem S512x512 .f32 := Memref.whole cc1_scratch0

/-- The invariant between points: the accumulator holds what the point just completed left (anything before the first
    point); the other scoped buffers and the generator register ride along. -/
def Φ1 (c : Dev nD) (j : Fin (cfg1.N + 1)) : sProp 𝕄 :=
  iprop((∃ d, ⌜∀ (n : ℕ) (hn : n < cfg1.N), j.val = n + 1 → d = acc1 V c n hn⌝ ∗ owns (c : Thread nD τ) scM1 fullShare d)
    ∗ Pipeline.scopedRestBut (Ix := Unit) (Name := ℕ) (U := UR sig nD τ) (Lvl := ℕ) (Val := Elt F) spec1 c [cc1_scratch0]
    ∗ ∃ r, prngReg c r)

/-- The proof data of this pipeline on core `c`: the two outputs' buffers, where the body stores them (the last block
    of the contracted axis), hold the accumulator and its clamp. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
    | ⟨3, _⟩ => relu1 (acc1 V c t.val t.isLt)
  Φ j := Φ1 V c j
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1 V c t.val t.isLt := by dsimp only [dat1]
theorem after1_3 (c : Dev nD) (t : Fin cfg1.N) : (dat1 V c).after 3 t = relu1 (acc1 V c t.val t.isLt) := by dsimp only [dat1]
theorem Φ_eq1 (c : Dev nD) (j : Fin (cfg1.N + 1)) : (dat1 V c).Φ j = Φ1 V c j := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- Where the two output windows are idle: everywhere but at the last block of the contracted axis, where the
    pipeline writes them back. -/
theorem idle1_2 : ∀ t : Fin cfg1.N, t.val % 4 ≠ 3 → idle1 2 (grid1.coords t) = true :=
  (by decide +kernel : ∀ t : Fin grid1.N, t.val % 4 ≠ 3 → idle1 2 (grid1.coords t) = true)
theorem idle1_3 : ∀ t : Fin cfg1.N, t.val % 4 ≠ 3 → idle1 3 (grid1.coords t) = true :=
  (by decide +kernel : ∀ t : Fin grid1.N, t.val % 4 ≠ 3 → idle1 3 (grid1.coords t) = true)
theorem live1_2 : ∀ t : Fin cfg1.N, t.val % 4 = 3 → idle1 2 (grid1.coords t) = false :=
  (by decide +kernel : ∀ t : Fin grid1.N, t.val % 4 = 3 → idle1 2 (grid1.coords t) = false)
theorem live1_3 : ∀ t : Fin cfg1.N, t.val % 4 = 3 → idle1 3 (grid1.coords t) = false :=
  (by decide +kernel : ∀ t : Fin grid1.N, t.val % 4 = 3 → idle1 3 (grid1.coords t) = false)
theorem noflush1_2 (t : Fin cfg1.N) (h : t.val % 4 ≠ 3) : (win1 2).flush t = false :=
  Bool.eq_false_iff.mpr fun hf => h ((flush1_2 t).mp hf)
theorem noflush1_3 (t : Fin cfg1.N) (h : t.val % 4 ≠ 3) : (win1 3).flush t = false :=
  Bool.eq_false_iff.mpr fun hf => h ((flush1_3 t).mp hf)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns: an output window idle at the point (and not written back there) is handed back as found. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ (match cfg1.idle 2 (cfg1.grid.coords t) with
        | true =>
          match (cfg1.win 2).flush t with
          | false => iprop(∃ d, owns (c : Thread nD τ) (st1_2 t) fullShare ((dat1 V c).before 2 t d))
          | true => owns (c : Thread nD τ) (st1_2 t) fullShare ((dat1 V c).after 2 t)
        | false => owns (c : Thread nD τ) (st1_2 t) fullShare ((dat1 V c).after 2 t))
    ∗ (match cfg1.idle 3 (cfg1.grid.coords t) with
        | true =>
          match (cfg1.win 3).flush t with
          | false => iprop(∃ d, owns (c : Thread nD τ) (st1_3 t) fullShare ((dat1 V c).before 3 t d))
          | true => owns (c : Thread nD τ) (st1_3 t) fullShare ((dat1 V c).after 3 t)
        | false => owns (c : Thread nD τ) (st1_3 t) fullShare ((dat1 V c).after 3 t)))

/-- The body at any point, by the block of the contracted axis the point is at. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl,
    after1_0, after1_1, after1_2, after1_3, Φ_eq1, Φ_eq1]
  unfold Φ1
  by_cases h3 : t.val % 4 = 3
  · -- the last block: the outputs are stored and written back
    rw [live1_2 t h3]
    try rw [live1_3 t h3]
    dsimp only
    have h0 : t.val % 4 ≠ 0 := by omega
    have hc0 : ¬cond1_0 (grid1.coords t) := fun h => h0 ((hcond1_0 t).mp h)
    have hc1 : cond1_1 (grid1.coords t) := (hcond1_1 t).mpr h3
    have hn : t.val - 1 < cfg1.N := by have := t.isLt; omega
    have he : t.val = (t.val - 1) + 1 := by omega
    iintro ⟨⟨⟨%a, %ha, Hs⟩, Hb, Hp⟩, Ho, ⟨%d0, H0⟩, ⟨%d1, H1⟩, ⟨%d2, H2⟩, ⟨%d3, H3⟩⟩
    have ha' : a = acc1 V c (t.val - 1) hn := ha (t.val - 1) hn he
    subst ha'
    iapply (sound_kernel1_C c Set.univ (grid1.coords t) hc0 hc1 _ _ _ _ _ _ _ _ _ _ (iblk1 V c 0 t) (iblk1 V c 1 t) (acc1 V c (t.val - 1) hn) _)
    isplitl [H0]; · iexact H0
    isplitl [H1]; · iexact H1
    isplitl [H2]; · iexists _; iexact H2
    isplitl [H3]; · iexists _; iexact H3
    isplitl [Hs]; · iexact Hs
    iintro ⟨H0, H1, H2, H3, Hs⟩
    rw [← acc1_next V c t h0 (t.val - 1) hn he]
    isplitl [Hs Hb Hp]
    · isplitl [Hs]
      · iexists (acc1 V c t.val t.isLt); isplitr
        · ipureintro; intro n hn' e
          have : n = t.val := by have : (t.succ : Fin (cfg1.N + 1)).val = t.val + 1 := rfl; omega
          subst this; rfl
        iexact Hs
      isplitl [Hb]; · iexact Hb
      iexact Hp
    isplitl [Ho]; · iexact Ho
    isplitl [H0]; · iexact H0
    isplitl [H1]; · iexact H1
    isplitl [H2]; · iexact H2
    iexact H3
  · -- the outputs are idle and handed back as found
    rw [idle1_2 t h3]
    try rw [idle1_3 t h3]
    rw [noflush1_2 t h3, noflush1_3 t h3]
    dsimp only
    have hc1 : ¬cond1_1 (grid1.coords t) := fun h => h3 ((hcond1_1 t).mp h)
    by_cases h0 : t.val % 4 = 0
    · -- a first block: the accumulator restarts
      have hc0 : cond1_0 (grid1.coords t) := (hcond1_0 t).mpr h0
      iintro ⟨⟨⟨%a, -, Hs⟩, Hb, Hp⟩, Ho, ⟨%d0, H0⟩, ⟨%d1, H1⟩, ⟨%d2, H2⟩, ⟨%d3, H3⟩⟩
      iapply (sound_kernel1_A c Set.univ (grid1.coords t) hc0 hc1 _ _ _ _ _ _ _ _ _ _ (iblk1 V c 0 t) (iblk1 V c 1 t) _ _ _)
      isplitl [H0]; · iexact H0
      isplitl [H1]; · iexact H1
      isplitl [H2]; · iexact H2
      isplitl [H3]; · iexact H3
      isplitl [Hs]; · iexists _; iexact Hs
      iintro ⟨H0, H1, H2, H3, Hs⟩
      rw [← acc1_first V c t h0]
      isplitl [Hs Hb Hp]
      · isplitl [Hs]
        · iexists (acc1 V c t.val t.isLt); isplitr
          · ipureintro; intro n hn' e
            have : n = t.val := by have : (t.succ : Fin (cfg1.N + 1)).val = t.val + 1 := rfl; omega
            subst this; rfl
          iexact Hs
        isplitl [Hb]; · iexact Hb
        iexact Hp
      isplitl [Ho]; · iexact Ho
      isplitl [H0]; · iexact H0
      isplitl [H1]; · iexact H1
      isplitl [H2]; · iexists _; iexact H2
      iexists _; iexact H3
    · -- a middle block: one more step
      have hc0 : ¬cond1_0 (grid1.coords t) := fun h => h0 ((hcond1_0 t).mp h)
      have hn : t.val - 1 < cfg1.N := by have := t.isLt; omega
      have he : t.val = (t.val - 1) + 1 := by omega
      iintro ⟨⟨⟨%a, %ha, Hs⟩, Hb, Hp⟩, Ho, ⟨%d0, H0⟩, ⟨%d1, H1⟩, ⟨%d2, H2⟩, ⟨%d3, H3⟩⟩
      have ha' : a = acc1 V c (t.val - 1) hn := ha (t.val - 1) hn he
      subst ha'
      iapply (sound_kernel1_B c Set.univ (grid1.coords t) hc0 hc1 _ _ _ _ _ _ _ _ _ _ (iblk1 V c 0 t) (iblk1 V c 1 t) _ _ (acc1 V c (t.val - 1) hn) _)
      isplitl [H0]; · iexact H0
      isplitl [H1]; · iexact H1
      isplitl [H2]; · iexact H2
      isplitl [H3]; · iexact H3
      isplitl [Hs]; · iexact Hs
      iintro ⟨H0, H1, H2, H3, Hs⟩
      rw [← acc1_next V c t h0 (t.val - 1) hn he]
      isplitl [Hs Hb Hp]
      · isplitl [Hs]
        · iexists (acc1 V c t.val t.isLt); isplitr
          · ipureintro; intro n hn' e
            have : n = t.val := by have : (t.succ : Fin (cfg1.N + 1)).val = t.val + 1 := rfl; omega
            subst this; rfl
          iexact Hs
        isplitl [Hb]; · iexact Hb
        iexact Hp
      isplitl [Ho]; · iexact Ho
      isplitl [H0]; · iexact H0
      isplitl [H1]; · iexact H1
      isplitl [H2]; · iexists _; iexact H2
      iexists _; iexact H3

/-- The body obligation of the pipeline's rule, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Gen

end
-- ==== Proof.KIReg2a.lean ====
/-
  The third kernel region: delta = (y_activeᵀ · x) / N accumulated over four blocks of the batch axis in a scratch
  accumulator that is zeroed at the first block; at the last block 0.95 · fast + 0.05 · (accumulator · 2⁻¹²) is stored to
  the output block. Stated at a parameter `V`, the contents of the core's buffers when the region is entered.
-/
import proofs.«139551_j86955907875211_1_alg».proof.Proof.Gen.KernelIdeal.Launch
import proofs.«139551_j86955907875211_1_alg».proof.Proof.Gen.KernelIdeal.Skeleton
import proofs.«139551_j86955907875211_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2

variable (V : (c : Dev nD) → (b : Ref sig .tc) → Buf (Elt F) ((c : Thread nD τ).loc b))

/-- Window `w`'s block at point `t` of its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The body's two branch conditions, from the grid coordinates: the batch axis's coordinate is 0; it is 3. -/
abbrev cond2_0 (i : grid2.Coords) : Prop := (Scalar.cmpi .ne (Scalar.extui (Scalar.cmpi .eq (BitVec.ofNat 32 (i 2).val) 0#32)) 0#32) = 1#1
abbrev cond2_1 (i : grid2.Coords) : Prop := k2_cond2 i = 1#1
theorem hcond2_0 : ∀ t : Fin cfg2.N, cond2_0 (grid2.coords t) ↔ t.val % 4 = 0 :=
  (by decide +kernel : ∀ t : Fin grid2.N, cond2_0 (grid2.coords t) ↔ t.val % 4 = 0)
theorem hcond2_1 : ∀ t : Fin cfg2.N, cond2_1 (grid2.coords t) ↔ t.val % 4 = 3 :=
  (by decide +kernel : ∀ t : Fin grid2.N, cond2_1 (grid2.coords t) ↔ t.val % 4 = 3)

/-- The zero offsets of a whole-buffer rectangle. -/
theorem hz2' : (![0, 0] : Fin 2 → Nat) = fun _ => 0 := funext fun a => by fin_cases a <;> rfl

/-- The accumulator's start, one accumulation step, and the final combination with the fast trace, as the body
    computes them. -/
abbrev zero2 : Vec F S512x512 .f32 := k2_pay1 (F := F)
abbrev step2 (x0 : Vec F S1024x512 .bf16) (x1 : Vec F S1024x512 .f32) (a : Vec F S512x512 .f32) : Vec F S512x512 .f32 := k2_pay2 x0 x1 a
abbrev fin2 (a x2 : Vec F S512x512 .f32) : Vec F S512x512 .f32 := k2_pay3 a x2

set_option maxHeartbeats 1000000 in
/-- The body at a first block of the batch axis (coordinate 0): the accumulator, whatever it held, ends at one step
    from zero; the output buffer is not touched. -/
theorem sound_kernel2_A (c : Dev nD) (E : Set ℕ) (i : grid2.Coords) (hc0 : cond2_0 i) (hc1 : ¬cond2_1 i)
    (arg3 : Memref sig .tc .vmem S1024x512 .bf16) (harg3 : arg3.IsWhole) (arg4 : Memref sig .tc .vmem S1024x512 .f32) (harg4 : arg4.IsWhole)
    (arg5 : Memref sig .tc .vmem S512x512 .f32) (harg5 : arg5.IsWhole) (arg6 : Memref sig .tc .vmem S512x512 .f32) (harg6 : arg6.IsWhole)
    (arg7 : Memref sig .tc .vmem S512x512 .f32) (harg7 : arg7.IsWhole)
    (x0 : Vec F S1024x512 .bf16) (x1 : Vec F S1024x512 .f32) (x2 : Vec F S512x512 .f32) (y6 : Vec F S512x512 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare y6
        ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg6 fullShare y6
            ∗ owns (c : Thread nD τ) arg7 fullShare (step2 x0 x1 zero2)) -∗ K ⟨⟩))
      ⊢ wp frame (wpE (defs₀ (F := F)) Variants.none c none) E (cc2__delta_kernel i arg3 harg3 arg4 harg4 arg5 harg5 arg6 harg6 arg7 harg7) K := by
  simp only [cc2__delta_kernel_eq_skeleton]; unfold cc2__delta_kernel_skel
  unfold owns
  iintro ⟨⟨%f0, %hf0, H0⟩, ⟨%f1, %hf1, H1⟩, ⟨%f5, %hf5, H5⟩, ⟨%f6, %hf6, H6⟩, ⟨%d7, %f7, -, H7⟩, Hk⟩
  subst hf0; subst hf1; subst hf5; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H5]
  · iexists f5; isplitr; · ipureintro; rfl
    iexact H5
  isplitl [H6]
  · iexists f6; isplitr; · ipureintro; rfl
    iexact H6
  iexists _; isplitr
  swap; · iexact H7
  ipureintro
  sl_unfold_run_names
  rw [View.read_writes_eq_canon _ _ _ (fun y => ⟨_, List.mem_cons_self, View.mem_set_unit_zero hz2' inb_S512x512_S512x512_0_0 y⟩)]
  rw [View.canon_cons_unit_zero hz2']
  try rw [View.readCov_unit_zero _ hz2']
  try simp only [View.readAt_eq_ld, View.ld_unit_zero (S := S512x1024) hz2', View.ld_unit_zero (S := S1024x512) hz2', View.ld_unit_zero (S := S512x512) hz2']

set_option maxHeartbeats 1000000 in
/-- The body at a middle block (coordinate 1 or 2): the accumulator takes one more step; the output buffer is not
    touched. -/
theorem sound_kernel2_B (c : Dev nD) (E : Set ℕ) (i : grid2.Coords) (hc0 : ¬cond2_0 i) (hc1 : ¬cond2_1 i)
    (arg3 : Memref sig .tc .vmem S1024x512 .bf16) (harg3 : arg3.IsWhole) (arg4 : Memref sig .tc .vmem S1024x512 .f32) (harg4 : arg4.IsWhole)
    (arg5 : Memref sig .tc .vmem S512x512 .f32) (harg5 : arg5.IsWhole) (arg6 : Memref sig .tc .vmem S512x512 .f32) (harg6 : arg6.IsWhole)
    (arg7 : Memref sig .tc .vmem S512x512 .f32) (harg7 : arg7.IsWhole)
    (x0 : Vec F S1024x512 .bf16) (x1 : Vec F S1024x512 .f32) (x2 : Vec F S512x512 .f32) (y6 : Vec F S512x512 .f32) (a : Vec F S512x512 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare y6
        ∗ owns (c : Thread nD τ) arg7 fullShare a
        ∗ (iprop(owns (c : Thread nD τ) arg3 fullShare x0 ∗ owns (c : Thread nD τ) arg4 fullShare x1 ∗ owns (c : Thread nD τ) arg5 fullShare x2
            ∗ owns (c : Thread nD τ) arg6 fullShare y6
            ∗ owns (c : Thread nD τ) arg7 fullShare (step2 x0 x1 a)) -∗ K ⟨⟩))
      ⊢ wp frame (wpE (defs₀ (F := F)) Variants.none c none) E (cc2__delta_kernel i arg3 harg3 arg4 harg4 arg5 harg5 arg6 harg6 arg7 harg7) K := by
  simp only [cc2__delta_kernel_eq_skeleton]; unfold cc2__delta_kernel_skel
  unfold owns
  iintro ⟨⟨%f0, %hf0, H0⟩, ⟨%f1, %hf1, H1⟩, ⟨%f5, %hf5, H5⟩, ⟨%f6, %hf6, H6⟩, ⟨%f7, %hf7, H7⟩, Hk⟩
  subst hf0; subst hf1; subst hf5; subst hf6; subst hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H5]
  · iexists f5; isplitr; · ipureintro; rfl
    iexact H5
  isplitl [H6]
  · iexists f6; isplitr; · ipureintro; rfl
    iexact H6
  iexists _; isplitr
  swap; · iexact H7
  ipureintro
  sl_unfold_run_names
  rw [View.read_writes_eq_canon _ _ _ (fun y => ⟨_, List.mem_cons_self, View.mem_set_unit_zero hz2' inb_S512x512_S512x512_0_0 y⟩)]
  rw [View.canon_cons_unit_zero hz2']
  try rw [View.readCov_unit_zero _ hz2']
  try simp only [View.readAt_eq_ld, View.ld_unit_zero (S := S512x1024) hz2', View.ld_unit_zero (S := S1024x512) hz2', View.ld_unit_zero (S := S512x512) hz2']

set_option maxHeartbeats 1000000 in
/-- The body at the last block (coordinate 3): the accumulator takes its last step and, scaled and combined with the
    fast trace's block, is stored to the output buffer. -/
theorem sound_kernel2_C (c : Dev nD) (E : Set ℕ) (i : grid2.Coords) (hc0 : ¬cond2_0 i) (hc1 : cond2_1 i)
    (arg3 : Memref sig .tc .vmem S1024x512 .bf16) (harg3 : arg3.IsWhole) (arg4 : Memref sig .tc .vmem S1024x512 .f32) (harg4 : arg4.IsWhole)
    (arg5 : Memref sig .tc .vmem S512x512 .f32) (harg5 : arg5.IsWhole) (arg6 : Memref sig .tc .vmem S512x512 .f32) (harg6 : arg6.IsWhole)
    (arg7 : Memref sig .tc .vmem S512x512 .f32) (harg7 : arg7.IsWhole)
    (x0 : Vec F S1024x512 .bf16) (x1 : Vec F S1024x512 .f32) (x2 : Vec F S512x512 .f32) (a : Vec F S512x512 .f32) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d)
        ∗ owns (c : Thread nD τ) arg7 fullShare a
        ∗ (iprop(owns (c : Thread nD τ) arg3 fullShare x0 ∗ owns (c : Thread nD τ) arg4 fullShare x1 ∗ owns (c : Thread nD τ) arg5 fullShare x2
            ∗ owns (c : Thread nD τ) arg6 fullShare (fin2 (step2 x0 x1 a) x2)
            ∗ owns (c : Thread nD τ) arg7 fullShare (step2 x0 x1 a)) -∗ K ⟨⟩))
      ⊢ wp frame (wpE (defs₀ (F := F)) Variants.none c none) E (cc2__delta_kernel i arg3 harg3 arg4 harg4 arg5 harg5 arg6 harg6 arg7 harg7) K := by
  simp only [cc2__delta_kernel_eq_skeleton]; unfold cc2__delta_kernel_skel
  unfold owns
  iintro ⟨⟨%f0, %hf0, H0⟩, ⟨%f1, %hf1, H1⟩, ⟨%f5, %hf5, H5⟩, ⟨%d6, %f6, -, H6⟩, ⟨%f7, %hf7, H7⟩, Hk⟩
  subst hf0; subst hf1; subst hf5; subst hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H5]
  · iexists f5; isplitr; · ipureintro; rfl
    iexact H5
  isplitl [H6]
  · iexists _; isplitr
    swap; · iexact H6
    ipureintro
    sl_unfold_run_names
    rw [View.read_writes_eq_canon _ _ _ (fun y => ⟨_, List.mem_cons_self, View.mem_set_unit_zero hz2' inb_S512x512_S512x512_0_0 y⟩)]
    rw [View.canon_cons_unit_zero hz2']
    try rw [View.readCov_unit_zero _ hz2']
    try simp only [View.readAt_eq_ld, View.ld_unit_zero (S := S512x1024) hz2', View.ld_unit_zero (S := S1024x512) hz2', View.ld_unit_zero (S := S512x512) hz2']

  iexists _; isplitr
  swap; · iexact H7
  ipureintro
  sl_unfold_run_names
  rw [View.read_writes_eq_canon _ _ _ (fun y => ⟨_, List.mem_cons_self, View.mem_set_unit_zero hz2' inb_S512x512_S512x512_0_0 y⟩)]
  rw [View.canon_cons_unit_zero hz2']
  try rw [View.readCov_unit_zero _ hz2']
  try simp only [View.readAt_eq_ld, View.ld_unit_zero (S := S512x1024) hz2', View.ld_unit_zero (S := S1024x512) hz2', View.ld_unit_zero (S := S512x512) hz2']

end Region2

end Cert.KernelIdeal.Gen

end
-- ==== Proof.KIReg2.lean ====
/-
  The third kernel region, continued: the accumulator after each grid point, the pipeline's proof data, and the body
  obligation by the block of the batch axis a point is at.
-/
import proofs.«139551_j86955907875211_1_alg».proof.Proof.Gen.KernelIdeal.Launch
import proofs.«139551_j86955907875211_1_alg».proof.Proof.Gen.KernelIdeal.Skeleton
import proofs.«139551_j86955907875211_1_alg».proof.Proof.Gen.KernelIdeal.Points
import proofs.«139551_j86955907875211_1_alg».proof.Proof.KIReg2a
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2

variable (V : (c : Dev nD) → (b : Ref sig .tc) → Buf (Elt F) ((c : Thread nD τ).loc b))

/-- The accumulator after point `n`: one step from zero at a first block of the batch axis, one more step from the
    point before otherwise. -/
def acc2 (c : Dev nD) : (n : ℕ) → n < cfg2.N → Vec F S512x512 .f32
  | 0, h => step2 (iblk2 V c 0 ⟨0, h⟩) (iblk2 V c 1 ⟨0, h⟩) zero2
  | n + 1, h => step2 (iblk2 V c 0 ⟨n + 1, h⟩) (iblk2 V c 1 ⟨n + 1, h⟩)
      (if (n + 1) % 4 = 0 then zero2 else acc2 c n (Nat.lt_of_succ_lt h))

theorem acc2_first (c : Dev nD) (t : Fin cfg2.N) (h : t.val % 4 = 0) :
    acc2 V c t.val t.isLt = step2 (iblk2 V c 0 t) (iblk2 V c 1 t) zero2 := by
  obtain ⟨n, hn⟩ := t
  cases n with
  | zero => rfl
  | succ n => rw [acc2, if_pos h]

theorem acc2_next (c : Dev nD) (t : Fin cfg2.N) (h : t.val % 4 ≠ 0) (n : ℕ) (hn : n < cfg2.N) (e : t.val = n + 1) :
    acc2 V c t.val t.isLt = step2 (iblk2 V c 0 t) (iblk2 V c 1 t) (acc2 V c n hn) := by
  obtain ⟨k, hk⟩ := t
  subst e
  rw [acc2, if_neg h]

/-- The scratch accumulator as a whole-buffer memref. -/
abbrev scM2 : Memref sig .tc .vmem S512x512 .f32 := Memref.whole cc2_scratch0

/-- The invariant between points: the accumulator holds what the point just completed left (anything before the first
    point); the other scoped buffers and the generator register ride along. -/
def Φ2 (c : Dev nD) (j : Fin (cfg2.N + 1)) : sProp 𝕄 :=
  iprop((∃ d, ⌜∀ (n : ℕ) (hn : n < cfg2.N), j.val = n + 1 → d = acc2 V c n hn⌝ ∗ owns (c : Thread nD τ) scM2 fullShare d)
    ∗ Pipeline.scopedRestBut (Ix := Unit) (Name := ℕ) (U := UR sig nD τ) (Lvl := ℕ) (Val := Elt F) spec2 c [cc2_scratch0]
    ∗ ∃ r, prngReg c r)

/-- The proof data of this pipeline on core `c`: the output's buffer, where the body stores it (the last block of the
    batch axis), holds the combination of the accumulator with the fast trace's block. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => fin2 (acc2 V c t.val t.isLt) (iblk2 V c 2 t)
  Φ j := Φ2 V c j
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = fin2 (acc2 V c t.val t.isLt) (iblk2 V c 2 t) := by dsimp only [dat2]
theorem Φ_eq2 (c : Dev nD) (j : Fin (cfg2.N + 1)) : (dat2 V c).Φ j = Φ2 V c j := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- Where the output window is idle: everywhere but at the last block of the batch axis, where the pipeline writes it
    back. -/
theorem idle2_3 : ∀ t : Fin cfg2.N, t.val % 4 ≠ 3 → idle2 3 (grid2.coords t) = true :=
  (by decide +kernel : ∀ t : Fin grid2.N, t.val % 4 ≠ 3 → idle2 3 (grid2.coords t) = true)
theorem live2_3 : ∀ t : Fin cfg2.N, t.val % 4 = 3 → idle2 3 (grid2.coords t) = false :=
  (by decide +kernel : ∀ t : Fin grid2.N, t.val % 4 = 3 → idle2 3 (grid2.coords t) = false)
theorem noflush2_3 (t : Fin cfg2.N) (h : t.val % 4 ≠ 3) : (win2 3).flush t = false :=
  Bool.eq_false_iff.mpr fun hf => h ((flush2_3 t).mp hf)

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns: the output window, idle at the point (and not written back there), is handed back as found. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ (match cfg2.idle 3 (cfg2.grid.coords t) with
        | true =>
          match (cfg2.win 3).flush t with
          | false => iprop(∃ d, owns (c : Thread nD τ) (st2_3 t) fullShare ((dat2 V c).before 3 t d))
          | true => owns (c : Thread nD τ) (st2_3 t) fullShare ((dat2 V c).after 3 t)
        | false => owns (c : Thread nD τ) (st2_3 t) fullShare ((dat2 V c).after 3 t)))

/-- The body at any point, by the block of the batch axis the point is at. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl,
    after2_0, after2_1, after2_2, after2_3, Φ_eq2, Φ_eq2]
  unfold Φ2
  by_cases h3 : t.val % 4 = 3
  · -- the last block: the output is stored and written back
    rw [live2_3 t h3]
    dsimp only
    have h0 : t.val % 4 ≠ 0 := by omega
    have hc0 : ¬cond2_0 (grid2.coords t) := fun h => h0 ((hcond2_0 t).mp h)
    have hc1 : cond2_1 (grid2.coords t) := (hcond2_1 t).mpr h3
    have hn : t.val - 1 < cfg2.N := by have := t.isLt; omega
    have he : t.val = (t.val - 1) + 1 := by omega
    iintro ⟨⟨⟨%a, %ha, Hs⟩, Hb, Hp⟩, Ho, ⟨%d0, H0⟩, ⟨%d1, H1⟩, ⟨%d2, H2⟩, ⟨%d3, H3⟩⟩
    have ha' : a = acc2 V c (t.val - 1) hn := ha (t.val - 1) hn he
    subst ha'
    iapply (sound_kernel2_C c Set.univ (grid2.coords t) hc0 hc1 _ _ _ _ _ _ _ _ _ _ (iblk2 V c 0 t) (iblk2 V c 1 t) (iblk2 V c 2 t) (acc2 V c (t.val - 1) hn) _)
    isplitl [H0]; · iexact H0
    isplitl [H1]; · iexact H1
    isplitl [H2]; · iexact H2
    isplitl [H3]; · iexists _; iexact H3
    isplitl [Hs]; · iexact Hs
    iintro ⟨H0, H1, H2, H3, Hs⟩
    rw [← acc2_next V c t h0 (t.val - 1) hn he]
    isplitl [Hs Hb Hp]
    · isplitl [Hs]
      · iexists (acc2 V c t.val t.isLt); isplitr
        · ipureintro; intro n hn' e
          have : n = t.val := by have : (t.succ : Fin (cfg2.N + 1)).val = t.val + 1 := rfl; omega
          subst this; rfl
        iexact Hs
      isplitl [Hb]; · iexact Hb
      iexact Hp
    isplitl [Ho]; · iexact Ho
    isplitl [H0]; · iexact H0
    isplitl [H1]; · iexact H1
    isplitl [H2]; · iexact H2
    iexact H3
  · -- the output is idle and handed back as found
    rw [idle2_3 t h3, noflush2_3 t h3]
    dsimp only
    have hc1 : ¬cond2_1 (grid2.coords t) := fun h => h3 ((hcond2_1 t).mp h)
    by_cases h0 : t.val % 4 = 0
    · -- a first block: the accumulator restarts
      have hc0 : cond2_0 (grid2.coords t) := (hcond2_0 t).mpr h0
      iintro ⟨⟨⟨%a, -, Hs⟩, Hb, Hp⟩, Ho, ⟨%d0, H0⟩, ⟨%d1, H1⟩, ⟨%d2, H2⟩, ⟨%d3, H3⟩⟩
      iapply (sound_kernel2_A c Set.univ (grid2.coords t) hc0 hc1 _ _ _ _ _ _ _ _ _ _ (iblk2 V c 0 t) (iblk2 V c 1 t) (iblk2 V c 2 t) _ _)
      isplitl [H0]; · iexact H0
      isplitl [H1]; · iexact H1
      isplitl [H2]; · iexact H2
      isplitl [H3]; · iexact H3
      isplitl [Hs]; · iexists _; iexact Hs
      iintro ⟨H0, H1, H2, H3, Hs⟩
      rw [← acc2_first V c t h0]
      isplitl [Hs Hb Hp]
      · isplitl [Hs]
        · iexists (acc2 V c t.val t.isLt); isplitr
          · ipureintro; intro n hn' e
            have : n = t.val := by have : (t.succ : Fin (cfg2.N + 1)).val = t.val + 1 := rfl; omega
            subst this; rfl
          iexact Hs
        isplitl [Hb]; · iexact Hb
        iexact Hp
      isplitl [Ho]; · iexact Ho
      isplitl [H0]; · iexact H0
      isplitl [H1]; · iexact H1
      isplitl [H2]; · iexact H2
      iexists _; iexact H3
    · -- a middle block: one more step
      have hc0 : ¬cond2_0 (grid2.coords t) := fun h => h0 ((hcond2_0 t).mp h)
      have hn : t.val - 1 < cfg2.N := by have := t.isLt; omega
      have he : t.val = (t.val - 1) + 1 := by omega
      iintro ⟨⟨⟨%a, %ha, Hs⟩, Hb, Hp⟩, Ho, ⟨%d0, H0⟩, ⟨%d1, H1⟩, ⟨%d2, H2⟩, ⟨%d3, H3⟩⟩
      have ha' : a = acc2 V c (t.val - 1) hn := ha (t.val - 1) hn he
      subst ha'
      iapply (sound_kernel2_B c Set.univ (grid2.coords t) hc0 hc1 _ _ _ _ _ _ _ _ _ _ (iblk2 V c 0 t) (iblk2 V c 1 t) (iblk2 V c 2 t) _ (acc2 V c (t.val - 1) hn) _)
      isplitl [H0]; · iexact H0
      isplitl [H1]; · iexact H1
      isplitl [H2]; · iexact H2
      isplitl [H3]; · iexact H3
      isplitl [Hs]; · iexact Hs
      iintro ⟨H0, H1, H2, H3, Hs⟩
      rw [← acc2_next V c t h0 (t.val - 1) hn he]
      isplitl [Hs Hb Hp]
      · isplitl [Hs]
        · iexists (acc2 V c t.val t.isLt); isplitr
          · ipureintro; intro n hn' e
            have : n = t.val := by have : (t.succ : Fin (cfg2.N + 1)).val = t.val + 1 := rfl; omega
            subst this; rfl
          iexact Hs
        isplitl [Hb]; · iexact Hb
        iexact Hp
      isplitl [Ho]; · iexact Ho
      isplitl [H0]; · iexact H0
      isplitl [H1]; · iexact H1
      isplitl [H2]; · iexact H2
      iexists _; iexact H3

/-- The body obligation of the pipeline's rule, at every point. -/
theorem body_obligation2 (c : Dev nD) : BodyObligation (dat2 (F := F) V c) (defs₀ (F := F)) Variants.none () Set.univ := fun t => by
  rw [bigSep_W2, bigSep_W2]
  exact sound_body2 V c t

end Region2

end Cert.KernelIdeal.Gen

end
-- ==== Proof.KIReg3.lean ====
/-
  The last kernel region: per block of 128 rows, the raw fast trace scaled by the homeostatic factor (one word the
  host computed) gives the new fast trace, and 0.99 · slow + 0.01 · (new fast) the new slow trace. Stated at a parameter
  `V`, the contents of the core's buffers when the region is entered.
-/
import proofs.«139551_j86955907875211_1_alg».proof.Proof.Gen.KernelIdeal.Launch
import proofs.«139551_j86955907875211_1_alg».proof.Proof.Gen.KernelIdeal.Skeleton
import proofs.«139551_j86955907875211_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3

variable (V : (c : Dev nD) → (b : Ref sig .tc) → Buf (Elt F) ((c : Thread nD τ).loc b))

/-- Window `w`'s block at point `t` of its array as the region finds it: rows `128 t … 128 t + 127` for the four
    matrices, the single word for the scale. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Each input window's current staging buffer holds its block at every point, fetched there or not (the scale's
    is fetched once and its index never moves). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The whole 128 × 4096 staging buffer, and the one-word buffer, as rectangles. -/
abbrev r3_0 : Rect S128x4096 := Rect.unit (s := S128x4096) ![0, 0] S128x4096.size inb_S128x4096_S128x4096_0_0
abbrev r3_1 : Rect S1x1 := Rect.unit (s := S1x1) ![0, 0] S1x1.size inb_S1x1_S1x1_0_0

/-- What the body leaves in the two output windows' buffers: one whole-buffer store each. -/
def out3_3 (x0 : Vec F S128x4096 .f32) (x2 : Vec F S1x1 .f32) : Vec F S128x4096 .f32 :=
  View.canon [⟨r3_0, k3_pay1 (View.ld x2 r3_1) (View.ld x0 r3_0)⟩]
def out3_4 (x0 x1 : Vec F S128x4096 .f32) (x2 : Vec F S1x1 .f32) : Vec F S128x4096 .f32 :=
  View.canon [⟨r3_0, k3_pay2 (View.ld x2 r3_1) (View.ld x0 r3_0) (View.ld x1 r3_0)⟩]

theorem cover3 (p0 : Vec F S128x4096 .f32) (y : S128x4096.Idx) :
    ∃ pc ∈ ([⟨r3_0, p0⟩] : List (View.Piece (Elt F) S128x4096 .f32)), y ∈ pc.1.set :=
  View.cover_of_tiled [⟨r3_0, p0⟩] S128x4096.size (by rfl) y

set_option maxHeartbeats 1000000 in
/-- The body on whole staging memrefs: the inputs keep their contents, the outputs end at `out3_3` and `out3_4`. -/
theorem sound_kernel3 (c : Dev nD) (E : Set ℕ) (i : grid3.Coords)
    (arg1 : Memref sig .tc .vmem S128x4096 .f32) (harg1 : arg1.IsWhole) (arg2 : Memref sig .tc .vmem S128x4096 .f32) (harg2 : arg2.IsWhole)
    (arg3 : Memref sig .tc .vmem S1x1 .f32) (harg3 : arg3.IsWhole)
    (arg4 : Memref sig .tc .vmem S128x4096 .f32) (harg4 : arg4.IsWhole) (arg5 : Memref sig .tc .vmem S128x4096 .f32) (harg5 : arg5.IsWhole)
    (x0 x1 : Vec F S128x4096 .f32) (x2 : Vec F S1x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x2) ∗ owns (c : Thread nD τ) arg5 fullShare (out3_4 x0 x1 x2)) -∗ K ⟨⟩))
      ⊢ wp frame (wpE (defs₀ (F := F)) Variants.none c none) E (cc3__finalize_kernel i arg1 harg1 arg2 harg2 arg3 harg3 arg4 harg4 arg5 harg5) K := by
  simp only [cc3__finalize_kernel_eq_skeleton]; unfold cc3__finalize_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover3 _)
  iexists _; isplitr
  swap; · iexact H4
  ipureintro
  exact View.read_writes_eq_canon _ _ _ (cover3 _)

/-- The proof data of this pipeline on core `c`. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 2 t)
    | ⟨4, _⟩ => out3_4 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 2 t) := by dsimp only [dat3]
theorem after3_4 (c : Dev nD) (t : Fin cfg3.N) :
    (dat3 V c).after 4 t = out3_4 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the pipeline's rule, at every point. -/
theorem body_obligation3 (c : Dev nD) : BodyObligation (dat3 (F := F) V c) (defs₀ (F := F)) Variants.none () Set.univ := fun t => by
  rw [bigSep_W3, bigSep_W3]
  exact sound_body3 V c t

end Region3

end Cert.KernelIdeal.Gen

end
-- ==== Proof.KIRun.lean ====
/-
  The whole run of the program: four kernel regions with three short stretches of host arithmetic between the third
  and the fourth. The contents of every unscoped buffer at each boundary between two items are folded from the
  launch memory — a region leaves its arrays at what its pipeline's write-backs make of them, a host stretch what its
  operations compute —, each region is a segment over the thread state "every unscoped buffer at the boundary's
  contents, the generator register somewhere, nothing owed", and the run ends with every unscoped buffer at the last
  boundary's contents.
-/
import proofs.«139551_j86955907875211_1_alg».proof.Proof.Gen.KernelIdeal.Launch
import proofs.«139551_j86955907875211_1_alg».proof.Proof.Gen.KernelIdeal.Skeleton
import proofs.«139551_j86955907875211_1_alg».proof.Proof.Gen.KernelIdeal.Points
import proofs.«139551_j86955907875211_1_alg».proof.Proof.KIReg0
import proofs.«139551_j86955907875211_1_alg».proof.Proof.KIReg1
import proofs.«139551_j86955907875211_1_alg».proof.Proof.KIReg2
import proofs.«139551_j86955907875211_1_alg».proof.Proof.KIReg3
import proofs.«139551_j86955907875211_1_alg».proof.Proof.Gen.KernelIdeal.Regions
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- Core `c`'s buffers at launch, -/
abbrev W0 : Dev nD → Valuation τ sig (Elt F) := fun c b => m (c, b)
/-- and read at the TensorCore's references. -/
abbrev U0 : (c : Dev nD) → (b : Ref sig .tc) → Buf (Elt F) ((c : Thread nD τ).loc b) := fun c b => W0 m c b

/-- After region 0: its arrays at what the pipeline leaves (the inputs as entered, each output's write-backs folded),
    every other buffer as entered. -/
def W1 (c : Dev nD) : Valuation τ sig (Elt F) :=
  Pipeline.withArrays spec0 c (W0 m c) fun w => (dat0 (U0 m) c).arrAt w cfg0.N
theorem W1_arr (c : Dev nD) (w : Fin cfg0.W) :
    W1 m c (Proc.devRef .tc (Pipeline.arrRef spec0 w)) = (dat0 (U0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev U1 : (c : Dev nD) → (b : Ref sig .tc) → Buf (Elt F) ((c : Thread nD τ).loc b) := fun c b => W1 m c b
theorem hF0 (c : Dev nD) (w : Fin cfg0.W) : (dat0 (U0 m) c).arrAt w cfg0.N = U1 m c (Pipeline.arrRef spec0 w) :=
  (W1_arr m c w).symm
theorem hrest0 (c : Dev nD) : ∀ b, b ∉ Finset.univ.image (Pipeline.arrRef spec0) → U1 m c b = U0 m c b :=
  fun b hb => W1_of_ne m c b fun w e => hb (Finset.mem_image.mpr ⟨w, Finset.mem_univ _, e⟩)

/-- After region 1: its arrays at what the pipeline leaves (the inputs as entered, each output's write-backs folded),
    every other buffer as entered. -/
def W2 (c : Dev nD) : Valuation τ sig (Elt F) :=
  Pipeline.withArrays spec1 c (W1 m c) fun w => (dat1 (U1 m) c).arrAt w cfg1.N
theorem W2_arr (c : Dev nD) (w : Fin cfg1.W) :
    W2 m c (Proc.devRef .tc (Pipeline.arrRef spec1 w)) = (dat1 (U1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev U2 : (c : Dev nD) → (b : Ref sig .tc) → Buf (Elt F) ((c : Thread nD τ).loc b) := fun c b => W2 m c b
theorem hF1 (c : Dev nD) (w : Fin cfg1.W) : (dat1 (U1 m) c).arrAt w cfg1.N = U2 m c (Pipeline.arrRef spec1 w) :=
  (W2_arr m c w).symm
theorem hrest1 (c : Dev nD) : ∀ b, b ∉ Finset.univ.image (Pipeline.arrRef spec1) → U2 m c b = U1 m c b :=
  fun b hb => W2_of_ne m c b fun w e => hb (Finset.mem_image.mpr ⟨w, Finset.mem_univ _, e⟩)

/-- After region 2: its arrays at what the pipeline leaves (the inputs as entered, each output's write-backs folded),
    every other buffer as entered. -/
def W3 (c : Dev nD) : Valuation τ sig (Elt F) :=
  Pipeline.withArrays spec2 c (W2 m c) fun w => (dat2 (U2 m) c).arrAt w cfg2.N
theorem W3_arr (c : Dev nD) (w : Fin cfg2.W) :
    W3 m c (Proc.devRef .tc (Pipeline.arrRef spec2 w)) = (dat2 (U2 m) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m c (Proc.devRef .tc b) = W2 m c (Proc.devRef .tc b) := by
  unfold W3; exact Pipeline.withArrays_of_ne spec2 c _ _ b hb
abbrev U3 : (c : Dev nD) → (b : Ref sig .tc) → Buf (Elt F) ((c : Thread nD τ).loc b) := fun c b => W3 m c b
theorem hF2 (c : Dev nD) (w : Fin cfg2.W) : (dat2 (U2 m) c).arrAt w cfg2.N = U3 m c (Pipeline.arrRef spec2 w) :=
  (W3_arr m c w).symm
theorem hrest2 (c : Dev nD) : ∀ b, b ∉ Finset.univ.image (Pipeline.arrRef spec2) → U3 m c b = U2 m c b :=
  fun b hb => W3_of_ne m c b fun w e => hb (Finset.mem_image.mpr ⟨w, Finset.mem_univ _, e⟩)

/-- After the host stretches between the third and the fourth region: the squared norm, its root, the comparison with
    the target and the quotient; the select; the reshape to one word. -/
abbrev W4 : Dev nD → Valuation τ sig (Elt F) := fun c => StableHlo.after hostOps3 (W3 m c)
abbrev W5 : Dev nD → Valuation τ sig (Elt F) := fun c => StableHlo.after hostOps3_1 (W4 m c)
abbrev W6 : Dev nD → Valuation τ sig (Elt F) := fun c => StableHlo.after hostOps3_2 (W5 m c)
abbrev U6 : (c : Dev nD) → (b : Ref sig .tc) → Buf (Elt F) ((c : Thread nD τ).loc b) := fun c b => W6 m c b

/-- After region 3: its arrays at what the pipeline leaves (the inputs as entered, each output's write-backs folded),
    every other buffer as entered. -/
def W7 (c : Dev nD) : Valuation τ sig (Elt F) :=
  Pipeline.withArrays spec3 c (W6 m c) fun w => (dat3 (U6 m) c).arrAt w cfg3.N
theorem W7_arr (c : Dev nD) (w : Fin cfg3.W) :
    W7 m c (Proc.devRef .tc (Pipeline.arrRef spec3 w)) = (dat3 (U6 m) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m c (Proc.devRef .tc b) = W6 m c (Proc.devRef .tc b) := by
  unfold W7; exact Pipeline.withArrays_of_ne spec3 c _ _ b hb
abbrev U7 : (c : Dev nD) → (b : Ref sig .tc) → Buf (Elt F) ((c : Thread nD τ).loc b) := fun c b => W7 m c b
theorem hF3 (c : Dev nD) (w : Fin cfg3.W) : (dat3 (U6 m) c).arrAt w cfg3.N = U7 m c (Pipeline.arrRef spec3 w) :=
  (W7_arr m c w).symm
theorem hrest3 (c : Dev nD) : ∀ b, b ∉ Finset.univ.image (Pipeline.arrRef spec3) → U7 m c b = U6 m c b :=
  fun b hb => W7_of_ne m c b fun w e => hb (Finset.mem_image.mpr ⟨w, Finset.mem_univ _, e⟩)

/-! ## The proof data family and the thread state -/

/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (U0 m) c
  | ⟨1, _⟩ => fun c => dat1 (U1 m) c
  | ⟨2, _⟩ => fun c => dat2 (U2 m) c
  | ⟨3, _⟩ => fun c => dat3 (U6 m) c
abbrev 𝒱₀ : Variants := Variants.none
/-- No core owes another anything: no level is assigned. -/
abbrev L0 : GSem nD τ sig → Finset Unit := fun _ => ∅
abbrev lv0 : GSem nD τ sig → Unit → ℕ := fun _ _ => 0
/-- What rides beside the buffers through every segment: the generator register at some state, and nothing owed. -/
abbrev Rst (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L0 lv0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst
/-- The last thread state without the dues. -/
abbrev Tend (c : Dev nD) : sProp 𝕄 := iprop(StableHlo.held (c : Thread nD τ) (Pipeline.ucRefs τ sig) (W7 m c) ∗ ∃ r, prngReg c r)

/-! ## The regions as segments -/

set_option backward.isDefEq.respectTransparency.types false in
/-- Region 0 over the thread state: entered with every unscoped buffer at the boundary's contents, left with them at
    the next boundary's; its arrays split out of the unscoped buffers and put back at what the pipeline leaves; the
    generator register into the region's invariant and out; nothing owed; no semaphore of the kernel's own. -/
def reg0 : Pipeline.RegionSeg (pcfgs (F := F)) adm (pdats m) () defs₀ 𝒱₀ L0 lv0 0 where
  win := launch0.win.to₀
  block_pos := launch0.block_pos
  stage_whole := launch0.stage_whole
  K := PEmpty
  osem k := k.elim
  ho := Pipeline.OwnSemFacts.none _
  hbody c := (body_obligation0 (U0 m) c).loose
  hwaits := Pipeline.hwaits_of_owed_zero _ _ _ _ L0 lv0 0 fun _ _ => rfl
  pre c := iprop(StableHlo.held (c : Thread nD τ) (Pipeline.ucRefs τ sig) (W0 m c) ∗ Rst c)
  post c := iprop(StableHlo.held (c : Thread nD τ) (Pipeline.ucRefs τ sig) (W1 m c) ∗ Rst c)
  X c := iprop(∃ r, prngReg c r)
  Y c := iprop(∃ r, prngReg c r)
  Z c := Pipeline.unscopedRest (Ix := Unit) (Name := ℕ) (U := UR sig nD τ) (Lvl := ℕ) spec0 c (U0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U0 m c) (U1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the boundary's contents, left with them at
    the next boundary's; its arrays split out of the unscoped buffers and put back at what the pipeline leaves; the
    generator register into the region's invariant and out; nothing owed; no semaphore of the kernel's own. -/
def reg1 : Pipeline.RegionSeg (pcfgs (F := F)) adm (pdats m) () defs₀ 𝒱₀ L0 lv0 1 where
  win := launch1.win.to₀
  block_pos := launch1.block_pos
  stage_whole := launch1.stage_whole
  K := PEmpty
  osem k := k.elim
  ho := Pipeline.OwnSemFacts.none _
  hbody c := (body_obligation1 (U1 m) c).loose
  hwaits := Pipeline.hwaits_of_owed_zero _ _ _ _ L0 lv0 1 fun _ _ => rfl
  pre c := iprop(StableHlo.held (c : Thread nD τ) (Pipeline.ucRefs τ sig) (W1 m c) ∗ Rst c)
  post c := iprop(StableHlo.held (c : Thread nD τ) (Pipeline.ucRefs τ sig) (W2 m c) ∗ Rst c)
  X c := iprop(∃ r, prngReg c r)
  Y c := iprop(∃ r, prngReg c r)
  Z c := Pipeline.unscopedRest (Ix := Unit) (Name := ℕ) (U := UR sig nD τ) (Lvl := ℕ) spec1 c (U1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Φ1 (U1 m) c 0 from rfl]; unfold Φ1
    rw [show (Pipeline.scopedRest (Ix := Unit) (Name := ℕ) (U := UR sig nD τ) (Lvl := ℕ) (Val := Elt F) (Pipeline.pin (pcfgs (F := F)) adm 1).spec c : sProp 𝕄) = _ from scopedRest1_split c]
    iintro ⟨Hp, -, ⟨%f, Hs⟩, Hb⟩
    isplitl [Hs]
    · iexists f; isplitr
      · ipureintro; intro n hn e; exact absurd e (Nat.succ_ne_zero n).symm
      rw [owns_whole]; iexact Hs
    isplitl [Hb]; · iexact Hb
    iexact Hp
  hout c := by
    rw [Pipeline.ownSems0_none, show (pdats m 1 c).Φ (Fin.last _) = Φ1 (U1 m) c (Fin.last _) from rfl]; unfold Φ1
    rw [show (Pipeline.scopedRest (Ix := Unit) (Name := ℕ) (U := UR sig nD τ) (Lvl := ℕ) (Val := Elt F) (Pipeline.pin (pcfgs (F := F)) adm 1).spec c : sProp 𝕄) = _ from scopedRest1_split c]
    iintro ⟨⟨%d, -, Hs⟩, Hb, Hp⟩
    isplitl [Hp]; · iexact Hp
    isplitr; · iempintro
    isplitl [Hs]
    · iexists d; rw [owns_whole]
      first | iexact Hs | exact .rfl | exact BI.Entails.refl _
    iexact Hb
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U1 m c) (U2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at the boundary's contents, left with them at
    the next boundary's; its arrays split out of the unscoped buffers and put back at what the pipeline leaves; the
    generator register into the region's invariant and out; nothing owed; no semaphore of the kernel's own. -/
def reg2 : Pipeline.RegionSeg (pcfgs (F := F)) adm (pdats m) () defs₀ 𝒱₀ L0 lv0 2 where
  win := launch2.win.to₀
  block_pos := launch2.block_pos
  stage_whole := launch2.stage_whole
  K := PEmpty
  osem k := k.elim
  ho := Pipeline.OwnSemFacts.none _
  hbody c := (body_obligation2 (U2 m) c).loose
  hwaits := Pipeline.hwaits_of_owed_zero _ _ _ _ L0 lv0 2 fun _ _ => rfl
  pre c := iprop(StableHlo.held (c : Thread nD τ) (Pipeline.ucRefs τ sig) (W2 m c) ∗ Rst c)
  post c := iprop(StableHlo.held (c : Thread nD τ) (Pipeline.ucRefs τ sig) (W3 m c) ∗ Rst c)
  X c := iprop(∃ r, prngReg c r)
  Y c := iprop(∃ r, prngReg c r)
  Z c := Pipeline.unscopedRest (Ix := Unit) (Name := ℕ) (U := UR sig nD τ) (Lvl := ℕ) spec2 c (U2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (U2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Φ2 (U2 m) c 0 from rfl]; unfold Φ2
    rw [show (Pipeline.scopedRest (Ix := Unit) (Name := ℕ) (U := UR sig nD τ) (Lvl := ℕ) (Val := Elt F) (Pipeline.pin (pcfgs (F := F)) adm 2).spec c : sProp 𝕄) = _ from scopedRest2_split c]
    iintro ⟨Hp, -, ⟨%f, Hs⟩, Hb⟩
    isplitl [Hs]
    · iexists f; isplitr
      · ipureintro; intro n hn e; exact absurd e (Nat.succ_ne_zero n).symm
      rw [owns_whole]; iexact Hs
    isplitl [Hb]; · iexact Hb
    iexact Hp
  hout c := by
    rw [Pipeline.ownSems0_none, show (pdats m 2 c).Φ (Fin.last _) = Φ2 (U2 m) c (Fin.last _) from rfl]; unfold Φ2
    rw [show (Pipeline.scopedRest (Ix := Unit) (Name := ℕ) (U := UR sig nD τ) (Lvl := ℕ) (Val := Elt F) (Pipeline.pin (pcfgs (F := F)) adm 2).spec c : sProp 𝕄) = _ from scopedRest2_split c]
    iintro ⟨⟨%d, -, Hs⟩, Hb, Hp⟩
    isplitl [Hp]; · iexact Hp
    isplitr; · iempintro
    isplitl [Hs]
    · iexists d; rw [owns_whole]
      first | iexact Hs | exact .rfl | exact BI.Entails.refl _
    iexact Hb
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (U2 m c) (U3 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at the boundary's contents, left with them at
    the next boundary's; its arrays split out of the unscoped buffers and put back at what the pipeline leaves; the
    generator register into the region's invariant and out; nothing owed; no semaphore of the kernel's own. -/
def reg3 : Pipeline.RegionSeg (pcfgs (F := F)) adm (pdats m) () defs₀ 𝒱₀ L0 lv0 3 where
  win := launch3.win.to₀
  block_pos := launch3.block_pos
  stage_whole := launch3.stage_whole
  K := PEmpty
  osem k := k.elim
  ho := Pipeline.OwnSemFacts.none _
  hbody c := (body_obligation3 (U6 m) c).loose
  hwaits := Pipeline.hwaits_of_owed_zero _ _ _ _ L0 lv0 3 fun _ _ => rfl
  pre c := iprop(StableHlo.held (c : Thread nD τ) (Pipeline.ucRefs τ sig) (W6 m c) ∗ Rst c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (U6 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (U6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (U6 m c) (U7 m c) ((pdats m 3 c).arrAt · cfg3.N) (hF3 m c) (hrest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's seven segments in order. -/
abbrev segsAll : List (Pipeline.Seg (pcfgs (F := F)) adm (pdats m) () defs₀ 𝒱₀ L0 lv0) :=
  [ .region (reg0 m),
    .region (reg1 m),
    .region (reg2 m),
    .host (hseg hostOps3 hostOps3_sub hostOps3_fresh (W3 m)),
    .host (hseg hostOps3_1 hostOps3_1_sub hostOps3_1_fresh (W4 m)),
    .host (hseg hostOps3_2 hostOps3_2_sub hostOps3_2_fresh (W5 m)),
    .region (reg3 m) ]

/-- @main is the run of the segments. -/
theorem main_run (c : Dev nD) : main (F := F) c = Pipeline.Seg.run (segsAll m) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: from any memory with zero counters, every weakly fair execution of @main on the TensorCores terminates,
    nothing faulting, and every final state has every unscoped buffer at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L0 lv0 m ρ main (segsAll m)
    (fun c Q => by rw [main_run m c])
    (by simp only [segsAll, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rst c)) (Tₙ := Tend m)
    (hch := ⟨fun _ => .rfl, fun _ => .rfl, fun _ => .rfl, fun _ => .rfl, fun _ => .rfl, fun _ => .rfl, fun _ => .rfl, fun _ => .rfl⟩)
    (hinit := by
      refine Pipeline.initEach L0 lv0 fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

end Cert.KernelIdeal.Gen

end
-- ==== Proof.KIFrame.lean ====
/-
  The arguments after the whole run: no host operation writes an argument array and no region may change one — a
  region reads it through an input window, which the pipeline leaves as it found it, or does not touch it —, so the
  contents at the last boundary, read at an argument's buffer, walk back to the launch memory. With the run, this is
  the frame: every weakly fair execution terminates without a fault and the four arguments end as launched.
-/
import proofs.«139551_j86955907875211_1_alg».proof.Proof.Gen.KernelIdeal.Launch
import proofs.«139551_j86955907875211_1_alg».proof.Proof.Gen.KernelIdeal.Skeleton
import proofs.«139551_j86955907875211_1_alg».proof.Proof.Gen.KernelIdeal.Points
import proofs.«139551_j86955907875211_1_alg».proof.Proof.KIRun
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem W7_main_arg0 (c : Dev nD) : W7 m c (Proc.devRef .tc main_arg0) = m ((c : Thread nD τ).loc main_arg0) :=
  calc W7 m c (Proc.devRef .tc main_arg0)
    _ = W6 m c (Proc.devRef .tc main_arg0) := W7_of_ne m c main_arg0 (by decide)
    _ = W5 m c (Proc.devRef .tc main_arg0) := StableHlo.after_of_writes_sub hostOps3_2 (W5 m c) hostOps3_2_writes (by decide : main_arg0 ∉ hostOps3_2_W)
    _ = W4 m c (Proc.devRef .tc main_arg0) := StableHlo.after_of_writes_sub hostOps3_1 (W4 m c) hostOps3_1_writes (by decide : main_arg0 ∉ hostOps3_1_W)
    _ = W3 m c (Proc.devRef .tc main_arg0) := StableHlo.after_of_writes_sub hostOps3 (W3 m c) hostOps3_writes (by decide : main_arg0 ∉ hostOps3_W)
    _ = W2 m c (Proc.devRef .tc main_arg0) := (W3_arr m c 1).trans (((dat2 (U2 m) c).arrAt_in 1 rfl _).trans (A_eq2 (U2 m) c 1))
    _ = W1 m c (Proc.devRef .tc main_arg0) := (W2_arr m c 0).trans (((dat1 (U1 m) c).arrAt_in 0 rfl _).trans (A_eq1 (U1 m) c 0))
    _ = W0 m c (Proc.devRef .tc main_arg0) := W1_of_ne m c main_arg0 (by decide)
    _ = m ((c : Thread nD τ).loc main_arg0) := rfl

theorem W7_main_arg1 (c : Dev nD) : W7 m c (Proc.devRef .tc main_arg1) = m ((c : Thread nD τ).loc main_arg1) :=
  calc W7 m c (Proc.devRef .tc main_arg1)
    _ = W6 m c (Proc.devRef .tc main_arg1) := W7_of_ne m c main_arg1 (by decide)
    _ = W5 m c (Proc.devRef .tc main_arg1) := StableHlo.after_of_writes_sub hostOps3_2 (W5 m c) hostOps3_2_writes (by decide : main_arg1 ∉ hostOps3_2_W)
    _ = W4 m c (Proc.devRef .tc main_arg1) := StableHlo.after_of_writes_sub hostOps3_1 (W4 m c) hostOps3_1_writes (by decide : main_arg1 ∉ hostOps3_1_W)
    _ = W3 m c (Proc.devRef .tc main_arg1) := StableHlo.after_of_writes_sub hostOps3 (W3 m c) hostOps3_writes (by decide : main_arg1 ∉ hostOps3_W)
    _ = W2 m c (Proc.devRef .tc main_arg1) := W3_of_ne m c main_arg1 (by decide)
    _ = W1 m c (Proc.devRef .tc main_arg1) := W2_of_ne m c main_arg1 (by decide)
    _ = W0 m c (Proc.devRef .tc main_arg1) := (W1_arr m c 0).trans (((dat0 (U0 m) c).arrAt_in 0 rfl _).trans (A_eq0 (U0 m) c 0))
    _ = m ((c : Thread nD τ).loc main_arg1) := rfl

theorem W7_main_arg2 (c : Dev nD) : W7 m c (Proc.devRef .tc main_arg2) = m ((c : Thread nD τ).loc main_arg2) :=
  calc W7 m c (Proc.devRef .tc main_arg2)
    _ = W6 m c (Proc.devRef .tc main_arg2) := W7_of_ne m c main_arg2 (by decide)
    _ = W5 m c (Proc.devRef .tc main_arg2) := StableHlo.after_of_writes_sub hostOps3_2 (W5 m c) hostOps3_2_writes (by decide : main_arg2 ∉ hostOps3_2_W)
    _ = W4 m c (Proc.devRef .tc main_arg2) := StableHlo.after_of_writes_sub hostOps3_1 (W4 m c) hostOps3_1_writes (by decide : main_arg2 ∉ hostOps3_1_W)
    _ = W3 m c (Proc.devRef .tc main_arg2) := StableHlo.after_of_writes_sub hostOps3 (W3 m c) hostOps3_writes (by decide : main_arg2 ∉ hostOps3_W)
    _ = W2 m c (Proc.devRef .tc main_arg2) := (W3_arr m c 2).trans (((dat2 (U2 m) c).arrAt_in 2 rfl _).trans (A_eq2 (U2 m) c 2))
    _ = W1 m c (Proc.devRef .tc main_arg2) := W2_of_ne m c main_arg2 (by decide)
    _ = W0 m c (Proc.devRef .tc main_arg2) := (W1_arr m c 1).trans (((dat0 (U0 m) c).arrAt_in 1 rfl _).trans (A_eq0 (U0 m) c 1))
    _ = m ((c : Thread nD τ).loc main_arg2) := rfl

theorem W7_main_arg3 (c : Dev nD) : W7 m c (Proc.devRef .tc main_arg3) = m ((c : Thread nD τ).loc main_arg3) :=
  calc W7 m c (Proc.devRef .tc main_arg3)
    _ = W6 m c (Proc.devRef .tc main_arg3) := (W7_arr m c 1).trans (((dat3 (U6 m) c).arrAt_in 1 rfl _).trans (A_eq3 (U6 m) c 1))
    _ = W5 m c (Proc.devRef .tc main_arg3) := StableHlo.after_of_writes_sub hostOps3_2 (W5 m c) hostOps3_2_writes (by decide : main_arg3 ∉ hostOps3_2_W)
    _ = W4 m c (Proc.devRef .tc main_arg3) := StableHlo.after_of_writes_sub hostOps3_1 (W4 m c) hostOps3_1_writes (by decide : main_arg3 ∉ hostOps3_1_W)
    _ = W3 m c (Proc.devRef .tc main_arg3) := StableHlo.after_of_writes_sub hostOps3 (W3 m c) hostOps3_writes (by decide : main_arg3 ∉ hostOps3_W)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := (W1_arr m c 2).trans (((dat0 (U0 m) c).arrAt_in 2 rfl _).trans (A_eq0 (U0 m) c 2))
    _ = m ((c : Thread nD τ).loc main_arg3) := rfl

/-- THE FRAME, at any float instance. -/
theorem frame_all (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W7_main_arg0 m c),
     (h c _ (mem_uc main_arg1 (by decide))).trans (W7_main_arg1 m c),
     (h c _ (mem_uc main_arg2 (by decide))).trans (W7_main_arg2 m c),
     (h c _ (mem_uc main_arg3 (by decide))).trans (W7_main_arg3 m c)⟩) (run_all m ρ)

end Cert.KernelIdeal.Gen

end
-- ==== Proof.Spec.lean ====
/-
  The mathematics both programs compute, as functions of the four argument arrays over the extended reals, index by
  index. `w` is the weight, `f` and `s` the fast and slow traces, `x` the batch of inputs; every array is 4096 × 4096.

  * each row of `w` is quantised to {-1, 0, 1} times the row's scale — its mean absolute value, clipped below at
    the literal 1e-5 —, and 0.1 · f + 0.05 · s is added: the effective weight `weff`;
  * `ymat x weff` is x · weffᵀ, `yact` its clamp below at zero;
  * `raw` is 0.95 · f + 0.05 · ((yactᵀ · x) · 2⁻¹²): the fast trace before the homeostatic clip;
  * the clip multiplies by 5 / (‖raw‖ + 1e-6) when the Frobenius norm exceeds 5 and by 1 otherwise: `newFast`;
  * `newSlow` is 0.99 · s + 0.01 · newFast.
  Float literals stay as their binary words (`lit`): the same word stands on both sides and is never evaluated.
-/
import Idealize.ShloMosaic.PureOps.Ideal
import Idealize.ShloMosaic.Lib.ValueIdx

noncomputable section

namespace Cert.Spec

open Idealize.ShloMosaic Idealize.ShloMosaic.ValueIdx

/-- The shape of every array here. -/
abbrev SQ : Shape := ⟨2, ![4096, 4096]⟩
/-- An array of extended reals. -/
abbrev Arr : Type := SQ.Idx → EReal
/-- A float literal by its binary word. -/
abbrev lit (b : BitVec 32) : EReal := Ideal.ofBits .f32 b

/-- An index's two coordinates as plain `Fin 4096`s. -/
abbrev row (i : SQ.Idx) : Fin 4096 := ⟨(i 0).val, (i 0).isLt⟩
abbrev col (i : SQ.Idx) : Fin 4096 := ⟨(i 1).val, (i 1).isLt⟩

/-- The scale of row `r` of `w`: the mean of its absolute values, clipped below at 1e-5. -/
def rowScale (w : Arr) (r : Fin 4096) : EReal :=
  max (lit 0x3727C5AC#32) (Ideal.div (∑ k : Fin 4096, max (w (ix2 r k)) (-(w (ix2 r k)))) (lit 0x45800000#32))

/-- The effective weight at row `r`, column `q`. -/
def weffAt (w f s : Arr) (r q : Fin 4096) : EReal :=
  (min (lit 0x3F800000#32) (max (lit 0xBF800000#32)
      (Ideal.liftRound Ideal.roundHalfEven (Ideal.div (w (ix2 r q)) (rowScale w r)))) * rowScale w r
    + lit 0x3DCCCCCD#32 * f (ix2 r q)) + lit 0x3D4CCCCD#32 * s (ix2 r q)
def weff (w f s : Arr) : Arr := fun i => weffAt w f s (row i) (col i)

/-- x · weᵀ at (n, o). -/
def ymatAt (x we : Arr) (n o : Fin 4096) : EReal := ∑ k : Fin 4096, x (ix2 n k) * we (ix2 o k)
def ymat (x we : Arr) : Arr := fun i => ymatAt x we (row i) (col i)

/-- The clamp below at zero. -/
def yact (y : Arr) : Arr := fun i => max (y i) (lit 0x00000000#32)

/-- The fast trace before the clip at (o, d): 0.95 · f + 0.05 · ((Σₙ ya(n, o) · x(n, d)) · 2⁻¹²). -/
def rawAt (x ya f : Arr) (o d : Fin 4096) : EReal :=
  lit 0x3F733333#32 * f (ix2 o d) + lit 0x3D4CCCCD#32 * ((∑ n : Fin 4096, ya (ix2 n o) * x (ix2 n d)) * lit 0x39800000#32)
def raw (x ya f : Arr) : Arr := fun i => rawAt x ya f (row i) (col i)

/-- The Frobenius norm of `r`, as both programs compute it: the root of zero plus the sum of the squares. -/
def fnorm (r : Arr) : EReal := Ideal.sqrt (lit 0x00000000#32 + ∑ i : SQ.Idx, r i * r i)

/-- The homeostatic factor: 5 / (‖r‖ + 1e-6) when ‖r‖ > 5, else 1. -/
def hscale (r : Arr) : EReal :=
  Scalar.select (Ideal.cmp .ogt (fnorm r) (lit 0x40A00000#32))
    (Ideal.div (lit 0x40A00000#32) (fnorm r + lit 0x358637BD#32)) (lit 0x3F800000#32)

def newFast (r : Arr) : Arr := fun i => r i * hscale r
def newSlow (s nf : Arr) : Arr := fun i => lit 0x3F7D70A4#32 * s i + lit 0x3C23D70A#32 * nf i

end Cert.Spec

end
-- ==== Proof.LibLayout.lean ====
/-
  Layout operations read at coordinates, for shapes the library's own collection does not cover:
  a vector turned into a column, a column repeated along its unit axis, and the two reshapes between a
  three-axis array and the two-axis array whose rows are the pairs of its first two coordinates.
  Each lemma names the operand's index by coordinates, so that it applies by unification.
-/
import Idealize.ShloMosaic.Lib.Pipeline.Value
import Idealize.ShloMosaic.Lib.ValueIdx

namespace Cert.LibLayout

open Idealize.ShloMosaic Idealize.ShloMosaic.ValueIdx

variable {α : Type}

/-- A vector of length `a` cast to a column `[a, 1]` reads, at `(i, u)`, the vector at `i`: the row-major
    position of `(i, u)` is `i · 1 + u = i`, the unit coordinate being zero. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- An array `[a, b, c]` reshaped to `[n, c]` with `n = a · b` reads, at row `r = p · b + q` and column `z`,
    the array at `(p, q, z)`: both have the row-major position `(p · b + q) · c + z`. -/
theorem shapeCast_abc_nc_apply {a b c n : ℕ} (x : (⟨3, ![a, b, c]⟩ : Shape).Idx → α)
    (h : (⟨3, ![a, b, c]⟩ : Shape).ShapeCasts ⟨2, ![n, c]⟩) (p : Fin a) (q : Fin b) (z : Fin c) (r : Fin n)
    (hr : r.val = p.val * b + q.val) : shapeCast ⟨2, ![n, c]⟩ x h (ix2 r z) = x (ix3 p q z) :=
  shapeCast_apply x h _ _ (by
    rw [Shape.rowMajor_val_three, Shape.rowMajor_val_two]
    show (p.val * b + q.val) * c + z.val = r.val * c + z.val
    rw [hr])

/-- The reshape back: `[n, c]` reshaped to `[a, b, c]` reads, at `(p, q, z)`, row `r = p · b + q` at column `z`. -/
theorem shapeCast_nc_abc_apply {a b c n : ℕ} (x : (⟨2, ![n, c]⟩ : Shape).Idx → α)
    (h : (⟨2, ![n, c]⟩ : Shape).ShapeCasts ⟨3, ![a, b, c]⟩) (p : Fin a) (q : Fin b) (z : Fin c) (r : Fin n)
    (hr : r.val = p.val * b + q.val) : shapeCast ⟨3, ![a, b, c]⟩ x h (ix3 p q z) = x (ix2 r z) :=
  shapeCast_apply x h _ _ (by
    rw [Shape.rowMajor_val_two, Shape.rowMajor_val_three]
    show r.val * c + z.val = (p.val * b + q.val) * c + z.val
    rw [hr])

end Cert.LibLayout
-- ==== Proof.LibRows.lean ====
/-
  One-axis reductions and keep-dimension layout operations read at coordinates, at the exact values.

  For a two-axis array `[m, n]`: the sum and the maximum over the second axis, at row `p`, as the sum and the fold of
  `max` over `s : Fin n` of the entry `(p, s)`. For a three-axis array `[a, b, c]`: the sum over the last axis at
  `(p, s)` and the sum over the middle axis at `(p, h)`. And the casts and broadcasts that insert or repeat a unit
  axis: `[a, b] → [a, 1, b]`, `[a, b] → [a, b, 1]`, `[a, 1, c] → [a, b, c]`, `[1, 1, c] → [a, b, c]`,
  `[a, b, 1] → [a, b, c]`. Each lemma names the operand's index by coordinates, so that it applies by unification.
-/
import Idealize.ShloMosaic.Lib.Pipeline.Value
import Idealize.ShloMosaic.Lib.ValueIdx
import Idealize.ShloMosaic.PureOps.Ideal.Laws

namespace Cert.LibRows

open Idealize.ShloMosaic Idealize.ShloMosaic.ValueIdx

variable {φ : FTy}

/-! ## Reductions over one axis -/

/-- The sum over the second axis of `[m, n]`, at row `p`: `∑ₛ x (p, s)`. -/
theorem rowSum_apply {m n : ℕ} (x : FVec Ideal ⟨2, ![m, n]⟩ φ) (acc : BitVec φ.bits)
    (h : (⟨2, ![m, n]⟩ : Shape).Reduces [(1 : Fin 2)] ⟨1, ![m]⟩) (hφ : FKind.Formats φ) (hacc : acc = FKind.add.neutral φ hφ)
    (p : Fin m) :
    multiReduction .add [(1 : Fin 2)] ⟨1, ![m]⟩ x acc h hφ hacc (ix1 p) = ∑ s : Fin n, x (ix2 p s) :=
  (Ideal.multiReduction_add_single x acc h hφ hacc (ix1 p)).trans
    (Finset.sum_congr rfl fun s _ => congrArg x (funext fun a => Fin.ext (by
      match a with
      | ⟨0, _⟩ => rfl
      | ⟨1, _⟩ => rfl)))

/-- The maximum over the second axis of `[m, n]`, at row `p`: the fold of `max`, from the accumulator's value, over
    `s` of `x (p, s)`. -/
theorem rowMax_apply {m n : ℕ} (x : FVec Ideal ⟨2, ![m, n]⟩ φ) (acc : BitVec φ.bits)
    (h : (⟨2, ![m, n]⟩ : Shape).Reduces [(1 : Fin 2)] ⟨1, ![m]⟩) (hφ : FKind.Formats φ) (hacc : acc = FKind.maximumf.neutral φ hφ)
    (p : Fin m) :
    multiReduction .maximumf [(1 : Fin 2)] ⟨1, ![m]⟩ x acc h hφ hacc (ix1 p)
      = (Finset.univ : Finset (Fin n)).fold max (Ideal.ofBits φ acc) (fun s => x (ix2 p s)) :=
  (Ideal.multiReduction_maximumf_single x acc h hφ hacc (ix1 p)).trans
    (congrArg ((Finset.univ : Finset (Fin n)).fold max (Ideal.ofBits φ acc)) (funext fun s => congrArg x (funext fun a => Fin.ext (by
      match a with
      | ⟨0, _⟩ => rfl
      | ⟨1, _⟩ => rfl))))

/-- The sum over the LAST axis of `[a, b, c]`, at `(p, s)`: `∑ₖ x (p, s, k)`. -/
theorem lastSum_apply {a b c : ℕ} (x : FVec Ideal ⟨3, ![a, b, c]⟩ φ) (acc : BitVec φ.bits)
    (h : (⟨3, ![a, b, c]⟩ : Shape).Reduces [(2 : Fin 3)] ⟨2, ![a, b]⟩) (hφ : FKind.Formats φ) (hacc : acc = FKind.add.neutral φ hφ)
    (p : Fin a) (s : Fin b) :
    multiReduction .add [(2 : Fin 3)] ⟨2, ![a, b]⟩ x acc h hφ hacc (ix2 p s) = ∑ k : Fin c, x (ix3 p s k) :=
  (Ideal.multiReduction_add_single x acc h hφ hacc (ix2 p s)).trans
    (Finset.sum_congr rfl fun k _ => congrArg x (funext fun d => Fin.ext (by
      match d with
      | ⟨0, _⟩ => rfl
      | ⟨1, _⟩ => rfl
      | ⟨2, _⟩ => rfl)))

/-- The sum over the MIDDLE axis of `[a, b, c]`, at `(p, z)`: `∑ₛ x (p, s, z)`. -/
theorem midSum_apply {a b c : ℕ} (x : FVec Ideal ⟨3, ![a, b, c]⟩ φ) (acc : BitVec φ.bits)
    (h : (⟨3, ![a, b, c]⟩ : Shape).Reduces [(1 : Fin 3)] ⟨2, ![a, c]⟩) (hφ : FKind.Formats φ) (hacc : acc = FKind.add.neutral φ hφ)
    (p : Fin a) (z : Fin c) :
    multiReduction .add [(1 : Fin 3)] ⟨2, ![a, c]⟩ x acc h hφ hacc (ix2 p z) = ∑ s : Fin b, x (ix3 p s z) :=
  (Ideal.multiReduction_add_single x acc h hφ hacc (ix2 p z)).trans
    (Finset.sum_congr rfl fun s _ => congrArg x (funext fun d => Fin.ext (by
      match d with
      | ⟨0, _⟩ => rfl
      | ⟨1, _⟩ => rfl
      | ⟨2, _⟩ => rfl)))

/-! ## Unit axes inserted and repeated -/

variable {α : Type}

/-- `[a, b]` cast to `[a, 1, b]` reads, at `(p, u, z)`, the operand at `(p, z)`. -/
theorem shapeCast_ab_a1b_apply {a b : ℕ} (x : (⟨2, ![a, b]⟩ : Shape).Idx → α)
    (h : (⟨2, ![a, b]⟩ : Shape).ShapeCasts ⟨3, ![a, 1, b]⟩) (p : Fin a) (u : Fin 1) (z : Fin b) :
    shapeCast ⟨3, ![a, 1, b]⟩ x h (ix3 p u z) = x (ix2 p z) :=
  shapeCast_apply x h _ _ (by
    have hu : u.val = 0 := by omega
    rw [Shape.rowMajor_val_two, Shape.rowMajor_val_three]
    show p.val * b + z.val = (p.val * 1 + u.val) * b + z.val
    rw [hu, Nat.mul_one, Nat.add_zero])

/-- `[a, b]` cast to `[a, b, 1]` reads, at `(p, s, u)`, the operand at `(p, s)`. -/
theorem shapeCast_ab_ab1_apply {a b : ℕ} (x : (⟨2, ![a, b]⟩ : Shape).Idx → α)
    (h : (⟨2, ![a, b]⟩ : Shape).ShapeCasts ⟨3, ![a, b, 1]⟩) (p : Fin a) (s : Fin b) (u : Fin 1) :
    shapeCast ⟨3, ![a, b, 1]⟩ x h (ix3 p s u) = x (ix2 p s) :=
  shapeCast_apply x h _ _ (by
    have hu : u.val = 0 := by omega
    rw [Shape.rowMajor_val_two, Shape.rowMajor_val_three]
    show p.val * b + s.val = (p.val * b + s.val) * 1 + u.val
    rw [hu, Nat.mul_one, Nat.add_zero])

/-- `[a, 1, c]` broadcast to `[a, b, c]` reads, at `(p, s, z)`, the operand at `(p, 0, z)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (s : Fin b) (z : Fin c) :
    broadcastTo ⟨3, ![a, b, c]⟩ v h (ix3 p s z) = v (ix3 p (0 : Fin 1) z) := by
  refine broadcastTo_apply v h (ix3 p s z) (ix3 p (0 : Fin 1) z) fun ax => ?_
  match ax with
  | ⟨0, _⟩ =>
    show p.val = if a = 1 then 0 else p.val
    split
    · have := p.isLt; omega
    · rfl
  | ⟨1, _⟩ => rfl
  | ⟨2, _⟩ =>
    show z.val = if c = 1 then 0 else z.val
    split
    · have := z.isLt; omega
    · rfl

/-- `[1, 1, c]` broadcast to `[a, b, c]` reads, at `(p, s, z)`, the operand at `(0, 0, z)`. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (s : Fin b) (z : Fin c) :
    broadcastTo ⟨3, ![a, b, c]⟩ v h (ix3 p s z) = v (ix3 (0 : Fin 1) (0 : Fin 1) z) := by
  refine broadcastTo_apply v h (ix3 p s z) (ix3 (0 : Fin 1) (0 : Fin 1) z) fun ax => ?_
  match ax with
  | ⟨0, _⟩ => rfl
  | ⟨1, _⟩ => rfl
  | ⟨2, _⟩ =>
    show z.val = if c = 1 then 0 else z.val
    split
    · have := z.isLt; omega
    · rfl

/-- `[a, b, 1]` broadcast to `[a, b, c]` reads, at `(p, s, z)`, the operand at `(p, s, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (s : Fin b) (z : Fin c) :
    broadcastTo ⟨3, ![a, b, c]⟩ v h (ix3 p s z) = v (ix3 p s (0 : Fin 1)) := by
  refine broadcastTo_apply v h (ix3 p s z) (ix3 p s (0 : Fin 1)) fun ax => ?_
  match ax with
  | ⟨0, _⟩ =>
    show p.val = if a = 1 then 0 else p.val
    split
    · have := p.isLt; omega
    · rfl
  | ⟨1, _⟩ =>
    show s.val = if b = 1 then 0 else s.val
    split
    · have := s.isLt; omega
    · rfl
  | ⟨2, _⟩ => rfl

end Cert.LibRows
-- ==== Proof.KIVal0.lean ====
/-
  What the first kernel region leaves in the effective-weight array: at every index the quantised weight — the row's
  entries divided by the row's scale, rounded to the nearest even integer and clamped to [-1, 1], times the scale —
  plus 0.1 · fast + 0.05 · slow. A block of 128 rows depends only on the same 128 rows of the three inputs: the row sums
  of absolute values run over a whole row, which lies in the block.
-/
import proofs.«139551_j86955907875211_1_alg».proof.Proof.KIReg0
import proofs.«139551_j86955907875211_1_alg».proof.Proof.Spec
import proofs.«139551_j86955907875211_1_alg».proof.Proof.LibLayout
import proofs.«139551_j86955907875211_1_alg».proof.Proof.LibRows
import Idealize.ShloMosaic.Lib.Pipeline.Value
import Idealize.ShloMosaic.Lib.ValueIdx
import Idealize.ShloMosaic.PureOps.Ideal.Laws

set_option maxRecDepth 16384

noncomputable section

namespace Cert.KernelIdeal.Val0

open Idealize.ShloMosaic Idealize.ShloMosaic.TcCoe Idealize.ShloMosaic.ValueIdx Idealize.SL.Sem
open Cert.KernelIdeal Cert.KernelIdeal.Gen Cert.Spec
open Idealize.ShloMosaic.Pipeline (Dat)

/-- The block's payload at row `p`, column `q`, from the three loaded blocks: the scale of row `p` is the clipped mean of
    the absolute values along the row. -/
theorem pay0_apply (x0 x1 x2 : Vec Ideal S128x4096 .f32) (p : Fin 128) (q : Fin 4096) :
    k0_pay1 x0 x1 x2 (ix2 p q)
      = (min (lit 0x3F800000#32) (max (lit 0xBF800000#32)
            (Ideal.liftRound Ideal.roundHalfEven (Ideal.div (x0 (ix2 p q))
              (max (lit 0x3727C5AC#32) (Ideal.div (∑ k : Fin 4096, max (x0 (ix2 p k)) (-(x0 (ix2 p k)))) (lit 0x45800000#32))))))
          * (max (lit 0x3727C5AC#32) (Ideal.div (∑ k : Fin 4096, max (x0 (ix2 p k)) (-(x0 (ix2 p k)))) (lit 0x45800000#32)))
          + lit 0x3DCCCCCD#32 * x1 (ix2 p q)) + lit 0x3D4CCCCD#32 * x2 (ix2 p q) := by
  unfold k0_pay1
  have hrow : (maximumf (broadcast S128x1 (FloatOps.ofBits FTy.f32 0x3727C5AC#32))
        (divf (shapeCast S128x1 (multiReduction FKind.add [1] S128 (absf x0) (0#32) reduces_S128x4096_S128 (.inl rfl) rfl) shapeCasts_S128_S128x1)
          (broadcast S128x1 (FloatOps.ofBits FTy.f32 0x45800000#32))) : FVec Ideal S128x1 .f32) (ix2 p (0 : Fin 1))
      = max (lit 0x3727C5AC#32) (Ideal.div (∑ k : Fin 4096, max (x0 (ix2 p k)) (-(x0 (ix2 p k)))) (lit 0x45800000#32)) := by
    rw [ValueIdx.maximumf_apply, ValueIdx.divf_apply, Cert.LibLayout.shapeCast_a_a1_apply]
    exact congrArg (fun s => max (lit 0x3727C5AC#32) (Ideal.div s (lit 0x45800000#32)))
      (Cert.LibRows.rowSum_apply (φ := .f32) (absf x0) 0x00000000#32 reduces_S128x4096_S128 (.inl rfl) rfl p)
  generalize (maximumf (broadcast S128x1 (FloatOps.ofBits FTy.f32 0x3727C5AC#32))
        (divf (shapeCast S128x1 (multiReduction FKind.add [1] S128 (absf x0) (0#32) reduces_S128x4096_S128 (.inl rfl) rfl) shapeCasts_S128_S128x1)
          (broadcast S128x1 (FloatOps.ofBits FTy.f32 0x45800000#32))) : FVec Ideal S128x1 .f32) = T at hrow ⊢
  show (min (lit 0x3F800000#32) (max (lit 0xBF800000#32) (Ideal.liftRound Ideal.roundHalfEven (Ideal.div (x0 (ix2 p q))
        (broadcastTo S128x4096 T broadcasts_S128x1_S128x4096 (ix2 p q))))) * broadcastTo S128x4096 T broadcasts_S128x1_S128x4096 (ix2 p q)
      + lit 0x3DCCCCCD#32 * x1 (ix2 p q)) + lit 0x3D4CCCCD#32 * x2 (ix2 p q) = _
  rw [Cert.LibLayout.broadcastTo_a1_ab_apply T broadcasts_S128x1_S128x4096 p q, hrow]

/-- The same with the three blocks known to be rows `r` of three whole arrays: the block's row `p` is the arrays'
    row `r`, along which the scale's sum runs. -/
theorem pay0_eq_weffAt (x0 x1 x2 : Vec Ideal S128x4096 .f32) (w f s : Arr) (r : Fin 4096) (p : Fin 128) (q : Fin 4096)
    (h0 : ∀ k : Fin 4096, x0 (ix2 p k) = w (ix2 r k)) (h1 : x1 (ix2 p q) = f (ix2 r q)) (h2 : x2 (ix2 p q) = s (ix2 r q)) :
    k0_pay1 x0 x1 x2 (ix2 p q) = weffAt w f s r q := by
  rw [pay0_apply, h1, h2, h0 q]
  have hs : (∑ k : Fin 4096, max (x0 (ix2 p k)) (-(x0 (ix2 p k)))) = ∑ k : Fin 4096, max (w (ix2 r k)) (-(w (ix2 r k))) :=
    Finset.sum_congr rfl fun k _ => by rw [h0 k]
  rw [hs]
  rfl

variable (V : (c : Dev nD) → (b : Ref sig .tc) → Buf (Elt Ideal) ((c : Thread nD τ).loc b))

theorem hz0 : (![0, 0] : Fin 2 → Nat) = fun _ => 0 := funext fun a => by fin_cases a <;> rfl

/-- The printed index maps over the grid: point `t` takes block row `t` of every window, and the one block column. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What point `t` writes back is block `t` of the effective weight of the three argument arrays as the region finds
    them. -/
theorem flushed0_eq (c : Dev nD) (t : Fin cfg0.N) :
    (dat0 (F := Ideal) V c).flushed 3 t
      = ((cfg0.win 3).blk t).view.read (Elt Ideal) (weff (V c main_arg1) (V c main_arg2) (V c main_arg3)) := by
  show (cfg0.win 3).cut (grid0.coords t) ((dat0 V c).after 3 t) = _
  rw [after0_3]
  unfold out0_3
  rw [View.canon_unit_zero hz0]
  simp only [View.ld_unit_zero (S := S128x4096) hz0]
  obtain ⟨e00, e01, e10, e11, e20, e21, e30, e31⟩ := idx_facts0 t
  have htN : t.val < 32 := lt_of_lt_of_eq t.isLt N_0
  funext j
  obtain ⟨p, q, rfl⟩ : ∃ (p : Fin 128) (q : Fin 4096), j = ix2 p q := ⟨j 0, j 1, eq_ix2 j⟩
  have hp := p.isLt
  have hq := q.isLt
  let r : Fin 4096 := ⟨t.val * 128 + p.val, by omega⟩
  have hrv : r.val = t.val * 128 + p.val := rfl
  refine (pay0_eq_weffAt _ _ _ (V c main_arg1) (V c main_arg2) (V c main_arg3) r p q (fun k => ?_) ?_ ?_).trans ?_
  · show V c main_arg1 (((cfg0.win 0).blk t).view.emb (ix2 p k)) = V c main_arg1 (ix2 r k)
    refine congrArg (V c main_arg1) (funext fun a => Fin.ext ?_)
    match a with
    | ⟨0, _⟩ => show win0_0.index t (0 : Fin 2) * 128 + 1 * p.val = r.val; omega
    | ⟨1, _⟩ => show win0_0.index t (1 : Fin 2) * 4096 + 1 * k.val = k.val; omega
  · show V c main_arg2 (((cfg0.win 1).blk t).view.emb (ix2 p q)) = V c main_arg2 (ix2 r q)
    refine congrArg (V c main_arg2) (funext fun a => Fin.ext ?_)
    match a with
    | ⟨0, _⟩ => show win0_1.index t (0 : Fin 2) * 128 + 1 * p.val = r.val; omega
    | ⟨1, _⟩ => show win0_1.index t (1 : Fin 2) * 4096 + 1 * q.val = q.val; omega
  · show V c main_arg3 (((cfg0.win 2).blk t).view.emb (ix2 p q)) = V c main_arg3 (ix2 r q)
    refine congrArg (V c main_arg3) (funext fun a => Fin.ext ?_)
    match a with
    | ⟨0, _⟩ => show win0_2.index t (0 : Fin 2) * 128 + 1 * p.val = r.val; omega
    | ⟨1, _⟩ => show win0_2.index t (1 : Fin 2) * 4096 + 1 * q.val = q.val; omega
  · show weffAt _ _ _ r q = weffAt (V c main_arg1) (V c main_arg2) (V c main_arg3)
        (row (((cfg0.win 3).blk t).view.emb (ix2 p q))) (col (((cfg0.win 3).blk t).view.emb (ix2 p q)))
    have hr' : row (((cfg0.win 3).blk t).view.emb (ix2 p q)) = r :=
      Fin.ext (by show win0_3.index t (0 : Fin 2) * 128 + 1 * p.val = r.val; omega)
    have hq' : col (((cfg0.win 3).blk t).view.emb (ix2 p q)) = q :=
      Fin.ext (by show win0_3.index t (1 : Fin 2) * 4096 + 1 * q.val = q.val; omega)
    rw [hr', hq']

/-- An index of the array is in point `t`'s block iff each coordinate is in the block's range on its axis. -/
theorem mem_blk0 (t : Fin cfg0.N) (i : S4096x4096.Idx) :
    i ∈ ((cfg0.win 3).blk t).view.set ↔ ∀ a : Fin 2, win0_3.index t a * S128x4096.size a ≤ (i a).val ∧ (i a).val < win0_3.index t a * S128x4096.size a + S128x4096.size a := by
  show i ∈ ((View.whole main_v0).slice (win0_3.rect t)).set ↔ _
  rw [View.set_slice_whole, Rect.mem_set_unit]
  exact Iff.rfl

/-- Every index lies in the block of the point that takes its row's block. -/
theorem cover0 (i : S4096x4096.Idx) : ∃ t : Fin cfg0.N, (cfg0.win 3).flush t = true ∧ i ∈ ((cfg0.win 3).blk t).view.set := by
  have hi0 : (i 0).val < 4096 := (i 0).isLt
  have hi1 : (i 1).val < 4096 := (i 1).isLt
  let t : Fin cfg0.N := ⟨(i 0).val / 128, lt_of_lt_of_eq (by omega : (i 0).val / 128 < 32) N_0.symm⟩
  have ht : t.val = (i 0).val / 128 := rfl
  obtain ⟨e00, e01, e10, e11, e20, e21, e30, e31⟩ := idx_facts0 t
  refine ⟨t, flush0_3 t, ?_⟩
  rw [mem_blk0]
  intro a
  match a with
  | ⟨0, _⟩ => show win0_3.index t (0 : Fin 2) * 128 ≤ (i 0).val ∧ (i 0).val < win0_3.index t (0 : Fin 2) * 128 + 128; omega
  | ⟨1, _⟩ => show win0_3.index t (1 : Fin 2) * 4096 ≤ (i 1).val ∧ (i 1).val < win0_3.index t (1 : Fin 2) * 4096 + 4096; omega

/-- The effective-weight array after the region. -/
theorem final0 (c : Dev nD) :
    (dat0 (F := Ideal) V c).arrAt 3 cfg0.N = weff (V c main_arg1) (V c main_arg2) (V c main_arg3) :=
  (dat0 (F := Ideal) V c).arrAt_eq_of_cover 3 _ (fun t _ => flushed0_eq V c t) cover0

end Cert.KernelIdeal.Val0

end
-- ==== Proof.KIVal1.lean ====
/-
  What the second kernel region leaves in its two output arrays. The scratch accumulator, zeroed at the first of the
  four blocks of the contracted axis, gains at each block the products of a row of the input block with a row of the
  effective-weight block; after the fourth block it holds the full sum over the 4096 contracted positions, which is the
  entry of x · weffᵀ, and its clamp below at zero is the activation's entry.
-/
import proofs.«139551_j86955907875211_1_alg».proof.Proof.KIReg1
import proofs.«139551_j86955907875211_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Val1

open Idealize.ShloMosaic Idealize.ShloMosaic.TcCoe Idealize.ShloMosaic.ValueIdx Idealize.SL.Sem
open Cert.KernelIdeal Cert.KernelIdeal.Gen Cert.Spec
open Idealize.ShloMosaic.Pipeline (Dat)

/-- A sum over 4096 positions, taken in four consecutive blocks of 1024 accumulated from zero. -/
theorem sum_four (g : Fin 4096 → EReal) :
    ∑ k : Fin 4096, g k
      = (((0 + ∑ k : Fin 1024, g ⟨k.val, by have := k.isLt; omega⟩) + ∑ k : Fin 1024, g ⟨1024 + k.val, by have := k.isLt; omega⟩)
          + ∑ k : Fin 1024, g ⟨2048 + k.val, by have := k.isLt; omega⟩) + ∑ k : Fin 1024, g ⟨3072 + k.val, by have := k.isLt; omega⟩ := by
  have h3 := Fin.sum_univ_add (a := 3072) (b := 1024) g
  have h2 := Fin.sum_univ_add (a := 2048) (b := 1024) (fun i : Fin 3072 => g (Fin.castAdd 1024 i))
  have h1 := Fin.sum_univ_add (a := 1024) (b := 1024) (fun i : Fin 2048 => g (Fin.castAdd 1024 (Fin.castAdd 1024 i)))
  rw [h3, h2, h1, zero_add]
  rfl

/-- The matrix unit's operand indices at output index `i` and contraction index `k`: row `i 0` of the left operand, row
    `i 1` of the right, position `k` of both. -/
theorem lhs1_0 (i : S512x512.Idx) (k : dot_S512x1024_S512x1024_S512x512_1_1_0_0_n_n.contr.Idx) : (dot_S512x1024_S512x1024_S512x512_1_1_0_0_n_n.lhsIdx i k 0).val = (i 0).val := by
  unfold DotDims.lhsIdx
  rw [dif_neg (show ¬(0 : Fin S512x1024.rank) ∈ dot_S512x1024_S512x1024_S512x512_1_1_0_0_n_n.lhsBatch by decide), dif_pos (show (0 : Fin S512x1024.rank) ∈ dot_S512x1024_S512x1024_S512x512_1_1_0_0_n_n.lhsNonContracting by decide)]
  rfl
theorem lhs1_1 (i : S512x512.Idx) (k : dot_S512x1024_S512x1024_S512x512_1_1_0_0_n_n.contr.Idx) : (dot_S512x1024_S512x1024_S512x512_1_1_0_0_n_n.lhsIdx i k 1).val = (k ⟨0, by decide⟩).val :=
  dot_S512x1024_S512x1024_S512x512_1_1_0_0_n_n.lhsIdx_val_of_single rfl i k
theorem rhs1_0 (i : S512x512.Idx) (k : dot_S512x1024_S512x1024_S512x512_1_1_0_0_n_n.contr.Idx) : (dot_S512x1024_S512x1024_S512x512_1_1_0_0_n_n.rhsIdx i k 0).val = (i 1).val := by
  unfold DotDims.rhsIdx
  rw [dif_neg (show ¬(0 : Fin S512x1024.rank) ∈ dot_S512x1024_S512x1024_S512x512_1_1_0_0_n_n.rhsBatch by decide), dif_pos (show (0 : Fin S512x1024.rank) ∈ dot_S512x1024_S512x1024_S512x512_1_1_0_0_n_n.rhsNonContracting by decide)]
  rfl
theorem rhs1_1 (i : S512x512.Idx) (k : dot_S512x1024_S512x1024_S512x512_1_1_0_0_n_n.contr.Idx) : (dot_S512x1024_S512x1024_S512x512_1_1_0_0_n_n.rhsIdx i k 1).val = (k ⟨0, by decide⟩).val :=
  dot_S512x1024_S512x1024_S512x512_1_1_0_0_n_n.rhsIdx_val_of_single rfl i k

/-- One accumulation step at row `p`, column `q`: the accumulator's entry plus the products of row `p` of the input block
    with row `q` of the weight block (the matrix unit contracts the second axis of both). -/
theorem step1_apply (x : Vec Ideal S512x1024 .f32) (w : Vec Ideal S512x1024 .bf16) (a : Vec Ideal S512x512 .f32) (p q : Fin 512) :
    step1 x w a (ix2 p q) = a (ix2 p q) + ∑ k : Fin 1024, x (ix2 p k) * w (ix2 q k) := by
  unfold step1 k1_pay2
  simp only [shapeCast_self]
  rw [ValueIdx.addf_apply]
  simp only [matmul]
  rw [Ideal.matmul_constant_zero_apply, ← Equiv.sum_comp (ValueIdx.contrEquiv1 dot_S512x1024_S512x1024_S512x512_1_1_0_0_n_n 1024 rfl rfl).symm]
  refine congrArg (a (ix2 p q) + ·) (Finset.sum_congr rfl fun k _ => ?_)
  have hk := ValueIdx.contrEquiv1_symm_val dot_S512x1024_S512x1024_S512x512_1_1_0_0_n_n 1024 rfl rfl k
  have el : dot_S512x1024_S512x1024_S512x512_1_1_0_0_n_n.lhsIdx (ix2 p q) ((ValueIdx.contrEquiv1 dot_S512x1024_S512x1024_S512x512_1_1_0_0_n_n 1024 rfl rfl).symm k) = ix2 p k := funext fun ax => Fin.ext (by
    match ax with
    | ⟨0, _⟩ => exact lhs1_0 _ _
    | ⟨1, _⟩ => exact (lhs1_1 _ _).trans hk)
  have er : dot_S512x1024_S512x1024_S512x512_1_1_0_0_n_n.rhsIdx (ix2 p q) ((ValueIdx.contrEquiv1 dot_S512x1024_S512x1024_S512x512_1_1_0_0_n_n 1024 rfl rfl).symm k) = ix2 q k := funext fun ax => Fin.ext (by
    match ax with
    | ⟨0, _⟩ => exact rhs1_0 _ _
    | ⟨1, _⟩ => exact (rhs1_1 _ _).trans hk)
  rw [el, er]
  rfl

/-- The accumulator starts at zero, -/
theorem zero1_apply (i : S512x512.Idx) : (zero1 : Vec Ideal S512x512 .f32) i = 0 := by
  unfold zero1 k1_pay1
  simp only [shapeCast_self]
  exact Ideal.ofBits_zero_f32

/-- and the activation is its clamp below at zero. -/
theorem relu1_apply (a : Vec Ideal S512x512 .f32) (i : S512x512.Idx) : relu1 a i = max (a i) (lit 0x00000000#32) := rfl

variable (V : (c : Dev nD) → (b : Ref sig .tc) → Buf (Elt Ideal) ((c : Thread nD τ).loc b))

theorem acc1_succ' (c : Dev nD) (n : ℕ) (hn : n + 1 < cfg1.N) (h : (n + 1) % 4 ≠ 0) :
    acc1 V c (n + 1) hn = step1 (iblk1 V c 0 ⟨n + 1, hn⟩) (iblk1 V c 1 ⟨n + 1, hn⟩) (acc1 V c n (Nat.lt_of_succ_lt hn)) := by
  rw [acc1, if_neg h]

theorem acc1_zero' (c : Dev nD) (n : ℕ) (hn : n < cfg1.N) (h : n % 4 = 0) :
    acc1 V c n hn = step1 (iblk1 V c 0 ⟨n, hn⟩) (iblk1 V c 1 ⟨n, hn⟩) zero1 := by
  cases n with
  | zero => rfl
  | succ n => rw [acc1, if_pos h]

/-- The products of one block of the contracted axis, at point `t`, row `p`, column `q`. -/
def dotRow (x : Vec Ideal S512x1024 .f32) (w : Vec Ideal S512x1024 .bf16) (p q : Fin 512) : EReal :=
  ∑ k : Fin 1024, x (ix2 p k) * w (ix2 q k)
def blockSum (c : Dev nD) (t : Fin cfg1.N) (p q : Fin 512) : EReal := dotRow (iblk1 V c 0 t) (iblk1 V c 1 t) p q

/-- The two arrays the region reads, as arrays of extended reals. -/
abbrev xArr (c : Dev nD) : Arr := V c main_arg0
abbrev wArr (c : Dev nD) : Arr := V c main_v0

/-- After the four points of one output block the accumulator holds the four blocks' sums, added from zero in order. -/
theorem acc1_four (c : Dev nD) (m : ℕ) (hm : m + 3 < cfg1.N) (h0 : m % 4 = 0) (p q : Fin 512) :
    acc1 V c (m + 3) hm (ix2 p q)
      = (((0 + blockSum V c ⟨m, by omega⟩ p q) + blockSum V c ⟨m + 1, by omega⟩ p q) + blockSum V c ⟨m + 2, by omega⟩ p q)
          + blockSum V c ⟨m + 3, hm⟩ p q := by
  have e3 : acc1 V c (m + 3) hm (ix2 p q) = acc1 V c (m + 2) (by omega) (ix2 p q) + blockSum V c ⟨m + 3, hm⟩ p q :=
    (congrFun (acc1_succ' V c (m + 2) hm (by omega)) _).trans ((step1_apply _ _ _ p q).trans rfl)
  have e2 : acc1 V c (m + 2) (by omega) (ix2 p q) = acc1 V c (m + 1) (by omega) (ix2 p q) + blockSum V c ⟨m + 2, by omega⟩ p q :=
    (congrFun (acc1_succ' V c (m + 1) (by omega) (by omega)) _).trans ((step1_apply _ _ _ p q).trans rfl)
  have e1 : acc1 V c (m + 1) (by omega) (ix2 p q) = acc1 V c m (by omega) (ix2 p q) + blockSum V c ⟨m + 1, by omega⟩ p q :=
    (congrFun (acc1_succ' V c m (by omega) (by omega)) _).trans ((step1_apply _ _ _ p q).trans rfl)
  have e0 : acc1 V c m (by omega) (ix2 p q) = 0 + blockSum V c ⟨m, by omega⟩ p q :=
    (congrFun (acc1_zero' V c m (by omega) h0) _).trans ((step1_apply _ _ _ p q).trans (by rw [zero1_apply]; rfl))
  rw [e3, e2, e1, e0]

/-- The printed index maps over the grid: the point `t = (i · 8 + j) · 4 + b` takes block `(i, b)` of the input, block
    `(j, b)` of the weight and block `(i, j)` of both outputs. -/
theorem idx_facts1 : ∀ t : Fin cfg1.N, win1_0.index t (0 : Fin 2) = t.val / 32 ∧ win1_0.index t (1 : Fin 2) = t.val % 4
    ∧ win1_1.index t (0 : Fin 2) = t.val / 4 % 8 ∧ win1_1.index t (1 : Fin 2) = t.val % 4
    ∧ win1_2.index t (0 : Fin 2) = t.val / 32 ∧ win1_2.index t (1 : Fin 2) = t.val / 4 % 8
    ∧ win1_3.index t (0 : Fin 2) = t.val / 32 ∧ win1_3.index t (1 : Fin 2) = t.val / 4 % 8 :=
  (by decide +kernel : ∀ t : Fin grid1.N, _)

/-- A block's sum is the corresponding 1024 terms of the whole row's sum. -/
theorem blockSum_eq (c : Dev nD) (t : Fin cfg1.N) (p q : Fin 512) (n o : Fin 4096)
    (hn : n.val = t.val / 32 * 512 + p.val) (ho : o.val = t.val / 4 % 8 * 512 + q.val) :
    blockSum V c t p q = ∑ k : Fin 1024, (fun kk : Fin 4096 => xArr V c (ix2 n kk) * wArr V c (ix2 o kk))
      ⟨t.val % 4 * 1024 + k.val, by have := k.isLt; have : t.val % 4 < 4 := Nat.mod_lt _ (by decide); omega⟩ := by
  obtain ⟨e00, e01, e10, e11, -, -, -, -⟩ := idx_facts1 t
  unfold blockSum dotRow
  refine Finset.sum_congr rfl fun k _ => ?_
  have hk := k.isLt
  have hb : t.val % 4 < 4 := Nat.mod_lt _ (by decide)
  have hx : (iblk1 V c 0 t : Vec Ideal S512x1024 .f32) (ix2 p k) = xArr V c (ix2 n ⟨t.val % 4 * 1024 + k.val, by omega⟩) := by
    show V c main_arg0 (((cfg1.win 0).blk t).view.emb (ix2 p k)) = _
    refine congrArg (V c main_arg0) (funext fun a => Fin.ext ?_)
    match a with
    | ⟨0, _⟩ => show win1_0.index t (0 : Fin 2) * 512 + 1 * p.val = n.val; omega
    | ⟨1, _⟩ => show win1_0.index t (1 : Fin 2) * 1024 + 1 * k.val = t.val % 4 * 1024 + k.val; omega
  have hw : (iblk1 V c 1 t : Vec Ideal S512x1024 .bf16) (ix2 q k) = wArr V c (ix2 o ⟨t.val % 4 * 1024 + k.val, by omega⟩) := by
    show V c main_v0 (((cfg1.win 1).blk t).view.emb (ix2 q k)) = _
    refine congrArg (V c main_v0) (funext fun a => Fin.ext ?_)
    match a with
    | ⟨0, _⟩ => show win1_1.index t (0 : Fin 2) * 512 + 1 * q.val = o.val; omega
    | ⟨1, _⟩ => show win1_1.index t (1 : Fin 2) * 1024 + 1 * k.val = t.val % 4 * 1024 + k.val; omega
  rw [hx, hw]

/-- At the last point of an output block the accumulator's entry is the whole contraction. -/
theorem acc1_flush (c : Dev nD) (t : Fin cfg1.N) (h3 : t.val % 4 = 3) (p q : Fin 512) (n o : Fin 4096)
    (hn : n.val = t.val / 32 * 512 + p.val) (ho : o.val = t.val / 4 % 8 * 512 + q.val) :
    acc1 V c t.val t.isLt (ix2 p q) = ymatAt (xArr V c) (wArr V c) n o := by
  obtain ⟨tv, htv⟩ := t
  obtain ⟨m, rfl⟩ : ∃ m, tv = m + 3 := ⟨tv - 3, by have : tv % 4 = 3 := h3; omega⟩
  have h0 : m % 4 = 0 := by have : (m + 3) % 4 = 3 := h3; omega
  have hn' : n.val = (m + 3) / 32 * 512 + p.val := hn
  have ho' : o.val = (m + 3) / 4 % 8 * 512 + q.val := ho
  rw [show acc1 V c (⟨m + 3, htv⟩ : Fin cfg1.N).val (⟨m + 3, htv⟩ : Fin cfg1.N).isLt = acc1 V c (m + 3) htv from rfl,
    acc1_four V c m htv h0 p q]
  rw [blockSum_eq V c ⟨m, by omega⟩ p q n o (by show n.val = m / 32 * 512 + p.val; omega) (by show o.val = m / 4 % 8 * 512 + q.val; omega),
    blockSum_eq V c ⟨m + 1, by omega⟩ p q n o (by show n.val = (m + 1) / 32 * 512 + p.val; omega) (by show o.val = (m + 1) / 4 % 8 * 512 + q.val; omega),
    blockSum_eq V c ⟨m + 2, by omega⟩ p q n o (by show n.val = (m + 2) / 32 * 512 + p.val; omega) (by show o.val = (m + 2) / 4 % 8 * 512 + q.val; omega),
    blockSum_eq V c ⟨m + 3, htv⟩ p q n o hn' ho']
  show _ = ∑ k : Fin 4096, (fun kk : Fin 4096 => xArr V c (ix2 n kk) * wArr V c (ix2 o kk)) k
  rw [sum_four]
  refine congrArg₂ (· + ·) (congrArg₂ (· + ·) (congrArg₂ (· + ·) (congrArg (0 + ·) ?_) ?_) ?_) ?_
  · exact Finset.sum_congr rfl fun k _ => congrArg (fun kk : Fin 4096 => xArr V c (ix2 n kk) * wArr V c (ix2 o kk)) (Fin.ext (by dsimp only; omega))
  · exact Finset.sum_congr rfl fun k _ => congrArg (fun kk : Fin 4096 => xArr V c (ix2 n kk) * wArr V c (ix2 o kk)) (Fin.ext (by dsimp only; omega))
  · exact Finset.sum_congr rfl fun k _ => congrArg (fun kk : Fin 4096 => xArr V c (ix2 n kk) * wArr V c (ix2 o kk)) (Fin.ext (by dsimp only; omega))
  · exact Finset.sum_congr rfl fun k _ => congrArg (fun kk : Fin 4096 => xArr V c (ix2 n kk) * wArr V c (ix2 o kk)) (Fin.ext (by dsimp only; omega))

/-- What the last point of an output block writes back to the product array is that block of x · weᵀ. -/
theorem flushed1_2_eq (c : Dev nD) (t : Fin cfg1.N) (hf : (cfg1.win 2).flush t = true) :
    (dat1 (F := Ideal) V c).flushed 2 t = ((cfg1.win 2).blk t).view.read (Elt Ideal) (ymat (xArr V c) (wArr V c)) := by
  have h3 : t.val % 4 = 3 := (flush1_2 t).mp hf
  show (cfg1.win 2).cut (grid1.coords t) ((dat1 V c).after 2 t) = _
  rw [after1_2]
  obtain ⟨-, -, -, -, e20, e21, -, -⟩ := idx_facts1 t
  have htN : t.val < 256 := lt_of_lt_of_eq t.isLt N_1
  funext j
  obtain ⟨p, q, rfl⟩ : ∃ (p q : Fin 512), j = ix2 p q := ⟨j 0, j 1, eq_ix2 j⟩
  have hp := p.isLt
  have hq := q.isLt
  let n : Fin 4096 := ⟨t.val / 32 * 512 + p.val, by omega⟩
  let o : Fin 4096 := ⟨t.val / 4 % 8 * 512 + q.val, by omega⟩
  refine (acc1_flush V c t h3 p q n o rfl rfl).trans ?_
  show ymatAt _ _ n o = ymatAt (xArr V c) (wArr V c) (row (((cfg1.win 2).blk t).view.emb (ix2 p q))) (col (((cfg1.win 2).blk t).view.emb (ix2 p q)))
  have hr' : row (((cfg1.win 2).blk t).view.emb (ix2 p q)) = n :=
    Fin.ext (by show win1_2.index t (0 : Fin 2) * 512 + 1 * p.val = t.val / 32 * 512 + p.val; omega)
  have hq' : col (((cfg1.win 2).blk t).view.emb (ix2 p q)) = o :=
    Fin.ext (by show win1_2.index t (1 : Fin 2) * 512 + 1 * q.val = t.val / 4 % 8 * 512 + q.val; omega)
  rw [hr', hq']

/-- and to the activation array the same block of its clamp below at zero. -/
theorem flushed1_3_eq (c : Dev nD) (t : Fin cfg1.N) (hf : (cfg1.win 3).flush t = true) :
    (dat1 (F := Ideal) V c).flushed 3 t = ((cfg1.win 3).blk t).view.read (Elt Ideal) (yact (ymat (xArr V c) (wArr V c))) := by
  have h3 : t.val % 4 = 3 := (flush1_3 t).mp hf
  show (cfg1.win 3).cut (grid1.coords t) ((dat1 V c).after 3 t) = _
  rw [after1_3]
  obtain ⟨-, -, -, -, -, -, e30, e31⟩ := idx_facts1 t
  have htN : t.val < 256 := lt_of_lt_of_eq t.isLt N_1
  funext j
  obtain ⟨p, q, rfl⟩ : ∃ (p q : Fin 512), j = ix2 p q := ⟨j 0, j 1, eq_ix2 j⟩
  have hp := p.isLt
  have hq := q.isLt
  let n : Fin 4096 := ⟨t.val / 32 * 512 + p.val, by omega⟩
  let o : Fin 4096 := ⟨t.val / 4 % 8 * 512 + q.val, by omega⟩
  show max (acc1 V c t.val t.isLt (ix2 p q)) (lit 0x00000000#32) = yact (ymat (xArr V c) (wArr V c)) (((cfg1.win 3).blk t).view.emb (ix2 p q))
  rw [acc1_flush V c t h3 p q n o rfl rfl]
  show max (ymatAt _ _ n o) _ = max (ymatAt (xArr V c) (wArr V c) (row (((cfg1.win 3).blk t).view.emb (ix2 p q))) (col (((cfg1.win 3).blk t).view.emb (ix2 p q)))) _
  have hr' : row (((cfg1.win 3).blk t).view.emb (ix2 p q)) = n :=
    Fin.ext (by show win1_3.index t (0 : Fin 2) * 512 + 1 * p.val = t.val / 32 * 512 + p.val; omega)
  have hq' : col (((cfg1.win 3).blk t).view.emb (ix2 p q)) = o :=
    Fin.ext (by show win1_3.index t (1 : Fin 2) * 512 + 1 * q.val = t.val / 4 % 8 * 512 + q.val; omega)
  rw [hr', hq']

theorem mem_blk1_2 (t : Fin cfg1.N) (i : S4096x4096.Idx) :
    i ∈ ((cfg1.win 2).blk t).view.set ↔ ∀ a : Fin 2, win1_2.index t a * S512x512.size a ≤ (i a).val ∧ (i a).val < win1_2.index t a * S512x512.size a + S512x512.size a := by
  show i ∈ ((View.whole main_v1_0).slice (win1_2.rect t)).set ↔ _
  rw [View.set_slice_whole, Rect.mem_set_unit]
  exact Iff.rfl
theorem mem_blk1_3 (t : Fin cfg1.N) (i : S4096x4096.Idx) :
    i ∈ ((cfg1.win 3).blk t).view.set ↔ ∀ a : Fin 2, win1_3.index t a * S512x512.size a ≤ (i a).val ∧ (i a).val < win1_3.index t a * S512x512.size a + S512x512.size a := by
  show i ∈ ((View.whole main_v1_1).slice (win1_3.rect t)).set ↔ _
  rw [View.set_slice_whole, Rect.mem_set_unit]
  exact Iff.rfl

/-- Every index lies in the block written back at the last point of its block's run. -/
theorem cover1_2 (i : S4096x4096.Idx) : ∃ t : Fin cfg1.N, (cfg1.win 2).flush t = true ∧ i ∈ ((cfg1.win 2).blk t).view.set := by
  have hi0 : (i 0).val < 4096 := (i 0).isLt
  have hi1 : (i 1).val < 4096 := (i 1).isLt
  let t : Fin cfg1.N := ⟨(i 0).val / 512 * 32 + (i 1).val / 512 * 4 + 3, lt_of_lt_of_eq (by omega : (i 0).val / 512 * 32 + (i 1).val / 512 * 4 + 3 < 256) N_1.symm⟩
  have ht : t.val = (i 0).val / 512 * 32 + (i 1).val / 512 * 4 + 3 := rfl
  obtain ⟨-, -, -, -, e20, e21, -, -⟩ := idx_facts1 t
  refine ⟨t, (flush1_2 t).mpr (by omega), ?_⟩
  rw [mem_blk1_2]
  intro a
  match a with
  | ⟨0, _⟩ => show win1_2.index t (0 : Fin 2) * 512 ≤ (i 0).val ∧ (i 0).val < win1_2.index t (0 : Fin 2) * 512 + 512; omega
  | ⟨1, _⟩ => show win1_2.index t (1 : Fin 2) * 512 ≤ (i 1).val ∧ (i 1).val < win1_2.index t (1 : Fin 2) * 512 + 512; omega
theorem cover1_3 (i : S4096x4096.Idx) : ∃ t : Fin cfg1.N, (cfg1.win 3).flush t = true ∧ i ∈ ((cfg1.win 3).blk t).view.set := by
  have hi0 : (i 0).val < 4096 := (i 0).isLt
  have hi1 : (i 1).val < 4096 := (i 1).isLt
  let t : Fin cfg1.N := ⟨(i 0).val / 512 * 32 + (i 1).val / 512 * 4 + 3, lt_of_lt_of_eq (by omega : (i 0).val / 512 * 32 + (i 1).val / 512 * 4 + 3 < 256) N_1.symm⟩
  have ht : t.val = (i 0).val / 512 * 32 + (i 1).val / 512 * 4 + 3 := rfl
  obtain ⟨-, -, -, -, -, -, e30, e31⟩ := idx_facts1 t
  refine ⟨t, (flush1_3 t).mpr (by omega), ?_⟩
  rw [mem_blk1_3]
  intro a
  match a with
  | ⟨0, _⟩ => show win1_3.index t (0 : Fin 2) * 512 ≤ (i 0).val ∧ (i 0).val < win1_3.index t (0 : Fin 2) * 512 + 512; omega
  | ⟨1, _⟩ => show win1_3.index t (1 : Fin 2) * 512 ≤ (i 1).val ∧ (i 1).val < win1_3.index t (1 : Fin 2) * 512 + 512; omega

/-- The two output arrays after the region. -/
theorem final1_2 (c : Dev nD) : (dat1 (F := Ideal) V c).arrAt 2 cfg1.N = ymat (xArr V c) (wArr V c) :=
  (dat1 (F := Ideal) V c).arrAt_eq_of_cover 2 _ (fun t hf => flushed1_2_eq V c t hf) cover1_2
theorem final1_3 (c : Dev nD) : (dat1 (F := Ideal) V c).arrAt 3 cfg1.N = yact (ymat (xArr V c) (wArr V c)) :=
  (dat1 (F := Ideal) V c).arrAt_eq_of_cover 3 _ (fun t hf => flushed1_3_eq V c t hf) cover1_3

end Cert.KernelIdeal.Val1

end
-- ==== Proof.KIPay23.lean ====
/-
  The values the kernel's third and fourth regions store, read at an index, on the extended reals.

  Third region (512 × 512 blocks, the contraction cut into pieces of 1024):
  * the accumulator starts from the zero word, which denotes 0;
  * one step adds to the accumulator a product that contracts axis 0 of BOTH operands: at (p, q) it is
    a(p, q) + Σₙ lhs(n, p) · rhs(n, q), n over the 1024 rows of the piece — the left operand's index at output (p, q)
    and contraction position n is (n, p), the right operand's (n, q); narrowing the right operand's format is the
    identity on extended reals, and the product starts from the zero word, which drops out;
  * the region's result is 0.95 · x2 + 0.05 · (a · 2⁻¹²), the literals kept as their words.

  Fourth region (128 × 4096 blocks): with c the one element of a 1 × 1 vector,
  * the first result is v2 · c, * the second 0.99 · v7 + 0.01 · (v2 · c).
-/
import proofs.«139551_j86955907875211_1_alg».proof.Proof.Gen.KernelIdeal.Skeleton
import proofs.«139551_j86955907875211_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Pay23

open Idealize.ShloMosaic Idealize.ShloMosaic.ValueIdx Cert.KernelIdeal Cert.KernelIdeal.Gen Cert.Spec

/-! ## The third region: the accumulated product -/

/-- The accumulator's initial value is the zero word, which denotes 0. -/
theorem zero2_apply (i : S512x512.Idx) : (k2_pay1 (F := Ideal) : Vec Ideal S512x512 .f32) i = 0 := by
  unfold k2_pay1
  simp only [shapeCast_self]
  exact Ideal.ofBits_zero_f32

/-- The left operand's index on its contracted axis 0 is the contraction position. -/
theorem lhs2_0 (i : S512x512.Idx) (k : dot_S1024x512_S1024x512_S512x512_0_0_1_1_n_n.contr.Idx) :
    (dot_S1024x512_S1024x512_S512x512_0_0_1_1_n_n.lhsIdx i k 0).val = (k ⟨0, by decide⟩).val :=
  dot_S1024x512_S1024x512_S512x512_0_0_1_1_n_n.lhsIdx_val_of_single rfl i k

/-- The left operand's index on its kept axis 1 is the output's first coordinate. -/
theorem lhs2_1 (i : S512x512.Idx) (k : dot_S1024x512_S1024x512_S512x512_0_0_1_1_n_n.contr.Idx) :
    (dot_S1024x512_S1024x512_S512x512_0_0_1_1_n_n.lhsIdx i k 1).val = (i 0).val := by
  unfold DotDims.lhsIdx
  rw [dif_neg (show ¬(1 : Fin S1024x512.rank) ∈ dot_S1024x512_S1024x512_S512x512_0_0_1_1_n_n.lhsBatch by decide),
    dif_pos (show (1 : Fin S1024x512.rank) ∈ dot_S1024x512_S1024x512_S512x512_0_0_1_1_n_n.lhsNonContracting by decide)]
  rfl

/-- The right operand's index on its contracted axis 0 is the contraction position. -/
theorem rhs2_0 (i : S512x512.Idx) (k : dot_S1024x512_S1024x512_S512x512_0_0_1_1_n_n.contr.Idx) :
    (dot_S1024x512_S1024x512_S512x512_0_0_1_1_n_n.rhsIdx i k 0).val = (k ⟨0, by decide⟩).val :=
  dot_S1024x512_S1024x512_S512x512_0_0_1_1_n_n.rhsIdx_val_of_single rfl i k

/-- The right operand's index on its kept axis 1 is the output's second coordinate. -/
theorem rhs2_1 (i : S512x512.Idx) (k : dot_S1024x512_S1024x512_S512x512_0_0_1_1_n_n.contr.Idx) :
    (dot_S1024x512_S1024x512_S512x512_0_0_1_1_n_n.rhsIdx i k 1).val = (i 1).val := by
  unfold DotDims.rhsIdx
  rw [dif_neg (show ¬(1 : Fin S1024x512.rank) ∈ dot_S1024x512_S1024x512_S512x512_0_0_1_1_n_n.rhsBatch by decide),
    dif_pos (show (1 : Fin S1024x512.rank) ∈ dot_S1024x512_S1024x512_S512x512_0_0_1_1_n_n.rhsNonContracting by decide)]
  rfl

/-- One step of the accumulation at (p, q): the accumulator plus Σₙ lhs(n, p) · rhs(n, q). -/
theorem step2_apply (x0 : Vec Ideal S1024x512 .bf16) (x1 : Vec Ideal S1024x512 .f32) (a : Vec Ideal S512x512 .f32)
    (p q : Fin 512) :
    k2_pay2 x0 x1 a (ix2 p q) = a (ix2 p q) + ∑ n : Fin 1024, x0 (ix2 n p) * x1 (ix2 n q) := by
  unfold k2_pay2
  simp only [shapeCast_self]
  rw [ValueIdx.addf_apply]
  simp only [matmul]
  rw [Ideal.matmul_constant_zero_apply,
    ← Equiv.sum_comp (ValueIdx.contrEquiv1 dot_S1024x512_S1024x512_S512x512_0_0_1_1_n_n 1024 rfl rfl).symm]
  refine congrArg (a (ix2 p q) + ·) (Finset.sum_congr rfl fun k _ => ?_)
  have hk := ValueIdx.contrEquiv1_symm_val dot_S1024x512_S1024x512_S512x512_0_0_1_1_n_n 1024 rfl rfl k
  have el : dot_S1024x512_S1024x512_S512x512_0_0_1_1_n_n.lhsIdx (ix2 p q)
      ((ValueIdx.contrEquiv1 dot_S1024x512_S1024x512_S512x512_0_0_1_1_n_n 1024 rfl rfl).symm k) = ix2 k p :=
    funext fun ax => Fin.ext (by
      match ax with
      | ⟨0, _⟩ => exact (lhs2_0 _ _).trans hk
      | ⟨1, _⟩ => exact lhs2_1 _ _)
  have er : dot_S1024x512_S1024x512_S512x512_0_0_1_1_n_n.rhsIdx (ix2 p q)
      ((ValueIdx.contrEquiv1 dot_S1024x512_S1024x512_S512x512_0_0_1_1_n_n 1024 rfl rfl).symm k) = ix2 k q :=
    funext fun ax => Fin.ext (by
      match ax with
      | ⟨0, _⟩ => exact (rhs2_0 _ _).trans hk
      | ⟨1, _⟩ => exact rhs2_1 _ _)
  rw [el, er]; rfl

/-- The region's result: 0.95 · x2 + 0.05 · (a · 2⁻¹²), index by index. -/
theorem fin2_apply (a x2 : Vec Ideal S512x512 .f32) (i : S512x512.Idx) :
    k2_pay3 a x2 i = lit 0x3F733333#32 * x2 i + lit 0x3D4CCCCD#32 * (a i * lit 0x39800000#32) := by
  unfold k2_pay3
  rfl

/-! ## The fourth region: the scaled traces -/

/-- Reading the 1 × 1 vector at the position (0, 0) is reading it at the index (0, 0). -/
theorem extract00 (v0 : Vec Ideal S1x1 .f32) :
    extractAt ![0, 0] v0 Facts₀.inpos_S1x1_p0_0 = v0 (ix2 (0 : Fin 1) (0 : Fin 1)) :=
  congrArg v0 (funext fun a => Fin.ext (by match a with | ⟨0, _⟩ => rfl | ⟨1, _⟩ => rfl))

/-- The first result: v2 times the one scalar of v0. -/
theorem pay3_1_apply (v0 : Vec Ideal S1x1 .f32) (v2 : Vec Ideal S128x4096 .f32) (i : S128x4096.Idx) :
    k3_pay1 v0 v2 i = v2 i * v0 (ix2 (0 : Fin 1) (0 : Fin 1)) := by
  unfold k3_pay1
  simp only [shapeCast_self]
  show v2 i * extractAt ![0, 0] v0 Facts₀.inpos_S1x1_p0_0 = _
  rw [extract00]

/-- The second result: 0.99 · v7 + 0.01 · (the first result). -/
theorem pay3_2_apply (v0 : Vec Ideal S1x1 .f32) (v2 v7 : Vec Ideal S128x4096 .f32) (i : S128x4096.Idx) :
    k3_pay2 v0 v2 v7 i
      = lit 0x3F7D70A4#32 * v7 i + lit 0x3C23D70A#32 * (v2 i * v0 (ix2 (0 : Fin 1) (0 : Fin 1))) := by
  unfold k3_pay2
  show lit 0x3F7D70A4#32 * v7 i + lit 0x3C23D70A#32 * k3_pay1 v0 v2 i = _
  rw [pay3_1_apply]

end Cert.KernelIdeal.Pay23

end
-- ==== Proof.KIVal2.lean ====
/-
  What the third kernel region leaves in its output array. The scratch accumulator, zeroed at the first of the four
  blocks of the batch axis, gains at each block the products of a column of the activation block with a column of the
  input block; after the fourth block it holds the full sum over the 4096 batch positions, the entry of yactᵀ · x, and
  the stored value is 0.95 · fast + 0.05 · (that sum · 2⁻¹²).
-/
import proofs.«139551_j86955907875211_1_alg».proof.Proof.KIReg2
import proofs.«139551_j86955907875211_1_alg».proof.Proof.KIPay23
import proofs.«139551_j86955907875211_1_alg».proof.Proof.KIVal1
import proofs.«139551_j86955907875211_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Val2

open Idealize.ShloMosaic Idealize.ShloMosaic.TcCoe Idealize.ShloMosaic.ValueIdx Idealize.SL.Sem
open Cert.KernelIdeal Cert.KernelIdeal.Gen Cert.Spec Cert.KernelIdeal.Pay23
open Idealize.ShloMosaic.Pipeline (Dat)

variable (V : (c : Dev nD) → (b : Ref sig .tc) → Buf (Elt Ideal) ((c : Thread nD τ).loc b))

theorem acc2_succ' (c : Dev nD) (n : ℕ) (hn : n + 1 < cfg2.N) (h : (n + 1) % 4 ≠ 0) :
    acc2 V c (n + 1) hn = step2 (iblk2 V c 0 ⟨n + 1, hn⟩) (iblk2 V c 1 ⟨n + 1, hn⟩) (acc2 V c n (Nat.lt_of_succ_lt hn)) := by
  rw [acc2, if_neg h]

theorem acc2_zero' (c : Dev nD) (n : ℕ) (hn : n < cfg2.N) (h : n % 4 = 0) :
    acc2 V c n hn = step2 (iblk2 V c 0 ⟨n, hn⟩) (iblk2 V c 1 ⟨n, hn⟩) zero2 := by
  cases n with
  | zero => rfl
  | succ n => rw [acc2, if_pos h]

/-- The products of one block of the batch axis: column `p` of the activation block against column `q` of the input
    block. -/
def dotCol (x0 : Vec Ideal S1024x512 .bf16) (x1 : Vec Ideal S1024x512 .f32) (p q : Fin 512) : EReal :=
  ∑ n : Fin 1024, x0 (ix2 n p) * x1 (ix2 n q)
def blockSum (c : Dev nD) (t : Fin cfg2.N) (p q : Fin 512) : EReal := dotCol (iblk2 V c 0 t) (iblk2 V c 1 t) p q

/-- The three arrays the region reads, as arrays of extended reals. -/
abbrev yaArr (c : Dev nD) : Arr := V c main_v1_1
abbrev xArr (c : Dev nD) : Arr := V c main_arg0
abbrev fArr (c : Dev nD) : Arr := V c main_arg2

/-- After the four points of one output block the accumulator holds the four blocks' sums, added from zero in order. -/
theorem acc2_four (c : Dev nD) (m : ℕ) (hm : m + 3 < cfg2.N) (h0 : m % 4 = 0) (p q : Fin 512) :
    acc2 V c (m + 3) hm (ix2 p q)
      = (((0 + blockSum V c ⟨m, by omega⟩ p q) + blockSum V c ⟨m + 1, by omega⟩ p q) + blockSum V c ⟨m + 2, by omega⟩ p q)
          + blockSum V c ⟨m + 3, hm⟩ p q := by
  have e3 : acc2 V c (m + 3) hm (ix2 p q) = acc2 V c (m + 2) (by omega) (ix2 p q) + blockSum V c ⟨m + 3, hm⟩ p q :=
    (congrFun (acc2_succ' V c (m + 2) hm (by omega)) _).trans ((step2_apply _ _ _ p q).trans rfl)
  have e2 : acc2 V c (m + 2) (by omega) (ix2 p q) = acc2 V c (m + 1) (by omega) (ix2 p q) + blockSum V c ⟨m + 2, by omega⟩ p q :=
    (congrFun (acc2_succ' V c (m + 1) (by omega) (by omega)) _).trans ((step2_apply _ _ _ p q).trans rfl)
  have e1 : acc2 V c (m + 1) (by omega) (ix2 p q) = acc2 V c m (by omega) (ix2 p q) + blockSum V c ⟨m + 1, by omega⟩ p q :=
    (congrFun (acc2_succ' V c m (by omega) (by omega)) _).trans ((step2_apply _ _ _ p q).trans rfl)
  have e0 : acc2 V c m (by omega) (ix2 p q) = 0 + blockSum V c ⟨m, by omega⟩ p q :=
    (congrFun (acc2_zero' V c m (by omega) h0) _).trans ((step2_apply _ _ _ p q).trans (by rw [show (zero2 : Vec Ideal S512x512 .f32) (ix2 p q) = 0 from zero2_apply _]; rfl))
  rw [e3, e2, e1, e0]

/-- The printed index maps over the grid: the point `t = (i · 8 + j) · 4 + b` takes block `(b, i)` of the activation,
    block `(b, j)` of the input and block `(i, j)` of the fast trace and of the output. -/
theorem idx_facts2 : ∀ t : Fin cfg2.N, win2_0.index t (0 : Fin 2) = t.val % 4 ∧ win2_0.index t (1 : Fin 2) = t.val / 32
    ∧ win2_1.index t (0 : Fin 2) = t.val % 4 ∧ win2_1.index t (1 : Fin 2) = t.val / 4 % 8
    ∧ win2_2.index t (0 : Fin 2) = t.val / 32 ∧ win2_2.index t (1 : Fin 2) = t.val / 4 % 8
    ∧ win2_3.index t (0 : Fin 2) = t.val / 32 ∧ win2_3.index t (1 : Fin 2) = t.val / 4 % 8 :=
  (by decide +kernel : ∀ t : Fin grid2.N, _)

/-- A block's sum is the corresponding 1024 terms of the whole column's sum. -/
theorem blockSum_eq (c : Dev nD) (t : Fin cfg2.N) (p q : Fin 512) (o d : Fin 4096)
    (ho : o.val = t.val / 32 * 512 + p.val) (hd : d.val = t.val / 4 % 8 * 512 + q.val) :
    blockSum V c t p q = ∑ n : Fin 1024, (fun nn : Fin 4096 => yaArr V c (ix2 nn o) * xArr V c (ix2 nn d))
      ⟨t.val % 4 * 1024 + n.val, by have := n.isLt; have : t.val % 4 < 4 := Nat.mod_lt _ (by decide); omega⟩ := by
  obtain ⟨e00, e01, e10, e11, -, -, -, -⟩ := idx_facts2 t
  unfold blockSum dotCol
  refine Finset.sum_congr rfl fun n _ => ?_
  have hn := n.isLt
  have hb : t.val % 4 < 4 := Nat.mod_lt _ (by decide)
  have hx : (iblk2 V c 0 t : Vec Ideal S1024x512 .bf16) (ix2 n p) = yaArr V c (ix2 ⟨t.val % 4 * 1024 + n.val, by omega⟩ o) := by
    show V c main_v1_1 (((cfg2.win 0).blk t).view.emb (ix2 n p)) = _
    refine congrArg (V c main_v1_1) (funext fun a => Fin.ext ?_)
    match a with
    | ⟨0, _⟩ => show win2_0.index t (0 : Fin 2) * 1024 + 1 * n.val = t.val % 4 * 1024 + n.val; omega
    | ⟨1, _⟩ => show win2_0.index t (1 : Fin 2) * 512 + 1 * p.val = o.val; omega
  have hw : (iblk2 V c 1 t : Vec Ideal S1024x512 .f32) (ix2 n q) = xArr V c (ix2 ⟨t.val % 4 * 1024 + n.val, by omega⟩ d) := by
    show V c main_arg0 (((cfg2.win 1).blk t).view.emb (ix2 n q)) = _
    refine congrArg (V c main_arg0) (funext fun a => Fin.ext ?_)
    match a with
    | ⟨0, _⟩ => show win2_1.index t (0 : Fin 2) * 1024 + 1 * n.val = t.val % 4 * 1024 + n.val; omega
    | ⟨1, _⟩ => show win2_1.index t (1 : Fin 2) * 512 + 1 * q.val = d.val; omega
  rw [hx, hw]

/-- At the last point of an output block the accumulator's entry is the whole contraction over the batch. -/
theorem acc2_flush (c : Dev nD) (t : Fin cfg2.N) (h3 : t.val % 4 = 3) (p q : Fin 512) (o d : Fin 4096)
    (ho : o.val = t.val / 32 * 512 + p.val) (hd : d.val = t.val / 4 % 8 * 512 + q.val) :
    acc2 V c t.val t.isLt (ix2 p q) = ∑ n : Fin 4096, yaArr V c (ix2 n o) * xArr V c (ix2 n d) := by
  obtain ⟨tv, htv⟩ := t
  obtain ⟨m, rfl⟩ : ∃ m, tv = m + 3 := ⟨tv - 3, by have : tv % 4 = 3 := h3; omega⟩
  have h0 : m % 4 = 0 := by have : (m + 3) % 4 = 3 := h3; omega
  have ho' : o.val = (m + 3) / 32 * 512 + p.val := ho
  have hd' : d.val = (m + 3) / 4 % 8 * 512 + q.val := hd
  rw [show acc2 V c (⟨m + 3, htv⟩ : Fin cfg2.N).val (⟨m + 3, htv⟩ : Fin cfg2.N).isLt = acc2 V c (m + 3) htv from rfl,
    acc2_four V c m htv h0 p q]
  rw [blockSum_eq V c ⟨m, by omega⟩ p q o d (by show o.val = m / 32 * 512 + p.val; omega) (by show d.val = m / 4 % 8 * 512 + q.val; omega),
    blockSum_eq V c ⟨m + 1, by omega⟩ p q o d (by show o.val = (m + 1) / 32 * 512 + p.val; omega) (by show d.val = (m + 1) / 4 % 8 * 512 + q.val; omega),
    blockSum_eq V c ⟨m + 2, by omega⟩ p q o d (by show o.val = (m + 2) / 32 * 512 + p.val; omega) (by show d.val = (m + 2) / 4 % 8 * 512 + q.val; omega),
    blockSum_eq V c ⟨m + 3, htv⟩ p q o d ho' hd']
  show _ = ∑ n : Fin 4096, (fun nn : Fin 4096 => yaArr V c (ix2 nn o) * xArr V c (ix2 nn d)) n
  rw [Cert.KernelIdeal.Val1.sum_four]
  refine congrArg₂ (· + ·) (congrArg₂ (· + ·) (congrArg₂ (· + ·) (congrArg (0 + ·) ?_) ?_) ?_) ?_
  · exact Finset.sum_congr rfl fun k _ => congrArg (fun nn : Fin 4096 => yaArr V c (ix2 nn o) * xArr V c (ix2 nn d)) (Fin.ext (by dsimp only; omega))
  · exact Finset.sum_congr rfl fun k _ => congrArg (fun nn : Fin 4096 => yaArr V c (ix2 nn o) * xArr V c (ix2 nn d)) (Fin.ext (by dsimp only; omega))
  · exact Finset.sum_congr rfl fun k _ => congrArg (fun nn : Fin 4096 => yaArr V c (ix2 nn o) * xArr V c (ix2 nn d)) (Fin.ext (by dsimp only; omega))
  · exact Finset.sum_congr rfl fun k _ => congrArg (fun nn : Fin 4096 => yaArr V c (ix2 nn o) * xArr V c (ix2 nn d)) (Fin.ext (by dsimp only; omega))

/-- What the last point of an output block writes back is that block of the fast trace before the clip. -/
theorem flushed2_eq (c : Dev nD) (t : Fin cfg2.N) (hf : (cfg2.win 3).flush t = true) :
    (dat2 (F := Ideal) V c).flushed 3 t = ((cfg2.win 3).blk t).view.read (Elt Ideal) (raw (xArr V c) (yaArr V c) (fArr V c)) := by
  have h3 : t.val % 4 = 3 := (flush2_3 t).mp hf
  show (cfg2.win 3).cut (grid2.coords t) ((dat2 V c).after 3 t) = _
  rw [after2_3]
  obtain ⟨-, -, -, -, e20, e21, e30, e31⟩ := idx_facts2 t
  have htN : t.val < 256 := lt_of_lt_of_eq t.isLt N_2
  funext j
  obtain ⟨p, q, rfl⟩ : ∃ (p q : Fin 512), j = ix2 p q := ⟨j 0, j 1, eq_ix2 j⟩
  have hp := p.isLt
  have hq := q.isLt
  let o : Fin 4096 := ⟨t.val / 32 * 512 + p.val, by omega⟩
  let d : Fin 4096 := ⟨t.val / 4 % 8 * 512 + q.val, by omega⟩
  have hfb : (iblk2 V c 2 t : Vec Ideal S512x512 .f32) (ix2 p q) = fArr V c (ix2 o d) := by
    show V c main_arg2 (((cfg2.win 2).blk t).view.emb (ix2 p q)) = _
    refine congrArg (V c main_arg2) (funext fun a => Fin.ext ?_)
    match a with
    | ⟨0, _⟩ => show win2_2.index t (0 : Fin 2) * 512 + 1 * p.val = t.val / 32 * 512 + p.val; omega
    | ⟨1, _⟩ => show win2_2.index t (1 : Fin 2) * 512 + 1 * q.val = t.val / 4 % 8 * 512 + q.val; omega
  refine (fin2_apply _ _ (ix2 p q)).trans ?_
  rw [hfb, acc2_flush V c t h3 p q o d rfl rfl]
  show rawAt (xArr V c) (yaArr V c) (fArr V c) o d
    = rawAt (xArr V c) (yaArr V c) (fArr V c) (row (((cfg2.win 3).blk t).view.emb (ix2 p q))) (col (((cfg2.win 3).blk t).view.emb (ix2 p q)))
  have hr' : row (((cfg2.win 3).blk t).view.emb (ix2 p q)) = o :=
    Fin.ext (by show win2_3.index t (0 : Fin 2) * 512 + 1 * p.val = t.val / 32 * 512 + p.val; omega)
  have hq' : col (((cfg2.win 3).blk t).view.emb (ix2 p q)) = d :=
    Fin.ext (by show win2_3.index t (1 : Fin 2) * 512 + 1 * q.val = t.val / 4 % 8 * 512 + q.val; omega)
  rw [hr', hq']

theorem mem_blk2 (t : Fin cfg2.N) (i : S4096x4096.Idx) :
    i ∈ ((cfg2.win 3).blk t).view.set ↔ ∀ a : Fin 2, win2_3.index t a * S512x512.size a ≤ (i a).val ∧ (i a).val < win2_3.index t a * S512x512.size a + S512x512.size a := by
  show i ∈ ((View.whole main_v2).slice (win2_3.rect t)).set ↔ _
  rw [View.set_slice_whole, Rect.mem_set_unit]
  exact Iff.rfl

/-- Every index lies in the block written back at the last point of its block's run. -/
theorem cover2 (i : S4096x4096.Idx) : ∃ t : Fin cfg2.N, (cfg2.win 3).flush t = true ∧ i ∈ ((cfg2.win 3).blk t).view.set := by
  have hi0 : (i 0).val < 4096 := (i 0).isLt
  have hi1 : (i 1).val < 4096 := (i 1).isLt
  let t : Fin cfg2.N := ⟨(i 0).val / 512 * 32 + (i 1).val / 512 * 4 + 3, lt_of_lt_of_eq (by omega : (i 0).val / 512 * 32 + (i 1).val / 512 * 4 + 3 < 256) N_2.symm⟩
  have ht : t.val = (i 0).val / 512 * 32 + (i 1).val / 512 * 4 + 3 := rfl
  obtain ⟨-, -, -, -, -, -, e30, e31⟩ := idx_facts2 t
  refine ⟨t, (flush2_3 t).mpr (by omega), ?_⟩
  rw [mem_blk2]
  intro a
  match a with
  | ⟨0, _⟩ => show win2_3.index t (0 : Fin 2) * 512 ≤ (i 0).val ∧ (i 0).val < win2_3.index t (0 : Fin 2) * 512 + 512; omega
  | ⟨1, _⟩ => show win2_3.index t (1 : Fin 2) * 512 ≤ (i 1).val ∧ (i 1).val < win2_3.index t (1 : Fin 2) * 512 + 512; omega

/-- The output array after the region. -/
theorem final2 (c : Dev nD) : (dat2 (F := Ideal) V c).arrAt 3 cfg2.N = raw (xArr V c) (yaArr V c) (fArr V c) :=
  (dat2 (F := Ideal) V c).arrAt_eq_of_cover 3 _ (fun t hf => flushed2_eq V c t hf) cover2

end Cert.KernelIdeal.Val2

end
-- ==== Proof.KIVal3.lean ====
/-
  What the last kernel region leaves in its two output arrays: the raw fast trace times the one word of the
  homeostatic factor, and 0.99 · slow + 0.01 · (that product), index by index; a block of 128 rows depends on the same
  rows of the two matrices and on the one word.
-/
import proofs.«139551_j86955907875211_1_alg».proof.Proof.KIReg3
import proofs.«139551_j86955907875211_1_alg».proof.Proof.KIPay23
import proofs.«139551_j86955907875211_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Val3

open Idealize.ShloMosaic Idealize.ShloMosaic.TcCoe Idealize.ShloMosaic.ValueIdx Idealize.SL.Sem
open Cert.KernelIdeal Cert.KernelIdeal.Gen Cert.Spec Cert.KernelIdeal.Pay23
open Idealize.ShloMosaic.Pipeline (Dat)

variable (V : (c : Dev nD) → (b : Ref sig .tc) → Buf (Elt Ideal) ((c : Thread nD τ).loc b))

theorem hz3 : (![0, 0] : Fin 2 → Nat) = fun _ => 0 := funext fun a => by fin_cases a <;> rfl

/-- The two matrices the region reads and the one word, as extended reals. -/
abbrev rArr (c : Dev nD) : Arr := V c main_v2
abbrev sArr (c : Dev nD) : Arr := V c main_arg3
abbrev word (c : Dev nD) : EReal := (V c main_v10 : S1x1.Idx → EReal) (ix2 (0 : Fin 1) (0 : Fin 1))

/-- The scaled matrix, and the new slow trace from it. -/
def scaled (r : Arr) (a : EReal) : Arr := fun i => r i * a
def slowOf (r s : Arr) (a : EReal) : Arr := fun i => lit 0x3F7D70A4#32 * s i + lit 0x3C23D70A#32 * (r i * a)

/-- The printed index maps over the grid: point `t` takes block row `t` of the four matrices and the one word. -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0 :=
  (by decide +kernel : ∀ t : Fin grid3.N, _)

/-- The blocks read at a local index: the matrices' at row `128 t + p`, the word's at its one index. -/
theorem blk3_0 (c : Dev nD) (t : Fin cfg3.N) (p : Fin 128) (q : Fin 4096) (r : Fin 4096) (hr : r.val = t.val * 128 + p.val) :
    (iblk3 V c 0 t : Vec Ideal S128x4096 .f32) (ix2 p q) = rArr V c (ix2 r q) := by
  obtain ⟨e00, e01, -⟩ := idx_facts3 t
  show V c main_v2 (((cfg3.win 0).blk t).view.emb (ix2 p q)) = _
  refine congrArg (V c main_v2) (funext fun a => Fin.ext ?_)
  match a with
  | ⟨0, _⟩ => show win3_0.index t (0 : Fin 2) * 128 + 1 * p.val = r.val; omega
  | ⟨1, _⟩ => show win3_0.index t (1 : Fin 2) * 4096 + 1 * q.val = q.val; omega
theorem blk3_1 (c : Dev nD) (t : Fin cfg3.N) (p : Fin 128) (q : Fin 4096) (r : Fin 4096) (hr : r.val = t.val * 128 + p.val) :
    (iblk3 V c 1 t : Vec Ideal S128x4096 .f32) (ix2 p q) = sArr V c (ix2 r q) := by
  obtain ⟨-, -, e10, e11, -⟩ := idx_facts3 t
  show V c main_arg3 (((cfg3.win 1).blk t).view.emb (ix2 p q)) = _
  refine congrArg (V c main_arg3) (funext fun a => Fin.ext ?_)
  match a with
  | ⟨0, _⟩ => show win3_1.index t (0 : Fin 2) * 128 + 1 * p.val = r.val; omega
  | ⟨1, _⟩ => show win3_1.index t (1 : Fin 2) * 4096 + 1 * q.val = q.val; omega
theorem blk3_2 (c : Dev nD) (t : Fin cfg3.N) :
    (iblk3 V c 2 t : Vec Ideal S1x1 .f32) (ix2 (0 : Fin 1) (0 : Fin 1)) = word V c := by
  obtain ⟨-, -, -, -, e20, e21, -⟩ := idx_facts3 t
  show V c main_v10 (((cfg3.win 2).blk t).view.emb (ix2 (0 : Fin 1) (0 : Fin 1))) = _
  refine congrArg (V c main_v10) (funext fun a => Fin.ext ?_)
  match a with
  | ⟨0, _⟩ => show win3_2.index t (0 : Fin 2) * 1 + 1 * 0 = 0; omega
  | ⟨1, _⟩ => show win3_2.index t (1 : Fin 2) * 1 + 1 * 0 = 0; omega

/-- What point `t` writes back to the two output arrays. -/
theorem flushed3_3_eq (c : Dev nD) (t : Fin cfg3.N) :
    (dat3 (F := Ideal) V c).flushed 3 t = ((cfg3.win 3).blk t).view.read (Elt Ideal) (scaled (rArr V c) (word V c)) := by
  show (cfg3.win 3).cut (grid3.coords t) ((dat3 V c).after 3 t) = _
  rw [after3_3]
  unfold out3_3
  rw [View.canon_unit_zero hz3]
  simp only [View.ld_unit_zero (S := S128x4096) hz3, View.ld_unit_zero (S := S1x1) hz3]
  obtain ⟨-, -, -, -, -, -, e30, e31, -, -⟩ := idx_facts3 t
  have htN : t.val < 32 := lt_of_lt_of_eq t.isLt N_3
  funext j
  obtain ⟨p, q, rfl⟩ : ∃ (p : Fin 128) (q : Fin 4096), j = ix2 p q := ⟨j 0, j 1, eq_ix2 j⟩
  have hp := p.isLt
  have hq := q.isLt
  let r : Fin 4096 := ⟨t.val * 128 + p.val, by omega⟩
  refine (pay3_1_apply _ _ (ix2 p q)).trans ?_
  rw [blk3_0 V c t p q r rfl, blk3_2 V c t]
  show rArr V c (ix2 r q) * word V c = rArr V c (((cfg3.win 3).blk t).view.emb (ix2 p q)) * word V c
  refine congrArg (fun i => rArr V c i * word V c) (funext fun a => Fin.ext ?_)
  match a with
  | ⟨0, _⟩ => show r.val = win3_3.index t (0 : Fin 2) * 128 + 1 * p.val; show t.val * 128 + p.val = _; omega
  | ⟨1, _⟩ => show q.val = win3_3.index t (1 : Fin 2) * 4096 + 1 * q.val; omega

theorem flushed3_4_eq (c : Dev nD) (t : Fin cfg3.N) :
    (dat3 (F := Ideal) V c).flushed 4 t = ((cfg3.win 4).blk t).view.read (Elt Ideal) (slowOf (rArr V c) (sArr V c) (word V c)) := by
  show (cfg3.win 4).cut (grid3.coords t) ((dat3 V c).after 4 t) = _
  rw [after3_4]
  unfold out3_4
  rw [View.canon_unit_zero hz3]
  simp only [View.ld_unit_zero (S := S128x4096) hz3, View.ld_unit_zero (S := S1x1) hz3]
  obtain ⟨-, -, -, -, -, -, -, -, e40, e41⟩ := idx_facts3 t
  have htN : t.val < 32 := lt_of_lt_of_eq t.isLt N_3
  funext j
  obtain ⟨p, q, rfl⟩ : ∃ (p : Fin 128) (q : Fin 4096), j = ix2 p q := ⟨j 0, j 1, eq_ix2 j⟩
  have hp := p.isLt
  have hq := q.isLt
  let r : Fin 4096 := ⟨t.val * 128 + p.val, by omega⟩
  refine (pay3_2_apply _ _ _ (ix2 p q)).trans ?_
  rw [blk3_0 V c t p q r rfl, blk3_1 V c t p q r rfl, blk3_2 V c t]
  show lit 0x3F7D70A4#32 * sArr V c (ix2 r q) + lit 0x3C23D70A#32 * (rArr V c (ix2 r q) * word V c)
    = lit 0x3F7D70A4#32 * sArr V c (((cfg3.win 4).blk t).view.emb (ix2 p q)) + lit 0x3C23D70A#32 * (rArr V c (((cfg3.win 4).blk t).view.emb (ix2 p q)) * word V c)
  refine congrArg (fun i => lit 0x3F7D70A4#32 * sArr V c i + lit 0x3C23D70A#32 * (rArr V c i * word V c)) (funext fun a => Fin.ext ?_)
  match a with
  | ⟨0, _⟩ => show r.val = win3_4.index t (0 : Fin 2) * 128 + 1 * p.val; show t.val * 128 + p.val = _; omega
  | ⟨1, _⟩ => show q.val = win3_4.index t (1 : Fin 2) * 4096 + 1 * q.val; omega

theorem mem_blk3_3 (t : Fin cfg3.N) (i : S4096x4096.Idx) :
    i ∈ ((cfg3.win 3).blk t).view.set ↔ ∀ a : Fin 2, win3_3.index t a * S128x4096.size a ≤ (i a).val ∧ (i a).val < win3_3.index t a * S128x4096.size a + S128x4096.size a := by
  show i ∈ ((View.whole main_v11_0).slice (win3_3.rect t)).set ↔ _
  rw [View.set_slice_whole, Rect.mem_set_unit]
  exact Iff.rfl
theorem mem_blk3_4 (t : Fin cfg3.N) (i : S4096x4096.Idx) :
    i ∈ ((cfg3.win 4).blk t).view.set ↔ ∀ a : Fin 2, win3_4.index t a * S128x4096.size a ≤ (i a).val ∧ (i a).val < win3_4.index t a * S128x4096.size a + S128x4096.size a := by
  show i ∈ ((View.whole main_v11_1).slice (win3_4.rect t)).set ↔ _
  rw [View.set_slice_whole, Rect.mem_set_unit]
  exact Iff.rfl

theorem cover3_3 (i : S4096x4096.Idx) : ∃ t : Fin cfg3.N, (cfg3.win 3).flush t = true ∧ i ∈ ((cfg3.win 3).blk t).view.set := by
  have hi0 : (i 0).val < 4096 := (i 0).isLt
  have hi1 : (i 1).val < 4096 := (i 1).isLt
  let t : Fin cfg3.N := ⟨(i 0).val / 128, lt_of_lt_of_eq (by omega : (i 0).val / 128 < 32) N_3.symm⟩
  have ht : t.val = (i 0).val / 128 := rfl
  obtain ⟨-, -, -, -, -, -, e30, e31, -, -⟩ := idx_facts3 t
  refine ⟨t, flush3_3 t, ?_⟩
  rw [mem_blk3_3]
  intro a
  match a with
  | ⟨0, _⟩ => show win3_3.index t (0 : Fin 2) * 128 ≤ (i 0).val ∧ (i 0).val < win3_3.index t (0 : Fin 2) * 128 + 128; omega
  | ⟨1, _⟩ => show win3_3.index t (1 : Fin 2) * 4096 ≤ (i 1).val ∧ (i 1).val < win3_3.index t (1 : Fin 2) * 4096 + 4096; omega
theorem cover3_4 (i : S4096x4096.Idx) : ∃ t : Fin cfg3.N, (cfg3.win 4).flush t = true ∧ i ∈ ((cfg3.win 4).blk t).view.set := by
  have hi0 : (i 0).val < 4096 := (i 0).isLt
  have hi1 : (i 1).val < 4096 := (i 1).isLt
  let t : Fin cfg3.N := ⟨(i 0).val / 128, lt_of_lt_of_eq (by omega : (i 0).val / 128 < 32) N_3.symm⟩
  have ht : t.val = (i 0).val / 128 := rfl
  obtain ⟨-, -, -, -, -, -, -, -, e40, e41⟩ := idx_facts3 t
  refine ⟨t, flush3_4 t, ?_⟩
  rw [mem_blk3_4]
  intro a
  match a with
  | ⟨0, _⟩ => show win3_4.index t (0 : Fin 2) * 128 ≤ (i 0).val ∧ (i 0).val < win3_4.index t (0 : Fin 2) * 128 + 128; omega
  | ⟨1, _⟩ => show win3_4.index t (1 : Fin 2) * 4096 ≤ (i 1).val ∧ (i 1).val < win3_4.index t (1 : Fin 2) * 4096 + 4096; omega

/-- The two output arrays after the region. -/
theorem final3_3 (c : Dev nD) : (dat3 (F := Ideal) V c).arrAt 3 cfg3.N = scaled (rArr V c) (word V c) :=
  (dat3 (F := Ideal) V c).arrAt_eq_of_cover 3 _ (fun t _ => flushed3_3_eq V c t) cover3_3
theorem final3_4 (c : Dev nD) : (dat3 (F := Ideal) V c).arrAt 4 cfg3.N = slowOf (rArr V c) (sArr V c) (word V c) :=
  (dat3 (F := Ideal) V c).arrAt_eq_of_cover 4 _ (fun t _ => flushed3_4_eq V c t) cover3_4

end Cert.KernelIdeal.Val3

end
-- ==== Proof.KIWhole.lean ====
/-
  The idealized kernel's three results as functions of the four argument arrays. Region by region, what each region
  finds in the buffers it reads is what the regions before it left there: the first region leaves the effective weight;
  the second, reading the inputs and the effective weight, leaves x · weffᵀ and its clamp below at zero; the third,
  reading the clamp, the inputs and the fast trace, leaves the fast trace before the clip; the host arithmetic between
  the third and the fourth region computes the homeostatic factor from that array's Frobenius norm, as one word; the
  fourth region scales by the word and forms the new slow trace.
-/
import proofs.«139551_j86955907875211_1_alg».proof.Proof.KIFrame
import proofs.«139551_j86955907875211_1_alg».proof.Proof.KIVal0
import proofs.«139551_j86955907875211_1_alg».proof.Proof.KIVal1
import proofs.«139551_j86955907875211_1_alg».proof.Proof.KIVal2
import proofs.«139551_j86955907875211_1_alg».proof.Proof.KIVal3
import proofs.«139551_j86955907875211_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Whole

open Idealize.ShloMosaic Idealize.ShloMosaic.TcCoe Idealize.ShloMosaic.ValueIdx Idealize.SL.Sem Idealize.ShloMosaic.StableHlo
open Cert.KernelIdeal Cert.KernelIdeal.Gen Cert.Spec

variable (m : (ℓ : Loc nD τ sig) → Buf (Elt Ideal) ℓ) (c : Dev nD)

/-- The four argument arrays at launch, and the intermediate arrays of the specification over them. -/
abbrev a0 : Arr := m ((c : Thread nD τ).loc main_arg0)
abbrev a1 : Arr := m ((c : Thread nD τ).loc main_arg1)
abbrev a2 : Arr := m ((c : Thread nD τ).loc main_arg2)
abbrev a3 : Arr := m ((c : Thread nD τ).loc main_arg3)
abbrev WE : Arr := weff (a1 m c) (a2 m c) (a3 m c)
abbrev YM : Arr := ymat (a0 m c) (WE m c)
abbrev YA : Arr := yact (YM m c)
abbrev RW : Arr := raw (a0 m c) (YA m c) (a2 m c)

/-! ## What the regions find -/

theorem W1_arg0 : W1 m c (Proc.devRef .tc main_arg0) = a0 m c :=
  calc W1 m c (Proc.devRef .tc main_arg0)
    _ = W0 m c (Proc.devRef .tc main_arg0) := W1_of_ne m c main_arg0 (by decide)
    _ = a0 m c := rfl
theorem W2_arg0 : W2 m c (Proc.devRef .tc main_arg0) = a0 m c :=
  calc W2 m c (Proc.devRef .tc main_arg0)
    _ = W1 m c (Proc.devRef .tc main_arg0) := (W2_arr m c 0).trans (((dat1 (U1 m) c).arrAt_in 0 rfl _).trans (A_eq1 (U1 m) c 0))
    _ = W0 m c (Proc.devRef .tc main_arg0) := W1_of_ne m c main_arg0 (by decide)
    _ = a0 m c := rfl
theorem W2_arg2 : W2 m c (Proc.devRef .tc main_arg2) = a2 m c :=
  calc W2 m c (Proc.devRef .tc main_arg2)
    _ = W1 m c (Proc.devRef .tc main_arg2) := W2_of_ne m c main_arg2 (by decide)
    _ = W0 m c (Proc.devRef .tc main_arg2) := (W1_arr m c 1).trans (((dat0 (U0 m) c).arrAt_in 1 rfl _).trans (A_eq0 (U0 m) c 1))
    _ = a2 m c := rfl
theorem W6_arg3 : W6 m c (Proc.devRef .tc main_arg3) = a3 m c :=
  calc W6 m c (Proc.devRef .tc main_arg3)
    _ = W5 m c (Proc.devRef .tc main_arg3) := StableHlo.after_of_writes_sub hostOps3_2 (W5 m c) hostOps3_2_writes (by decide : main_arg3 ∉ hostOps3_2_W)
    _ = W4 m c (Proc.devRef .tc main_arg3) := StableHlo.after_of_writes_sub hostOps3_1 (W4 m c) hostOps3_1_writes (by decide : main_arg3 ∉ hostOps3_1_W)
    _ = W3 m c (Proc.devRef .tc main_arg3) := StableHlo.after_of_writes_sub hostOps3 (W3 m c) hostOps3_writes (by decide : main_arg3 ∉ hostOps3_W)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := (W1_arr m c 2).trans (((dat0 (U0 m) c).arrAt_in 2 rfl _).trans (A_eq0 (U0 m) c 2))
    _ = a3 m c := rfl

/-! ## What the regions leave -/

/-- After the first region the effective-weight array holds `weff` of the arguments. -/
theorem W1_v0 : W1 m c (Proc.devRef .tc main_v0) = WE m c :=
  (W1_arr m c 3).trans (Cert.KernelIdeal.Val0.final0 (U0 m) c)

/-- After the second region the product array holds x · weffᵀ and the activation array its clamp. -/
theorem W2_v1_0 : W2 m c (Proc.devRef .tc main_v1_0) = YM m c := by
  refine (W2_arr m c 2).trans ((Cert.KernelIdeal.Val1.final1_2 (U1 m) c).trans ?_)
  show ymat (W1 m c (Proc.devRef .tc main_arg0)) (W1 m c (Proc.devRef .tc main_v0)) = _
  rw [W1_arg0, W1_v0]
theorem W2_v1_1 : W2 m c (Proc.devRef .tc main_v1_1) = YA m c := by
  refine (W2_arr m c 3).trans ((Cert.KernelIdeal.Val1.final1_3 (U1 m) c).trans ?_)
  show yact (ymat (W1 m c (Proc.devRef .tc main_arg0)) (W1 m c (Proc.devRef .tc main_v0))) = _
  rw [W1_arg0, W1_v0]

/-- After the third region the raw array holds the fast trace before the clip. -/
theorem W3_v2 : W3 m c (Proc.devRef .tc main_v2) = RW m c := by
  refine (W3_arr m c 3).trans ((Cert.KernelIdeal.Val2.final2 (U2 m) c).trans ?_)
  show raw (W2 m c (Proc.devRef .tc main_arg0)) (W2 m c (Proc.devRef .tc main_v1_1)) (W2 m c (Proc.devRef .tc main_arg2)) = _
  rw [W2_arg0, W2_v1_1, W2_arg2]

theorem W6_v2 : W6 m c (Proc.devRef .tc main_v2) = RW m c :=
  calc W6 m c (Proc.devRef .tc main_v2)
    _ = W5 m c (Proc.devRef .tc main_v2) := StableHlo.after_of_writes_sub hostOps3_2 (W5 m c) hostOps3_2_writes (by decide : main_v2 ∉ hostOps3_2_W)
    _ = W4 m c (Proc.devRef .tc main_v2) := StableHlo.after_of_writes_sub hostOps3_1 (W4 m c) hostOps3_1_writes (by decide : main_v2 ∉ hostOps3_1_W)
    _ = W3 m c (Proc.devRef .tc main_v2) := StableHlo.after_of_writes_sub hostOps3 (W3 m c) hostOps3_writes (by decide : main_v2 ∉ hostOps3_W)
    _ = RW m c := W3_v2 m c

/-- The host's sum of the squares, from the zero word. -/
theorem hostSum (R : (⟨S4096x4096, .f32⟩ : BufTy).Contents (Elt Ideal)) (j : S_.Idx) :
    Host.reduceAdd (F := Ideal) (mulf R R) (constant S_ .f32 0x00000000#32) reducesTo_S4096x4096_S_d0_1 h_S_ j
      = lit 0x00000000#32 + ∑ i : S4096x4096.Idx, R i * R i := by
  simp only [Host.reduceAdd, Ideal.hostReduceAdd_def]
  exact Ideal.hostReduceAdd_total reducesTo_S4096x4096_S_d0_1 (fun b => b.elim0) _ _ j

/-- The word the host stretches leave for the last region is the homeostatic factor of the raw array. -/
theorem W6_word :
    (W6 m c (Proc.devRef .tc main_v10) : S1x1.Idx → EReal) (ix2 (0 : Fin 1) (0 : Fin 1)) = hscale (W3 m c (Proc.devRef .tc main_v2) : Arr) := by
  dsimp only [W6, W5, W4]
  simp only [hostOps3, hostOps3_1, hostOps3_2]
  after_results
  generalize (W3 m c (Proc.devRef .tc main_v2)) = R
  refine (shapeCast_apply _ shapeCasts_S_S1x1 (ix2 (0 : Fin 1) (0 : Fin 1)) ix0 ?_).trans ?_
  · rw [Shape.rowMajor_val_two]
    have h1 : (S_.rowMajor ix0).val < 1 := (S_.rowMajor ix0).isLt
    show _ = 0 * 1 + 0
    omega
  · show Scalar.select (Ideal.cmp .ogt (Ideal.sqrt (Host.reduceAdd (F := Ideal) (mulf R R) (constant S_ .f32 0x00000000#32) reducesTo_S4096x4096_S_d0_1 h_S_ ix0)) (lit 0x40A00000#32))
        (Ideal.div (lit 0x40A00000#32) (Ideal.sqrt (Host.reduceAdd (F := Ideal) (mulf R R) (constant S_ .f32 0x00000000#32) reducesTo_S4096x4096_S_d0_1 h_S_ ix0) + lit 0x358637BD#32))
        (lit 0x3F800000#32) = _
    rw [hostSum]
    rfl

/-- After the last region: the new fast trace and the new slow trace. -/
theorem W7_v11_0 : W7 m c (Proc.devRef .tc main_v11_0) = newFast (RW m c) := by
  refine (W7_arr m c 3).trans ((Cert.KernelIdeal.Val3.final3_3 (U6 m) c).trans ?_)
  show Cert.KernelIdeal.Val3.scaled (W6 m c (Proc.devRef .tc main_v2)) ((W6 m c (Proc.devRef .tc main_v10) : S1x1.Idx → EReal) (ix2 (0 : Fin 1) (0 : Fin 1))) = _
  rw [W6_word, W6_v2, W3_v2]
  rfl
theorem W7_v11_1 : W7 m c (Proc.devRef .tc main_v11_1) = newSlow (a3 m c) (newFast (RW m c)) := by
  refine (W7_arr m c 4).trans ((Cert.KernelIdeal.Val3.final3_4 (U6 m) c).trans ?_)
  show Cert.KernelIdeal.Val3.slowOf (W6 m c (Proc.devRef .tc main_v2)) (W6 m c (Proc.devRef .tc main_arg3)) ((W6 m c (Proc.devRef .tc main_v10) : S1x1.Idx → EReal) (ix2 (0 : Fin 1) (0 : Fin 1))) = _
  rw [W6_word, W6_v2, W3_v2, W6_arg3]
  rfl

/-- The product array is not touched after the second region. -/
theorem W7_v1_0 : W7 m c (Proc.devRef .tc main_v1_0) = YM m c :=
  calc W7 m c (Proc.devRef .tc main_v1_0)
    _ = W6 m c (Proc.devRef .tc main_v1_0) := W7_of_ne m c main_v1_0 (by decide)
    _ = W5 m c (Proc.devRef .tc main_v1_0) := StableHlo.after_of_writes_sub hostOps3_2 (W5 m c) hostOps3_2_writes (by decide : main_v1_0 ∉ hostOps3_2_W)
    _ = W4 m c (Proc.devRef .tc main_v1_0) := StableHlo.after_of_writes_sub hostOps3_1 (W4 m c) hostOps3_1_writes (by decide : main_v1_0 ∉ hostOps3_1_W)
    _ = W3 m c (Proc.devRef .tc main_v1_0) := StableHlo.after_of_writes_sub hostOps3 (W3 m c) hostOps3_writes (by decide : main_v1_0 ∉ hostOps3_W)
    _ = W2 m c (Proc.devRef .tc main_v1_0) := W3_of_ne m c main_v1_0 (by decide)
    _ = YM m c := W2_v1_0 m c

/-- THE VALUE RUN: every weakly fair execution terminates with the three results at the specification's functions of
    the arguments, and the arguments unchanged. -/
theorem run_values (ρ : Dev nD → PrngReg) : θ_run defs (onTc (τ := τ) (main (F := Ideal))) ⟨m, fun _ => 0, ρ⟩ (fun r => ∀ c : Dev nD,
      r.2.mem ((c.tc : Thread nD τ).loc main_v1_0) = YM m c
      ∧ r.2.mem ((c.tc : Thread nD τ).loc main_v11_0) = newFast (RW m c)
      ∧ r.2.mem ((c.tc : Thread nD τ).loc main_v11_1) = newSlow (a3 m c) (newFast (RW m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v1_0 (by decide))).trans (W7_v1_0 m c),
     (h c _ (mem_uc main_v11_0 (by decide))).trans (W7_v11_0 m c),
     (h c _ (mem_uc main_v11_1 (by decide))).trans (W7_v11_1 m c),
     (h c _ (mem_uc main_arg0 (by decide))).trans (W7_main_arg0 m c),
     (h c _ (mem_uc main_arg1 (by decide))).trans (W7_main_arg1 m c),
     (h c _ (mem_uc main_arg2 (by decide))).trans (W7_main_arg2 m c),
     (h c _ (mem_uc main_arg3 (by decide))).trans (W7_main_arg3 m c)⟩) (run_all m ρ)

end Cert.KernelIdeal.Whole

end
-- ==== Proof.RefSpec.lean ====
/-
  The reference program, read one operation at a time (the generated module `Read` gives each operation's value at an
  index), computes the mathematics of `Cert.Spec` on the extended reals. With `w` the weight, `f` and `s` the fast and
  slow traces and `x` the inputs, all 4096 × 4096:

  * the reference's per-row scale — zero plus the sum of a row's absolute values, divided by 4096, clipped below at
    1e-5 — is `rowScale`: the leading zero word denotes 0 and drops out of the sum;
  * the rounded, clamped quotient times the scale, plus 0.1 · f plus 0.05 · s, is `weff`, term for term;
  * x · weffᵀ read at (n, o) is Σₖ x(n, k) · weff(o, k): the transposed operand read at (k, o) is weff at (o, k), so
    the product is `ymat`; its maximum with the zero word is `yact`;
  * yactᵀ · x read at (o, d) is Σₙ yact(n, o) · x(n, d); the reference divides it by 4096 where the specification
    multiplies by the word of 2⁻¹², and division by the nonzero real 4096 is multiplication by 1/4096 on every
    extended real, the infinities and the junk value included; so 0.95 · f + 0.05 · (that) is `raw`;
  * the root of zero plus the sum of raw's squares is `fnorm raw`; the reference selects between raw · (5 / (‖raw‖ +
    1e-6)) and raw on the one-bit condition ‖raw‖ > 5, the specification multiplies raw by the selected factor or by the
    word of 1.0: the two agree on either value of the bit, since that word denotes 1; this is `newFast`;
  * 0.99 · s + 0.01 · newFast is `newSlow`, term for term.
-/
import proofs.«139551_j86955907875211_1_alg».proof.Proof.Gen.ReferenceIdeal.Read
import proofs.«139551_j86955907875211_1_alg».proof.Proof.Spec
import Idealize.ShloMosaic.Lib.Pipeline.Value
import Idealize.ShloMosaic.Lib.ValueIdx
import Idealize.ShloMosaic.PureOps.Ideal.Laws

noncomputable section

namespace Cert.RefSpec

open Cert.ReferenceIdeal Cert.ReferenceIdeal.Gen Cert.ReferenceIdeal.Read Cert.Spec Idealize.ShloMosaic
  Idealize.ShloMosaic.ValueIdx

/-! ## The literals that are evaluated -/

/-- The word of +0.0 denotes 0. -/
theorem lit_zero : Ideal.ofBits .f32 0x00000000#32 = 0 := Ideal.ofBits_zero_f32

/-- The word of 1.0 denotes 1. -/
theorem lit_one : Ideal.ofBits .f32 0x3F800000#32 = 1 := by
  simp [Ideal.ofBits, Ideal.ieee, -EReal.coe_mul]; norm_num

/-- The word of 4096.0 denotes the real 4096. -/
theorem lit_4096 : Ideal.ofBits .f32 0x45800000#32 = ((4096 : ℝ) : EReal) := by
  simp [Ideal.ofBits, Ideal.ieee, -EReal.coe_mul]; norm_num

/-- The word 0x39800000 denotes 2⁻¹² = 1/4096. -/
theorem lit_inv4096 : Ideal.ofBits .f32 0x39800000#32 = ((1 / 4096 : ℝ) : EReal) := by
  simp [Ideal.ofBits, Ideal.ieee, -EReal.coe_mul]; norm_num

/-- Dividing by 4096 is multiplying by 2⁻¹², on every extended real. -/
theorem div_4096 (s : EReal) :
    Ideal.div s (Ideal.ofBits .f32 0x45800000#32) = s * Ideal.ofBits .f32 0x39800000#32 := by
  rw [lit_4096, lit_inv4096, Ideal.div_coe (by norm_num : (4096 : ℝ) ≠ 0)]

/-! ## The effective weight -/

/-- The reference's clipped row mean, read at any index of row `r`, is the row's scale. -/
theorem scale_eq (x1 : Arr) (r : Fin 4096) (j : S4096x1.Idx) (hj : (j 0).val = r.val) :
    val_main_v5 (F := Ideal) x1 j = rowScale x1 r := by
  rw [val_main_v5_apply, val_main_call0_v1_apply, val_main_call0_v0_apply, val_main_cst_1_apply,
    val_main_v4_apply, val_main_v2_apply, val_main_v3_apply, val_main_cst_0_apply, val_main_v1_apply,
    val_main_cst_apply]
  unfold rowScale
  simp only [Ideal.maximumf_def, Ideal.hostDivf_def, Ideal.ofBits_def, Ideal.ofBits_zero_f32, zero_add]
  refine congrArg (fun t => max _ (Ideal.div t _)) (Finset.sum_congr rfl fun k _ => ?_)
  have e : idx_main_v1 (idx_main_v2 j) k = ix2 r k :=
    funext fun a => Fin.ext (by match a with | ⟨0, _⟩ => exact hj | ⟨1, _⟩ => rfl)
  rw [e]; rfl

/-- Operation 17 of the reference is the effective weight. -/
theorem ref_weff (x1 x2 x3 : (⟨S4096x4096, .f32⟩ : BufTy).Contents (Elt Ideal)) : val_main_v17 (F := Ideal) x1 x2 x3 = weff x1 x2 x3 := by
  funext i
  obtain ⟨r, q, rfl⟩ : ∃ (r q : Fin 4096), i = ix2 r q := ⟨row i, col i, eq_ix2 i⟩
  show _ = weffAt x1 x2 x3 r q
  rw [val_main_v17_apply, val_main_v14_apply, val_main_v11_apply, val_main_v9_apply, val_main_call2_v4_apply,
    val_main_call2_v3_apply, val_main_cst_3_apply, val_main_call2_v2_apply, val_main_call2_v1_apply,
    val_main_call2_v0_apply, val_main_cst_2_apply, val_main_v8_apply, val_main_v7_apply, val_main_v6_apply,
    val_main_v10_apply, val_main_v13_apply, val_main_v12_apply, val_main_cst_4_apply, val_main_v16_apply,
    val_main_v15_apply, val_main_cst_5_apply, scale_eq x1 r (idx_main_v6 (ix2 r q)) rfl]
  rfl

/-! ## The two products -/

/-- Two indices with equal coordinates are equal. -/
theorem idx_ext {i j : S4096x4096.Idx} (h0 : (i 0).val = (j 0).val) (h1 : (i 1).val = (j 1).val) : i = j :=
  funext fun a => Fin.ext (by match a with | ⟨0, _⟩ => exact h0 | ⟨1, _⟩ => exact h1)

/-- Operation 19 is x · weffᵀ. -/
theorem ref_ymat (x0 x1 x2 x3 : (⟨S4096x4096, .f32⟩ : BufTy).Contents (Elt Ideal)) :
    val_main_v19 (F := Ideal) x0 x1 x2 x3 = ymat x0 (weff x1 x2 x3) := by
  funext i
  obtain ⟨n, o, rfl⟩ : ∃ (n o : Fin 4096), i = ix2 n o := ⟨row i, col i, eq_ix2 i⟩
  show _ = ymatAt x0 (weff x1 x2 x3) n o
  rw [val_main_v19_apply]
  unfold ymatAt
  refine Finset.sum_congr rfl fun k _ => ?_
  rw [val_main_v18_apply, ref_weff,
    (idx_ext rfl rfl : lidx_main_v19 (ix2 n o) k = ix2 n k),
    (idx_ext rfl rfl : idx_main_v18 (ridx_main_v19 (ix2 n o) k) = ix2 o k)]

/-- Operation 20 is its clamp below at zero. -/
theorem ref_yact (x0 x1 x2 x3 : (⟨S4096x4096, .f32⟩ : BufTy).Contents (Elt Ideal)) :
    val_main_v20 (F := Ideal) x0 x1 x2 x3 = yact (ymat x0 (weff x1 x2 x3)) := by
  funext i
  rw [val_main_v20_apply, val_main_call3_v0_apply, val_main_call3_cst_apply, ref_ymat]
  rfl

/-- Operation 29 is the fast trace before the clip. -/
theorem ref_raw (x0 x1 x2 x3 : (⟨S4096x4096, .f32⟩ : BufTy).Contents (Elt Ideal)) :
    val_main_v29 (F := Ideal) x0 x1 x2 x3 = raw x0 (yact (ymat x0 (weff x1 x2 x3))) x2 := by
  funext i
  obtain ⟨o, d, rfl⟩ : ∃ (o d : Fin 4096), i = ix2 o d := ⟨row i, col i, eq_ix2 i⟩
  show _ = rawAt x0 (yact (ymat x0 (weff x1 x2 x3))) x2 o d
  rw [val_main_v29_apply, val_main_v26_apply, val_main_v25_apply, val_main_cst_7_apply, val_main_v28_apply,
    val_main_v27_apply, val_main_cst_8_apply, val_main_v24_apply, val_main_v23_apply, val_main_cst_6_apply,
    val_main_v22_apply]
  unfold rawAt
  simp only [Ideal.addf_def, Ideal.mulf_def, Ideal.hostDivf_def, Ideal.ofBits_def, div_4096]
  refine congrArg (fun t => _ + _ * (t * _)) (Finset.sum_congr rfl fun k _ => ?_)
  rw [val_main_v21_apply, ref_yact,
    (idx_ext rfl rfl : idx_main_v21 (lidx_main_v22 (ix2 o d) k) = ix2 k o),
    (idx_ext rfl rfl : ridx_main_v22 (ix2 o d) k = ix2 k d)]

/-! ## The homeostatic clip and the slow trace -/

/-- The reference's Frobenius norm of the unclipped fast trace, at the scalar's one index. -/
theorem norm_eq (x0 x1 x2 x3 : Arr) (j : S_.Idx) :
    val_main_v30 (F := Ideal) x0 x1 x2 x3 j = fnorm (raw x0 (yact (ymat x0 (weff x1 x2 x3))) x2) := by
  rw [val_main_v30_apply, val_main_call4_v1_apply, val_main_call4_cst_apply]
  unfold fnorm
  simp only [Ideal.hostUnary_sqrt_def, Ideal.ofBits_def]
  refine congrArg (fun t => Ideal.sqrt (_ + t)) (Finset.sum_congr rfl fun k _ => ?_)
  rw [val_main_call4_v0_apply, ref_raw]
  rfl

/-- Operation 36, the select, is the clipped fast trace: on either value of the condition bit the selected operand is
    raw times the selected factor. -/
theorem ref_newFast (x0 x1 x2 x3 : (⟨S4096x4096, .f32⟩ : BufTy).Contents (Elt Ideal)) :
    val_main_v36 (F := Ideal) x0 x1 x2 x3 = newFast (raw x0 (yact (ymat x0 (weff x1 x2 x3))) x2) := by
  funext i
  show Scalar.select
      ((broadcastInDim S4096x4096 ![] bcast_S_S4096x4096 (val_main_v31 (F := Ideal) x0 x1 x2 x3)) i)
      (val_main_v35 (F := Ideal) x0 x1 x2 x3 i) (val_main_v29 (F := Ideal) x0 x1 x2 x3 i) = _
  rw [broadcastInDim_apply _ bcast_S_S4096x4096 _ i (fun a => a.elim0) (fun a => a.elim0),
    val_main_v31_apply, val_main_cst_9_apply, val_main_v35_apply, val_main_v34_apply, val_main_v33_apply,
    val_main_cst_11_apply, val_main_v32_apply, val_main_cst_10_apply, norm_eq, ref_raw]
  generalize raw x0 (yact (ymat x0 (weff x1 x2 x3))) x2 = R
  show Scalar.select (Ideal.cmp .ogt (fnorm R) (Ideal.ofBits .f32 0x40A00000#32))
      (R i * Ideal.div (Ideal.ofBits .f32 0x40A00000#32) (fnorm R + Ideal.ofBits .f32 0x358637BD#32)) (R i)
    = R i * Scalar.select (Ideal.cmp .ogt (fnorm R) (Ideal.ofBits .f32 0x40A00000#32))
      (Ideal.div (Ideal.ofBits .f32 0x40A00000#32) (fnorm R + Ideal.ofBits .f32 0x358637BD#32))
      (Ideal.ofBits .f32 0x3F800000#32)
  rcases BitVec.eq_zero_or_eq_one (Ideal.cmp .ogt (fnorm R) (Ideal.ofBits .f32 0x40A00000#32)) with h | h
  · rw [h, select_zero, select_zero, lit_one, mul_one]
  · rw [h, select_one, select_one]

/-- Operation 41 is the new slow trace. -/
theorem ref_newSlow (x0 x1 x2 x3 : (⟨S4096x4096, .f32⟩ : BufTy).Contents (Elt Ideal)) :
    val_main_v41 (F := Ideal) x0 x1 x2 x3
      = newSlow x3 (newFast (raw x0 (yact (ymat x0 (weff x1 x2 x3))) x2)) := by
  funext i
  rw [val_main_v41_apply, val_main_v38_apply, val_main_v37_apply, val_main_cst_12_apply, val_main_v40_apply,
    val_main_v39_apply, val_main_cst_13_apply, ref_newFast]
  rfl

end Cert.RefSpec

end
-- ==== Proof.lean ====
/-
  The certificate's five claims.

  Both programs compute, on the extended reals, the same three arrays of the four arguments x, weight, fast, slow:
  with weff the row-quantised weight plus 0.1 · fast + 0.05 · slow, the product y = x · weffᵀ; the new fast trace
  0.95 · fast + 0.05 · (relu(y)ᵀ · x) / 4096, multiplied by 5 / (norm + 1e-6) when its Frobenius norm exceeds 5; and the
  new slow trace 0.99 · slow + 0.01 · (new fast). The kernel forms the two products block by block, adding four partial
  sums over the contracted axis from zero, where the reference takes each sum whole: addition on the extended reals is
  associative and commutative, so the two agree, infinities included. The kernel multiplies by 2⁻¹² where the reference
  divides by 4096, and it multiplies by a selected factor (the quotient, or 1) where the reference selects between the
  scaled and the unscaled array: both agree on every extended real. No step needs the inputs to be finite.

  The three frames: each kernel program runs its four regions and three host stretches to the end, nothing faulting,
  with the four arguments as launched (no region writes an argument, no host operation does); the reference is a
  straight line of host operations.
-/
import proofs.«139551_j86955907875211_1_alg».proof.Defs
import proofs.«139551_j86955907875211_1_alg».proof.Proof.Gen.Kernel
import proofs.«139551_j86955907875211_1_alg».proof.Proof.Gen.KernelIdeal
import proofs.«139551_j86955907875211_1_alg».proof.Proof.Gen.ReferenceIdeal
import proofs.«139551_j86955907875211_1_alg».proof.Proof.Gen.Pre_finite_inputs
import proofs.«139551_j86955907875211_1_alg».proof.Proof.Gen.ReferenceIdeal.Run
import proofs.«139551_j86955907875211_1_alg».proof.Proof.Gen.ReferenceIdeal.Read
import proofs.«139551_j86955907875211_1_alg».proof.Proof.KFrame
import proofs.«139551_j86955907875211_1_alg».proof.Proof.KIWhole
import proofs.«139551_j86955907875211_1_alg».proof.Proof.RefSpec
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame_all m ρ

theorem frame_ki : Cert.frame_KernelIdeal := fun m ρ _ => Cert.KernelIdeal.Gen.frame_all m ρ

/-- The reference's frame is its run with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The ideal pass rewrote nothing. -/
theorem preserves : Cert.preserves_Kernel_KernelIdeal := trivial

/-- Both runs end with the three results at the specification's functions of the (agreeing) arguments. -/
theorem algebraic : Cert.algebraic_KernelIdeal_ReferenceIdeal := by
  intro m ρ m' ρ' _ hagree
  refine ⟨fun c => Cert.KernelIdeal.Whole.YM m c, fun c => Cert.Spec.newFast (Cert.KernelIdeal.Whole.RW m c),
    fun c => Cert.Spec.newSlow (Cert.KernelIdeal.Whole.a3 m c) (Cert.Spec.newFast (Cert.KernelIdeal.Whole.RW m c)),
    Cert.KernelIdeal.Whole.run_values m ρ, ?_⟩
  refine (θ_run Cert.ReferenceIdeal.defs _ _).mono (fun _ h c => ?_) (Cert.ReferenceIdeal.Value.run (F := Ideal) m' ρ')
  obtain ⟨h19, h36, h41, h0, h1, h2, h3⟩ := h c
  obtain ⟨g0, g1, g2, g3⟩ := hagree c
  refine ⟨?_, ?_, ?_, h0, h1, h2, h3⟩
  · refine h19.trans ((Cert.ReferenceIdeal.Read.val_main_v19_eq _ _ _ _).trans ((Cert.RefSpec.ref_ymat _ _ _ _).trans ?_))
    rw [g0, g1, g2, g3]
  · refine h36.trans ((Cert.ReferenceIdeal.Read.val_main_v36_eq m' c).trans ((Cert.RefSpec.ref_newFast _ _ _ _).trans ?_))
    rw [g0, g1, g2, g3]
  · refine h41.trans ((Cert.ReferenceIdeal.Read.val_main_v41_eq m' c).trans ((Cert.RefSpec.ref_newSlow _ _ _ _).trans ?_))
    rw [g0, g1, g2, g3]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
